-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x64 : Shape := ⟨2, ![1024, 64]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_arg4 : FVec F S1024x64 .f32) (main_arg5 : FVec F S1024x64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S1024x64 .f32 := Host.absf main_arg4
  let main_cst_6 : FVec F S_ .f32 := constant S_ .f32 0x7F800000#32
  let main_v20 : FVec F S1024x64 .f32 := broadcastInDim S1024x64 ![] bcast_S_S1024x64 main_cst_6
  let main_v21 : IVec S1024x64 1 := cmpf .olt main_v19 main_v20
  let main_c_7 : IVec S_ 1 := constantI S_ 1 1#1
  let main_v22 : IVec S_ 1 := (fun x v => Host.reduce IntOp.andi x v reducesTo_S1024x64_S_d0_1 h_S_) main_v21 main_c_7
  let main_v23 : IVec S_ 1 := andi main_v18 main_v22
  let main_v24 : FVec F S1024x64 .f32 := Host.absf main_arg5
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S8192x1024 .f32) (main_arg3 : FVec F S1024x64 .f32) (main_arg4 : FVec F S1024x64 .f32) (main_arg5 : FVec F S1024x64 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_arg5 main_v13 main_v16
-- ==== Kernel.lean ====
abbrev S8192x1024 : Shape := ⟨2, ![8192, 1024]⟩
abbrev S1024x64 : Shape := ⟨2, ![1024, 64]⟩
abbrev S8192x64 : Shape := ⟨2, ![8192, 64]⟩
abbrev S1024x1024 : Shape := ⟨2, ![1024, 1024]⟩
abbrev S1x8192 : Shape := ⟨2, ![1, 8192]⟩
abbrev S256x64 : Shape := ⟨2, ![256, 64]⟩
abbrev S1x256 : Shape := ⟨2, ![1, 256]⟩
abbrev S8192x256 : Shape := ⟨2, ![8192, 256]⟩
abbrev S256 : Shape := ⟨1, ![256]⟩
abbrev S1x1024 : Shape := ⟨2, ![1, 1024]⟩

abbrev nBuf : Space → Nat
  | .hbm => 11
  | .vmem => 31
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x64, .f32⟩
  | .hbm, ⟨4, _⟩ => ⟨S1024x64, .f32⟩
  | .hbm, ⟨5, _⟩ => ⟨S1024x64, .f32⟩
  | .hbm, ⟨6, _⟩ => ⟨S8192x64, .f32⟩
  | .hbm, ⟨7, _⟩ => ⟨S8192x64, .f32⟩
  | .hbm, ⟨8, _⟩ => ⟨S8192x64, .f32⟩
  | .hbm, ⟨9, _⟩ => ⟨S1x8192, .f32⟩
  | .hbm, ⟨10, _⟩ => ⟨S8192x64, .f32⟩
  | .local _ .vmem, ⟨0, _⟩ => ⟨S1024x1024, .f32⟩
  | .local _ .vmem, ⟨1, _⟩ => ⟨S1024x1024, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x1024, .f32⟩
  | .local _ .vmem, ⟨6, _⟩ => ⟨S1024x1024, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1024x1024, .f32⟩
  | .local _ .vmem, ⟨11, _⟩ => ⟨S1024x1024, .f32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S8192x64, .f32⟩
  | .local _ .vmem, ⟨16, _⟩ => ⟨S256x64, .f32⟩
  | .local _ .vmem, ⟨17, _⟩ => ⟨S256x64, .f32⟩
  | .local _ .vmem, ⟨18, _⟩ => ⟨S1x256, .f32⟩
  | .local _ .vmem, ⟨19, _⟩ => ⟨S1x256, .f32⟩
  | .local _ .vmem, ⟨20, _⟩ => ⟨S1024x64, .f32⟩
  | .local _ .vmem, ⟨21, _⟩ => ⟨S1024x64, .f32⟩
  | .local _ .vmem, ⟨22, _⟩ => ⟨S1024x64, .f32⟩
  | .local _ .vmem, ⟨23, _⟩ => ⟨S1024x64, .f32⟩
  | .local _ .vmem, ⟨24, _⟩ => ⟨S1024x64, .f32⟩
  | .local _ .vmem, ⟨25, _⟩ => ⟨S1024x64, .f32⟩
  | .local _ .vmem, ⟨26, _⟩ => ⟨S1x1024, .f32⟩
  | .local _ .vmem, ⟨27, _⟩ => ⟨S1x1024, .f32⟩
  | .local _ .vmem, ⟨28, _⟩ => ⟨S1024x64, .f32⟩
  | .local _ .vmem, ⟨29, _⟩ => ⟨S1024x64, .f32⟩
  | .local _ .vmem, ⟨30, _⟩ => ⟨S1024x64, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc4_stg3_0 : Ref sig .tc := ⟨.vmem, 26, rfl⟩
abbrev cc4_stg3_1 : Ref sig .tc := ⟨.vmem, 27, rfl⟩
abbrev cc4_stg4_0 : Ref sig .tc := ⟨.vmem, 28, rfl⟩
abbrev cc4_stg4_1 : Ref sig .tc := ⟨.vmem, 29, rfl⟩
abbrev cc4_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25
abbrev cc4_sem3_0 : DmaSem sig := 26
abbrev cc4_sem3_1 : DmaSem sig := 27
abbrev cc4_sem4_0 : DmaSem sig := 28
abbrev cc4_sem4_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S8192x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S256x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![8, 8], ![false, false]⟩

def k4_cond2 (i : grid4.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_14 : BitVec 32 := 0#32
  let v29 : BitVec 1 := Scalar.cmpi .ne v28 c0_i32_14
  v29

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1024x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S1x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S1024x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  reduces_S8192x256_S256 : S8192x256.Reduces [0] S256
  shapeCasts_S256_S1x256 : S256.ShapeCasts S1x256
  broadcasts_S1x256_S8192x256 : S1x256.Broadcasts S8192x256
  inb_S1x256_S1x256_0_0 : ∀ a, (![0, 0] : Fin 2 → Nat) a + S1x256.size a ≤ S1x256.size a
  h_S1x256 : 0 < S1x256.numel
  shapeCasts_S1024x64_S1024x64 : S1024x64.ShapeCasts S1024x64
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x64_S1024x64_1_0_0_1_n_n_wf : DotDims.WF S1024x1024 S1024x64 S1024x64 [1] [0] [0] [1] [] []
  dot_S8192x64_S256x64_S8192x256_1_1_0_0_n_n_wf : DotDims.WF S8192x64 S256x64 S8192x256 [1] [1] [0] [0] [] []
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S8192x64.size a
  hwx0_2 : ∀ i : grid0.Coords, EltTy.bits .f32 = 32 ∨ (Rect.block (s := S8192x64) S1024x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S1024x64.size a
  hwx1_1 : ∀ i : grid1.Coords, EltTy.bits .f32 = 32 ∨ (Rect.block (s := S1024x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S8192x64.size a
  hwx1_2 : ∀ i : grid1.Coords, EltTy.bits .f32 = 32 ∨ (Rect.block (s := S8192x64) S1024x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S1024x64.size a
  hwx2_1 : ∀ i : grid2.Coords, EltTy.bits .f32 = 32 ∨ (Rect.block (s := S1024x64) S1024x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x64.size a ≤ S8192x64.size a
  hwx2_2 : ∀ i : grid2.Coords, EltTy.bits .f32 = 32 ∨ (Rect.block (s := S8192x64) S1024x64.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S8192x64.size a ≤ S8192x64.size a
  hwx3_0 : ∀ i : grid3.Coords, EltTy.bits .f32 = 32 ∨ (Rect.block (s := S8192x64) S8192x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x64.size a ≤ S8192x64.size a
  hwx3_1 : ∀ i : grid3.Coords, EltTy.bits .f32 = 32 ∨ (Rect.block (s := S8192x64) S256x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x8192.size a
  hwx3_2 : ∀ i : grid3.Coords, EltTy.bits .f32 = 32 ∨ (Rect.block (s := S1x8192) S1x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x64.size a ≤ S8192x64.size a
  hwx4_0 : ∀ i : grid4.Coords, EltTy.bits .f32 = 32 ∨ (Rect.block (s := S8192x64) S1024x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x64.size a ≤ S8192x64.size a
  hwx4_1 : ∀ i : grid4.Coords, EltTy.bits .f32 = 32 ∨ (Rect.block (s := S8192x64) S1024x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x64.size a ≤ S8192x64.size a
  hwx4_2 : ∀ i : grid4.Coords, EltTy.bits .f32 = 32 ∨ (Rect.block (s := S8192x64) S1024x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x1024.size a ≤ S1x8192.size a
  hwx4_3 : ∀ i : grid4.Coords, EltTy.bits .f32 = 32 ∨ (Rect.block (s := S1x8192) S1x1024.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1024x64.size a ≤ S8192x64.size a
  hwx4_4 : ∀ i : grid4.Coords, EltTy.bits .f32 = 32 ∨ (Rect.block (s := S8192x64) S1024x64.size (cc4_transform_4 i) (hinb4_4 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S8192x64_S256x64_S8192x256_1_1_0_0_n_n : DotDims S8192x64 S256x64 S8192x256 where
  lhsContracting := [1]
  rhsContracting := [1]
  lhsNonContracting := [0]
  rhsNonContracting := [0]
  lhsBatch := []
  rhsBatch := []
  wf := dot_S8192x64_S256x64_S8192x256_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1024x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1024x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v0) S8192x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v1) S256x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3) S1x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v0) S1024x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1) S1024x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v2) S1024x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v3) S1x1024.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v4) S1024x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x64 : Shape := ⟨2, ![1024, 64]⟩
abbrev S8192x64 : Shape := ⟨2, ![8192, 64]⟩
abbrev S64x8192 : Shape := ⟨2, ![64, 8192]⟩
abbrev S8192x8192 : Shape := ⟨2, ![8192, 8192]⟩
abbrev S_ : Shape := ⟨0, ![]⟩
abbrev S8192 : Shape := ⟨1, ![8192]⟩
abbrev S1x8192 : Shape := ⟨2, ![1, 8192]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x64, .f32⟩
  | .hbm, ⟨4, _⟩ => ⟨S1024x64, .f32⟩
  | .hbm, ⟨5, _⟩ => ⟨S1024x64, .f32⟩
  | .hbm, ⟨6, _⟩ => ⟨S8192x64, .f32⟩
  | .hbm, ⟨7, _⟩ => ⟨S8192x64, .f32⟩
  | .hbm, ⟨8, _⟩ => ⟨S8192x64, .f32⟩
  | .hbm, ⟨9, _⟩ => ⟨S64x8192, .f32⟩
  | .hbm, ⟨10, _⟩ => ⟨S8192x8192, .f32⟩
  | .hbm, ⟨11, _⟩ => ⟨S_, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S1x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S1x8192, .f32⟩
  | .hbm, ⟨27, _⟩ => ⟨S8192x8192, .f32⟩
  | .hbm, ⟨28, _⟩ => ⟨S8192x8192, .f32⟩
  | .hbm, ⟨29, _⟩ => ⟨S8192x64, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  transposes_S8192x64_S64x8192_1_0 : S8192x64.Transposes [1, 0] S64x8192
  bcast_S_S8192x8192 : S_.BroadcastsInDim S8192x8192 (![] : Fin 0 → Fin S8192x8192.rank)
  reducesTo_S8192x8192_S8192_d0 : S8192x8192.ReducesTo [0] S8192
  h_S_ : 0 < S_.numel
  bcast_S_S8192 : S_.BroadcastsInDim S8192 (![] : Fin 0 → Fin S8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x1024_S1024x64_S8192x64_1_0_0_1_n_n_wf : DotDims.WF S8192x1024 S1024x64 S8192x64 [1] [0] [0] [1] [] []
  dot_S8192x64_S64x8192_S8192x8192_1_0_0_1_n_n_wf : DotDims.WF S8192x64 S64x8192 S8192x8192 [1] [0] [0] [1] [] []
  dot_S8192x8192_S8192x64_S8192x64_1_0_0_1_n_n_wf : DotDims.WF S8192x8192 S8192x64 S8192x64 [1] [0] [0] [1] [] []

variable [Facts₀]

def dot_S8192x1024_S1024x64_S8192x64_1_0_0_1_n_n : DotDims S8192x1024 S1024x64 S8192x64 where
  lhsContracting := [1]
  rhsContracting := [0]
  lhsNonContracting := [0]
  rhsNonContracting := [1]
  lhsBatch := []
  rhsBatch := []
  wf := dot_S8192x1024_S1024x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.KbR0.lean ====
/-
  One projection, x times w, as a pipeline over eight blocks of 1024 rows of x.

  At grid point t the body is handed rows 1024 t to 1024 t + 1023 of x (window 0), the whole matrix w (window 1,
  fetched once and kept), and a buffer for the same rows of the product (window 2). It loads both, forms the
  1024 by 64 block of the product into a zero accumulator, and stores it over the whole output buffer, so after the
  body the output buffer holds the product of the x block with w and the two inputs are as they were.
  Stated for any entry contents V of the core's buffers; the invariant is the pipeline's own (the scoped rest and the
  random-number register, untouched).
-/
import proofs.«154009_j33311766348286_1_alg».proof.Proof.Gen.Kernel.Launch
import proofs.«154009_j33311766348286_1_alg».proof.Proof.Gen.Kernel.Skeleton
import proofs.«154009_j33311766348286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of x in the current staging buffer are the block of the array at the point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for w: fetched at the first point, its block index never moves, so every point finds it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S1024x1024 := Rect.unit (s := S1024x1024) ![0, 0] S1024x1024.size inb_S1024x1024_S1024x1024_0_0
abbrev r0_w : Rect S1024x64 := Rect.unit (s := S1024x64) ![0, 0] S1024x64.size inb_S1024x64_S1024x64_0_0

/-- The output buffer after the body: its one store, of the product of the two loaded blocks. -/
def out0_2 (x0 : Vec F S1024x1024 .f32) (x1 : Vec F S1024x64 .f32) : Vec F S1024x64 .f32 :=
  View.canon [⟨r0_w, k0_pay1 (View.ld x0 r0_x) (View.ld x1 r0_w)⟩]

/-- The one store covers the buffer. -/
theorem cover0_2 (p0 : Vec F S1024x64 .f32) (y : S1024x64.Idx) :
    ∃ pc ∈ ([⟨r0_w, p0⟩] : List (View.Piece (Elt F) S1024x64 .f32)), y ∈ pc.1.set :=
  View.cover_of_tiled [⟨r0_w, p0⟩] S1024x64.size (by rfl) y

set_option maxHeartbeats 1000000 in
/-- The body on whole staging buffers: the inputs at x0 and x1, the output at anything, runs to the continuation with
    the inputs as they were and the output at the product block. -/
theorem sound_kernel0 (c : Dev nD) (E : Set ℕ) (i : grid0.Coords) (arg1 : Memref sig .tc .vmem S1024x1024 .f32) (harg1 : arg1.IsWhole)
    (arg2 : Memref sig .tc .vmem S1024x64 .f32) (harg2 : arg2.IsWhole) (arg3 : Memref sig .tc .vmem S1024x64 .f32) (harg3 : arg3.IsWhole)
    (x0 : Vec F S1024x1024 .f32) (x1 : Vec F S1024x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data: the arrays as the region finds them; after the body at point t the inputs' buffers at their
    blocks and the output's at the product of the two; the pipeline's own invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KbR1.lean ====
/-
  One projection, x times w, as a pipeline over eight blocks of 1024 rows of x.

  At grid point t the body is handed rows 1024 t to 1024 t + 1023 of x (window 0), the whole matrix w (window 1,
  fetched once and kept), and a buffer for the same rows of the product (window 2). It loads both, forms the
  1024 by 64 block of the product into a zero accumulator, and stores it over the whole output buffer, so after the
  body the output buffer holds the product of the x block with w and the two inputs are as they were.
  Stated for any entry contents V of the core's buffers; the invariant is the pipeline's own (the scoped rest and the
  random-number register, untouched).
-/
import proofs.«154009_j33311766348286_1_alg».proof.Proof.Gen.Kernel.Launch
import proofs.«154009_j33311766348286_1_alg».proof.Proof.Gen.Kernel.Skeleton
import proofs.«154009_j33311766348286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of x in the current staging buffer are the block of the array at the point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for w: fetched at the first point, its block index never moves, so every point finds it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S1024x1024 := Rect.unit (s := S1024x1024) ![0, 0] S1024x1024.size inb_S1024x1024_S1024x1024_0_0
abbrev r1_w : Rect S1024x64 := Rect.unit (s := S1024x64) ![0, 0] S1024x64.size inb_S1024x64_S1024x64_0_0

/-- The output buffer after the body: its one store, of the product of the two loaded blocks. -/
def out1_2 (x0 : Vec F S1024x1024 .f32) (x1 : Vec F S1024x64 .f32) : Vec F S1024x64 .f32 :=
  View.canon [⟨r1_w, k1_pay1 (View.ld x0 r1_x) (View.ld x1 r1_w)⟩]

/-- The one store covers the buffer. -/
theorem cover1_2 (p0 : Vec F S1024x64 .f32) (y : S1024x64.Idx) :
    ∃ pc ∈ ([⟨r1_w, p0⟩] : List (View.Piece (Elt F) S1024x64 .f32)), y ∈ pc.1.set :=
  View.cover_of_tiled [⟨r1_w, p0⟩] S1024x64.size (by rfl) y

set_option maxHeartbeats 1000000 in
/-- The body on whole staging buffers: the inputs at x0 and x1, the output at anything, runs to the continuation with
    the inputs as they were and the output at the product block. -/
theorem sound_kernel1 (c : Dev nD) (E : Set ℕ) (i : grid1.Coords) (arg1 : Memref sig .tc .vmem S1024x1024 .f32) (harg1 : arg1.IsWhole)
    (arg2 : Memref sig .tc .vmem S1024x64 .f32) (harg2 : arg2.IsWhole) (arg3 : Memref sig .tc .vmem S1024x64 .f32) (harg3 : arg3.IsWhole)
    (x0 : Vec F S1024x1024 .f32) (x1 : Vec F S1024x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data: the arrays as the region finds them; after the body at point t the inputs' buffers at their
    blocks and the output's at the product of the two; the pipeline's own invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KbR2.lean ====
/-
  One projection, x times w, as a pipeline over eight blocks of 1024 rows of x.

  At grid point t the body is handed rows 1024 t to 1024 t + 1023 of x (window 0), the whole matrix w (window 1,
  fetched once and kept), and a buffer for the same rows of the product (window 2). It loads both, forms the
  1024 by 64 block of the product into a zero accumulator, and stores it over the whole output buffer, so after the
  body the output buffer holds the product of the x block with w and the two inputs are as they were.
  Stated for any entry contents V of the core's buffers; the invariant is the pipeline's own (the scoped rest and the
  random-number register, untouched).
-/
import proofs.«154009_j33311766348286_1_alg».proof.Proof.Gen.Kernel.Launch
import proofs.«154009_j33311766348286_1_alg».proof.Proof.Gen.Kernel.Skeleton
import proofs.«154009_j33311766348286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows of x in the current staging buffer are the block of the array at the point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for w: fetched at the first point, its block index never moves, so every point finds it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_x : Rect S1024x1024 := Rect.unit (s := S1024x1024) ![0, 0] S1024x1024.size inb_S1024x1024_S1024x1024_0_0
abbrev r2_w : Rect S1024x64 := Rect.unit (s := S1024x64) ![0, 0] S1024x64.size inb_S1024x64_S1024x64_0_0

/-- The output buffer after the body: its one store, of the product of the two loaded blocks. -/
def out2_2 (x0 : Vec F S1024x1024 .f32) (x1 : Vec F S1024x64 .f32) : Vec F S1024x64 .f32 :=
  View.canon [⟨r2_w, k2_pay1 (View.ld x0 r2_x) (View.ld x1 r2_w)⟩]

/-- The one store covers the buffer. -/
theorem cover2_2 (p0 : Vec F S1024x64 .f32) (y : S1024x64.Idx) :
    ∃ pc ∈ ([⟨r2_w, p0⟩] : List (View.Piece (Elt F) S1024x64 .f32)), y ∈ pc.1.set :=
  View.cover_of_tiled [⟨r2_w, p0⟩] S1024x64.size (by rfl) y

set_option maxHeartbeats 1000000 in
/-- The body on whole staging buffers: the inputs at x0 and x1, the output at anything, runs to the continuation with
    the inputs as they were and the output at the product block. -/
theorem sound_kernel2 (c : Dev nD) (E : Set ℕ) (i : grid2.Coords) (arg1 : Memref sig .tc .vmem S1024x1024 .f32) (harg1 : arg1.IsWhole)
    (arg2 : Memref sig .tc .vmem S1024x64 .f32) (harg2 : arg2.IsWhole) (arg3 : Memref sig .tc .vmem S1024x64 .f32) (harg3 : arg3.IsWhole)
    (x0 : Vec F S1024x1024 .f32) (x1 : Vec F S1024x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__proj_kernel i arg1 harg1 arg2 harg2 arg3 harg3) K := by
  simp only [cc2__proj_kernel_eq_skeleton]; unfold cc2__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data: the arrays as the region finds them; after the body at point t the inputs' buffers at their
    blocks and the output's at the product of the two; the pipeline's own invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KbR3.lean ====
/-
  The column statistic: for each block of 256 key rows, the log-sum-exp over ALL query rows.

  At grid point t the body is handed the whole projected query matrix q (window 0, fetched once and kept), rows
  256 t to 256 t + 255 of the projected keys k (window 1), and a one-row buffer of 256 entries (window 2). It forms the
  8192 by 256 scores q k^T scaled by one eighth, takes each column's maximum M over the 8192 query rows, sums
  exp (s - M) down each column, and stores M + log of that sum over the whole output buffer. After the body the
  output buffer holds that row and the inputs are as they were. Stated for any entry contents V of the core's
  buffers; the invariant is the pipeline's own.
-/
import proofs.«154009_j33311766348286_1_alg».proof.Proof.Gen.Kernel.Launch
import proofs.«154009_j33311766348286_1_alg».proof.Proof.Gen.Kernel.Skeleton
import proofs.«154009_j33311766348286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The rows of x in the current staging buffer are the block of the array at the point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for w: fetched at the first point, its block index never moves, so every point finds it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_x : Rect S8192x64 := Rect.unit (s := S8192x64) ![0, 0] S8192x64.size inb_S8192x64_S8192x64_0_0
abbrev r3_w : Rect S256x64 := Rect.unit (s := S256x64) ![0, 0] S256x64.size inb_S256x64_S256x64_0_0
abbrev r3_o : Rect S1x256 := Rect.unit (s := S1x256) ![0, 0] S1x256.size inb_S1x256_S1x256_0_0

/-- The output buffer after the body: its one store, of the product of the two loaded blocks. -/
def out3_2 (x0 : Vec F S8192x64 .f32) (x1 : Vec F S256x64 .f32) : Vec F S1x256 .f32 :=
  View.canon [⟨r3_o, k3_pay1 (View.ld x0 r3_x) (View.ld x1 r3_w)⟩]

/-- The one store covers the buffer. -/
theorem cover3_2 (p0 : Vec F S1x256 .f32) (y : S1x256.Idx) :
    ∃ pc ∈ ([⟨r3_o, p0⟩] : List (View.Piece (Elt F) S1x256 .f32)), y ∈ pc.1.set :=
  View.cover_of_tiled [⟨r3_o, p0⟩] S1x256.size (by rfl) y

set_option maxHeartbeats 1000000 in
/-- The body on whole staging buffers: the inputs at x0 and x1, the output at anything, runs to the continuation with
    the inputs as they were and the output at the product block. -/
theorem sound_kernel3 (c : Dev nD) (E : Set ℕ) (i : grid3.Coords) (arg1 : Memref sig .tc .vmem S8192x64 .f32) (harg1 : arg1.IsWhole)
    (arg2 : Memref sig .tc .vmem S256x64 .f32) (harg2 : arg2.IsWhole) (arg3 : Memref sig .tc .vmem S1x256 .f32) (harg3 : arg3.IsWhole)
    (x0 : Vec F S8192x64 .f32) (x1 : Vec F S256x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__lse_kernel i arg1 harg1 arg2 harg2 arg3 harg3) K := by
  simp only [cc3__lse_kernel_eq_skeleton]; unfold cc3__lse_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data: the arrays as the region finds them; after the body at point t the inputs' buffers at their
    blocks and the output's at the product of the two; the pipeline's own invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KbR4.lean ====
/-
  The output kernel: for each block of 1024 query rows, the weighted sum over all key rows, accumulated over eight
  blocks of 1024 key rows in a scratch buffer that lives across grid points.

  The grid is 8 by 8, point t = 8 a + b for query block a and key block b. At a point the body is handed the query
  block (window 0, fetched when b = 0 and kept), the key block, the value block and the matching 1024 entries of the
  log-sum-exp row (windows 1, 2, 3), and the output block for the query rows (window 4, written back only when b = 7).
  If b = 0 it first clears the scratch. Then it forms the 1024 by 1024 scores scaled by one eighth, subtracts the
  log-sum-exp of each column, exponentiates, multiplies by the value block and ADDS the product to the scratch. If
  b = 7 it copies the scratch to the output block. So after point 8 a + b the scratch holds the sum of the products of
  key blocks 0 to b for query block a, and after point 8 a + 7 the output block holds that full sum.
-/
import proofs.«154009_j33311766348286_1_alg».proof.Proof.Gen.Kernel.Launch
import proofs.«154009_j33311766348286_1_alg».proof.Proof.Gen.Kernel.Skeleton
import proofs.«154009_j33311766348286_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

abbrev r4 : Rect S1024x64 := Rect.unit (s := S1024x64) ![0, 0] S1024x64.size inb_S1024x64_S1024x64_0_0
abbrev r4l : Rect S1x1024 := Rect.unit (s := S1x1024) ![0, 0] S1x1024.size inb_S1x1024_S1x1024_0_0

/-- The scratch operand: a whole scoped buffer of the kernel's own, passed beside the windows. -/
abbrev scM4 : Memref sig .tc .vmem S1024x64 .f32 := Memref.whole cc4_scratch0

/-- Whether the point is the first key block of its query block (the scratch is cleared). -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 8 = 0 :=
  (by decide +kernel : ∀ t : Fin grid4.N, cond4_0 (grid4.coords t) ↔ t.val % 8 = 0)
/-- Whether it is the last (the scratch is copied out). -/
abbrev cond4_1 (i : grid4.Coords) : Prop := k4_cond2 i = 1#1
theorem hcond4_1 : ∀ t : Fin cfg4.N, cond4_1 (grid4.coords t) ↔ t.val % 8 = 7 :=
  (by decide +kernel : ∀ t : Fin grid4.N, cond4_1 (grid4.coords t) ↔ t.val % 8 = 7)

/-- One store over the whole 1024 by 64 buffer covers it. -/
theorem cover4 (p0 : Vec F S1024x64 .f32) (y : S1024x64.Idx) :
    ∃ pc ∈ ([⟨r4, p0⟩] : List (View.Piece (Elt F) S1024x64 .f32)), y ∈ pc.1.set :=
  View.cover_of_tiled [⟨r4, p0⟩] S1024x64.size (by rfl) y

/-- The scratch after the accumulating store, from the four input blocks and what the scratch held. -/
def sacc4 (x0 x1 x2 : Vec F S1024x64 .f32) (x3 : Vec F S1x1024 .f32) (xs : Vec F S1024x64 .f32) : Vec F S1024x64 .f32 :=
  View.canon [⟨r4, k4_pay2 (View.ld x0 r4) (View.ld x1 r4) (View.ld x2 r4) (View.ld x3 r4l) (View.ld xs r4)⟩]

set_option maxHeartbeats 1000000 in
/-- A middle key block: nothing cleared, nothing copied out; the scratch goes from xs to the accumulated sum. -/
theorem sound_kernel4_B (c : Dev nD) (E : Set ℕ) (i : grid4.Coords)
    (arg2 : Memref sig .tc .vmem S1024x64 .f32) (harg2 : arg2.IsWhole) (arg3 : Memref sig .tc .vmem S1024x64 .f32) (harg3 : arg3.IsWhole)
    (arg4 : Memref sig .tc .vmem S1024x64 .f32) (harg4 : arg4.IsWhole) (arg5 : Memref sig .tc .vmem S1x1024 .f32) (harg5 : arg5.IsWhole)
    (arg6 : Memref sig .tc .vmem S1024x64 .f32) (harg6 : arg6.IsWhole) (arg7 : Memref sig .tc .vmem S1024x64 .f32) (harg7 : arg7.IsWhole)
    (hc0 : ¬cond4_0 i) (hc1 : ¬cond4_1 i)
    (x0 x1 x2 : Vec F S1024x64 .f32) (x3 : Vec F S1x1024 .f32) (xs : Vec F S1024x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg7 fullShare (sacc4 x0 x1 x2 x3 xs)) -∗ K ⟨⟩))
      ⊢ wp frame (wpE (defs₀ (F := F)) Variants.none c none) E (cc4__out_kernel i arg2 harg2 arg3 harg3 arg4 harg4 arg5 harg5 arg6 harg6 arg7 harg7) K := by
  simp only [cc4__out_kernel_eq_skeleton]; unfold cc4__out_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  exact View.read_writes_eq_canon _ _ _ (cover4 _)

/-- The offset of a whole-buffer rectangle is zero on every axis. -/
theorem hz4 : (![0, 0] : Fin S1024x64.rank → Nat) = fun _ => 0 := by
  funext a; fin_cases a <;> rfl

set_option maxHeartbeats 1000000 in
/-- The last key block: the scratch goes from xs to the accumulated sum, and that sum is copied over the output block. -/
theorem sound_kernel4_C (c : Dev nD) (E : Set ℕ) (i : grid4.Coords)
    (arg2 : Memref sig .tc .vmem S1024x64 .f32) (harg2 : arg2.IsWhole) (arg3 : Memref sig .tc .vmem S1024x64 .f32) (harg3 : arg3.IsWhole)
    (arg4 : Memref sig .tc .vmem S1024x64 .f32) (harg4 : arg4.IsWhole) (arg5 : Memref sig .tc .vmem S1x1024 .f32) (harg5 : arg5.IsWhole)
    (arg6 : Memref sig .tc .vmem S1024x64 .f32) (harg6 : arg6.IsWhole) (arg7 : Memref sig .tc .vmem S1024x64 .f32) (harg7 : arg7.IsWhole)
    (hc0 : ¬cond4_0 i) (hc1 : cond4_1 i)
    (x0 x1 x2 : Vec F S1024x64 .f32) (x3 : Vec F S1x1024 .f32) (xs : Vec F S1024x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (sacc4 x0 x1 x2 x3 xs) ∗ owns (c : Thread nD τ) arg7 fullShare (sacc4 x0 x1 x2 x3 xs)) -∗ K ⟨⟩))
      ⊢ wp frame (wpE (defs₀ (F := F)) Variants.none c none) E (cc4__out_kernel i arg2 harg2 arg3 harg3 arg4 harg4 arg5 harg5 arg6 harg6 arg7 harg7) K := by
  simp only [cc4__out_kernel_eq_skeleton]; unfold cc4__out_kernel_skel
  unfold owns
  iintro ⟨⟨%f0, %hf0, H0⟩, ⟨%f1, %hf1, H1⟩, ⟨%f2, %hf2, H2⟩, ⟨%f3, %hf3, H3⟩, ⟨%d6, %f6, -, H6⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    refine (View.read_writes_eq_canon _ _ _ (cover4 _)).trans ?_
    sl_unfold_run_names
    rw [View.readCov_unit_zero _ hz4]
    rfl
  iexists _; isplitr
  swap; · iexact HS
  ipureintro
  exact View.read_writes_eq_canon _ _ _ (cover4 _)

/-- The scratch right after it is cleared. -/
def zero4 : Vec F S1024x64 .f32 := View.canon [⟨r4, k4_pay1 (F := F)⟩]

set_option maxHeartbeats 1000000 in
/-- The first key block: the scratch, whatever it held, is cleared and then receives the first product. -/
theorem sound_kernel4_A (c : Dev nD) (E : Set ℕ) (i : grid4.Coords)
    (arg2 : Memref sig .tc .vmem S1024x64 .f32) (harg2 : arg2.IsWhole) (arg3 : Memref sig .tc .vmem S1024x64 .f32) (harg3 : arg3.IsWhole)
    (arg4 : Memref sig .tc .vmem S1024x64 .f32) (harg4 : arg4.IsWhole) (arg5 : Memref sig .tc .vmem S1x1024 .f32) (harg5 : arg5.IsWhole)
    (arg6 : Memref sig .tc .vmem S1024x64 .f32) (harg6 : arg6.IsWhole) (arg7 : Memref sig .tc .vmem S1024x64 .f32) (harg7 : arg7.IsWhole)
    (hc0 : cond4_0 i) (hc1 : ¬cond4_1 i)
    (x0 x1 x2 : Vec F S1024x64 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare (sacc4 x0 x1 x2 x3 (zero4 (F := F)))) -∗ K ⟨⟩))
      ⊢ wp frame (wpE (defs₀ (F := F)) Variants.none c none) E (cc4__out_kernel i arg2 harg2 arg3 harg3 arg4 harg4 arg5 harg5 arg6 harg6 arg7 harg7) K := by
  simp only [cc4__out_kernel_eq_skeleton]; unfold cc4__out_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  refine (View.read_writes_eq_canon _ _ _ (fun y => ⟨_, List.mem_cons_self, by
    obtain ⟨pc, hpc, hy⟩ := cover4 (k4_pay1 (F := F)) y
    rw [List.mem_singleton] at hpc; subst hpc; exact hy⟩)).trans ?_
  sl_unfold_run_names
  rw [View.canon_cons_unit_zero hz4, View.readCov_unit_zero _ hz4]
  unfold sacc4 zero4
  rw [View.canon_unit_zero hz4, View.canon_unit_zero hz4]
  have e : View.ld (Val := Elt F) (e' := EltTy.f32) (k4_pay1 (F := F)) r4 = k4_pay1 := View.ld_unit_zero (S := S1024x64) hz4 _ _
  rw [e]
  rfl

/-- The core's other scoped buffers (the staging buffers of the four earlier pipelines), each whole at anything: they
    ride through this region untouched. -/
def others4 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc3_stg0_0), ((c : Thread nD τ).loc cc3_stg0_0) ↦{fullShare} f)
    ∗ (∃ f : Buf (Elt F) ((c : Thread nD τ).loc cc3_stg1_0), ((c : Thread nD τ).loc cc3_stg1_0) ↦{fullShare} f)
    ∗ (∃ f : Buf (Elt F) ((c : Thread nD τ).loc cc3_stg1_1), ((c : Thread nD τ).loc cc3_stg1_1) ↦{fullShare} f)
    ∗ (∃ f : Buf (Elt F) ((c : Thread nD τ).loc cc3_stg2_0), ((c : Thread nD τ).loc cc3_stg2_0) ↦{fullShare} f)
    ∗ (∃ f : Buf (Elt F) ((c : Thread nD τ).loc cc3_stg2_1), ((c : Thread nD τ).loc cc3_stg2_1) ↦{fullShare} f))

/-- The pipeline's own invariant with the scratch taken out in front: the scratch at some contents, the other scoped
    buffers, the random-number register. -/
theorem PhiA4_eq (c : Dev nD) :
    (Pipeline.ΦA spec4 c : sProp 𝕄)
      = iprop(iprop((∃ d, owns (c : Thread nD τ) scM4 fullShare d) ∗ others4 c) ∗ (∃ r, prngReg c r)) := by
  unfold Pipeline.ΦA others4
  rw [Pipeline.scopedRest_eq_of_list spec4 c [cc4_scratch0, cc0_stg0_0, cc0_stg0_1, cc0_stg1_0, cc0_stg2_0, cc0_stg2_1, cc1_stg0_0, cc1_stg0_1, cc1_stg1_0, cc1_stg2_0, cc1_stg2_1, cc2_stg0_0, cc2_stg0_1, cc2_stg1_0, cc2_stg2_0, cc2_stg2_1, cc3_stg0_0, cc3_stg1_0, cc3_stg1_1, cc3_stg2_0, cc3_stg2_1] (by decide) (by decide)]
  simp only [scM4, owns_whole]; try rfl

/-! ## The accumulator, point by point -/

/-- What the scratch holds after point n: at the first key block of a query block the first product over the cleared
    scratch, otherwise the point's product added to what the point before left. -/
def acc4 (c : Dev nD) : (n : ℕ) → n < cfg4.N → Vec F S1024x64 .f32
  | 0, hn => sacc4 (iblk4 V c 0 ⟨0, hn⟩) (iblk4 V c 1 ⟨0, hn⟩) (iblk4 V c 2 ⟨0, hn⟩) (iblk4 V c 3 ⟨0, hn⟩) (zero4 (F := F))
  | n + 1, hn =>
    if (n + 1) % 8 = 0 then sacc4 (iblk4 V c 0 ⟨n + 1, hn⟩) (iblk4 V c 1 ⟨n + 1, hn⟩) (iblk4 V c 2 ⟨n + 1, hn⟩) (iblk4 V c 3 ⟨n + 1, hn⟩) (zero4 (F := F))
    else sacc4 (iblk4 V c 0 ⟨n + 1, hn⟩) (iblk4 V c 1 ⟨n + 1, hn⟩) (iblk4 V c 2 ⟨n + 1, hn⟩) (iblk4 V c 3 ⟨n + 1, hn⟩) (acc4 c n (Nat.lt_of_succ_lt hn))

theorem acc4_first (c : Dev nD) (t : Fin cfg4.N) (h0 : t.val % 8 = 0) :
    acc4 V c t.val t.isLt = sacc4 (iblk4 V c 0 t) (iblk4 V c 1 t) (iblk4 V c 2 t) (iblk4 V c 3 t) (zero4 (F := F)) := by
  obtain ⟨n, hn⟩ := t
  cases n with
  | zero => rfl
  | succ n => exact if_pos h0

theorem acc4_next (c : Dev nD) (t : Fin cfg4.N) (h0 : ¬t.val % 8 = 0) :
    acc4 V c t.val t.isLt = sacc4 (iblk4 V c 0 t) (iblk4 V c 1 t) (iblk4 V c 2 t) (iblk4 V c 3 t) (acc4 V c (t.val - 1) (Nat.lt_of_le_of_lt (Nat.sub_le _ _) t.isLt)) := by
  obtain ⟨n, hn⟩ := t
  cases n with
  | zero => exact absurd (Nat.zero_mod _) h0
  | succ n => exact if_neg h0

/-- The region's invariant before position n: before the first point the pipeline's own; afterwards the scratch at what
    the point before left, the other scoped buffers at anything, the random-number register at some state. -/
def PhiS4 (c : Dev nD) : (n : ℕ) → n ≤ cfg4.N → sProp 𝕄
  | 0, _ => Pipeline.ΦA spec4 c
  | n + 1, hn => iprop(iprop(owns (c : Thread nD τ) scM4 fullShare (acc4 V c n hn) ∗ others4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare (acc4 V c n hn) ∗ others4 c) ∗ (∃ r, prngReg c r)) := rfl

theorem PhiS4_pos (c : Dev nD) (n : ℕ) (h : n ≤ cfg4.N) (hz : n ≠ 0) :
    PhiS4 V c n h = iprop(iprop(owns (c : Thread nD τ) scM4 fullShare (acc4 V c (n - 1) (by omega)) ∗ others4 c) ∗ (∃ r, prngReg c r)) := by
  cases n with
  | zero => exact absurd rfl hz
  | succ n => rfl

/-- The proof data: the arrays as the region finds them; after the body at point t each input's buffer at its block
    and the output's at the accumulator (which is what the last key block copies there; at the other points the window
    is idle and this component is consulted by nothing); the invariant carrying the scratch; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = acc4 V c t.val t.isLt := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- Away from the last key block the output window is idle and is not written back. -/
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
/-- At the last key block it is live. -/
theorem liveAt4_4 : ∀ t : Fin cfg4.N, cond4_1 (grid4.coords t) → cfg4.idle 4 (grid4.coords t) = false := by decide +kernel

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
/-- The body at any point. The inputs' buffers hold their blocks. By the key block: at the first the invariant hands over
    the scratch at anything (before the very first point) or at what the previous query block left, and the body clears
    it; at a later one the scratch holds what the point before left. The invariant takes the scratch back at this point's
    accumulator. Away from the last key block the output buffer is handed back untouched; at the last it holds the
    accumulator. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 64 := lt_of_lt_of_eq t.isLt (show cfg4.N = 64 from N_4)
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  rw [show (dat4 V c).leavesExact 3 t = owns (c : Thread nD τ) (st4_3 t) fullShare ((dat4 V c).after 3 t) from by
    unfold Dat.leavesExact; rw [liveAt4_3 t], after4_3]
  by_cases h0 : t.val % 8 = 0
  · have h1 : ¬t.val % 8 = 7 := by omega
    have hc0 : cond4_0 (grid4.coords t) := (hcond4_0 t).mpr h0
    have hc1 : ¬cond4_1 (grid4.coords t) := fun h => h1 ((hcond4_1 t).mp h)
    rw [Dat.leavesExact_idle (dat4 V c) 4 t (idleAt4_4 t hc1) (noFlush4_4 t hc1)]
    rw [acc4_first V c t h0]
    by_cases hz : t.val = 0
    · rw [PhiS4_castSucc V c t, PhiS4_zero V c _ _ hz, PhiA4_eq]
      iintro ⟨⟨⟨HS, Hoth⟩, Hg⟩, Ho, ⟨%d0, H0⟩, ⟨%d1, H1⟩, ⟨%d2, H2⟩, ⟨%d3, H3⟩, ⟨%d4, H4⟩⟩
      iapply (sound_kernel4_A c Set.univ (grid4.coords t) _ _ _ _ _ _ _ _ _ _ _ _ hc0 hc1 (iblk4 V c 0 t) (iblk4 V c 1 t) (iblk4 V c 2 t) (iblk4 V c 3 t) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexists _; iexact H4
    · rw [PhiS4_castSucc V c t, PhiS4_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply (sound_kernel4_A c Set.univ (grid4.coords t) _ _ _ _ _ _ _ _ _ _ _ _ hc0 hc1 (iblk4 V c 0 t) (iblk4 V c 1 t) (iblk4 V c 2 t) (iblk4 V c 3 t) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬cond4_0 (grid4.coords t) := fun h => h0 ((hcond4_0 t).mp h)
    rw [acc4_next V c t h0]
    rw [PhiS4_castSucc V c t, PhiS4_pos V c _ _ hz]
    by_cases h1 : t.val % 8 = 7
    · have hc1 : cond4_1 (grid4.coords t) := (hcond4_1 t).mpr h1
      rw [show (dat4 V c).leavesExact 4 t = owns (c : Thread nD τ) (st4_4 t) fullShare ((dat4 V c).after 4 t) from by
        unfold Dat.leavesExact; rw [liveAt4_4 t hc1], after4_4, acc4_next V c t h0]
      iintro ⟨⟨⟨HS, Hoth⟩, Hg⟩, Ho, ⟨%d0, H0⟩, ⟨%d1, H1⟩, ⟨%d2, H2⟩, ⟨%d3, H3⟩, ⟨%d4, H4⟩⟩
      iapply (sound_kernel4_C c Set.univ (grid4.coords t) _ _ _ _ _ _ _ _ _ _ _ _ hc0 hc1 (iblk4 V c 0 t) (iblk4 V c 1 t) (iblk4 V c 2 t) (iblk4 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexact H4
    · have hc1 : ¬cond4_1 (grid4.coords t) := fun h => h1 ((hcond4_1 t).mp h)
      rw [Dat.leavesExact_idle (dat4 V c) 4 t (idleAt4_4 t hc1) (noFlush4_4 t hc1)]
      iintro ⟨⟨⟨HS, Hoth⟩, Hg⟩, Ho, ⟨%d0, H0⟩, ⟨%d1, H1⟩, ⟨%d2, H2⟩, ⟨%d3, H3⟩, ⟨%d4, H4⟩⟩
      iapply (sound_kernel4_B c Set.univ (grid4.coords t) _ _ _ _ _ _ _ _ _ _ _ _ hc0 hc1 (iblk4 V c 0 t) (iblk4 V c 1 t) (iblk4 V c 2 t) (iblk4 V c 3 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexists _; iexact H4

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the pipeline's own back: what the scratch holds is forgotten. -/
theorem hout4 (c : Dev nD) : (dat4 V c).Φ (Fin.last cfg4.N) ⊢ Pipeline.ΦA spec4 c := by
  have hN : (Fin.last cfg4.N).val ≠ 0 := by rw [Fin.val_last]; have : cfg4.N = 64 := N_4; omega
  rw [show (dat4 V c).Φ (Fin.last cfg4.N) = PhiS4 V c (Fin.last cfg4.N).val (Nat.le_of_lt_succ (Fin.last cfg4.N).isLt) from rfl,
    PhiS4_pos V c _ _ hN, PhiA4_eq]
  iintro ⟨⟨HS, Hoth⟩, Hg⟩
  isplitl [HS Hoth]
  · isplitl [HS]; · iexists _; iexact HS
    iexact Hoth
  iexact Hg

end Cert.Kernel.Fr

end
-- ==== Proof.KbRun.lean ====
/-
  The five pipelines one after the other: what every buffer of the core holds between them, and the run.

  Between two pipelines the core's unscoped buffers are named: at launch the launch memory; after pipeline K the arrays
  of its windows at what its write-backs leave (the inputs as entered, the output with every block the pipeline wrote
  back) and every other buffer as before. Each pipeline is entered with all unscoped buffers held at the boundary's
  contents beside the random-number register and the core owing nothing, and left the same way at the next boundary;
  the launch theorem for several pipelines then gives a run of the whole program whose every final state holds each
  unscoped buffer at the last boundary's contents. The arguments are no pipeline's output, so they end as launched.
-/
import proofs.«154009_j33311766348286_1_alg».proof.Proof.KbR0
import proofs.«154009_j33311766348286_1_alg».proof.Proof.KbR1
import proofs.«154009_j33311766348286_1_alg».proof.Proof.KbR2
import proofs.«154009_j33311766348286_1_alg».proof.Proof.KbR3
import proofs.«154009_j33311766348286_1_alg».proof.Proof.KbR4
import Idealize.ShloMosaic.Lib.Pipeline.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After pipeline 0: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After pipeline 1: its arrays at what the pipeline leaves, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After pipeline 2: its arrays at what the pipeline leaves, every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- After pipeline 3: its arrays at what the pipeline leaves, every other buffer as entered. -/
def W4 (c : Dev nD) : Valuation τ sig (Elt F) :=
  Pipeline.withArrays spec3 c (W3 m ρ c) fun w => (dat3 (V3 m ρ) c).arrAt w cfg3.N
theorem W4_arr (c : Dev nD) (w : Fin cfg3.W) :
    W4 m ρ c (Proc.devRef .tc (Pipeline.arrRef spec3 w)) = (dat3 (V3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
abbrev V4 : (c : Dev nD) → (b : Ref sig .tc) → Buf (Elt F) ((c : Thread nD τ).loc b) := fun c b => W4 m ρ c b
theorem hF3 (c : Dev nD) (w : Fin cfg3.W) : (dat3 (V3 m ρ) c).arrAt w cfg3.N = V4 m ρ c (Pipeline.arrRef spec3 w) :=
  (W4_arr m ρ c w).symm
theorem hrest3 (c : Dev nD) : ∀ b, b ∉ Finset.univ.image (Pipeline.arrRef spec3) → V4 m ρ c b = V3 m ρ c b :=
  fun b hb => W4_of_ne m ρ c b fun w e => hb (Finset.mem_image.mpr ⟨w, Finset.mem_univ _, e⟩)

/-- After pipeline 4: its arrays at what the pipeline leaves, every other buffer as entered. -/
def W5 (c : Dev nD) : Valuation τ sig (Elt F) :=
  Pipeline.withArrays spec4 c (W4 m ρ c) fun w => (dat4 (V4 m ρ) c).arrAt w cfg4.N
theorem W5_arr (c : Dev nD) (w : Fin cfg4.W) :
    W5 m ρ c (Proc.devRef .tc (Pipeline.arrRef spec4 w)) = (dat4 (V4 m ρ) c).arrAt w cfg4.N := by
  unfold W5; exact Pipeline.withArrays_arr spec4 launch4.win.arr_inj c _ _ w
theorem W5_of_ne (c : Dev nD) (b : Ref sig .tc) (hb : ∀ w, Pipeline.arrRef spec4 w ≠ b) :
    W5 m ρ c (Proc.devRef .tc b) = W4 m ρ c (Proc.devRef .tc b) := by
  unfold W5; exact Pipeline.withArrays_of_ne spec4 c _ _ b hb
abbrev V5 : (c : Dev nD) → (b : Ref sig .tc) → Buf (Elt F) ((c : Thread nD τ).loc b) := fun c b => W5 m ρ c b
theorem hF4 (c : Dev nD) (w : Fin cfg4.W) : (dat4 (V4 m ρ) c).arrAt w cfg4.N = V5 m ρ c (Pipeline.arrRef spec4 w) :=
  (W5_arr m ρ c w).symm
theorem hrest4 (c : Dev nD) : ∀ b, b ∉ Finset.univ.image (Pipeline.arrRef spec4) → V5 m ρ c b = V4 m ρ c b :=
  fun b hb => W5_of_ne m ρ c b fun w e => hb (Finset.mem_image.mpr ⟨w, Finset.mem_univ _, e⟩)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := (W3_arr m ρ c 0).trans (((dat2 (V2 m ρ) c).arrAt_in 0 rfl _).trans (A_eq2 (V2 m ρ) c 0))
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := (W1_arr m ρ c 1).trans (((dat0 (V0 m ρ) c).arrAt_in 1 rfl _).trans (A_eq0 (V0 m ρ) c 1))
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := (W2_arr m ρ c 1).trans (((dat1 (V1 m ρ) c).arrAt_in 1 rfl _).trans (A_eq1 (V1 m ρ) c 1))
    _ = W0 m ρ c (Proc.devRef .tc main_arg4) := W1_of_ne m ρ c main_arg4 (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := (W3_arr m ρ c 1).trans (((dat2 (V2 m ρ) c).arrAt_in 1 rfl _).trans (A_eq2 (V2 m ρ) c 1))
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
  | ⟨4, _⟩ => fun c => dat4 (V4 m ρ) c
abbrev 𝒱₀ : Variants := Variants.none
abbrev L : GSem nD τ sig → Finset Unit := fun _ => ∅
abbrev lv : GSem nD τ sig → Unit → ℕ := fun _ _ => 0
/-- What rides beside the buffers through every segment: the random-number register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The pipelines as segments -/

set_option backward.isDefEq.respectTransparency.types false in
/-- Pipeline 0 over the thread state: entered from every unscoped buffer at the boundary before it, left at the one after. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 over the thread state: entered from every unscoped buffer at the boundary before it, left at the one after. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 over the thread state: entered from every unscoped buffer at the boundary before it, left at the one after. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 3 over the thread state: entered from every unscoped buffer at the boundary before it, left at the one after. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V3 m ρ c) (V4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 4 over the thread state: entered from every unscoped buffer at the boundary before it, left at the one after. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V4 m ρ) c).loose
  hwaits := Pipeline.hwaits_of_owed_zero _ _ _ _ L lv 4 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (hout4 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V4 m ρ c) (V5 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ), .region (reg2 m ρ), .region (reg3 m ρ), .region (reg4 m ρ) ]
theorem main_run (c : Dev nD) : main (F := F) c = Pipeline.Seg.run (segs m ρ) :=
  main_segs adm (pdats m ρ) () 𝒱₀ L lv (reg0 m ρ) (reg1 m ρ) (reg2 m ρ) (reg3 m ρ) (reg4 m ρ) c

set_option backward.isDefEq.respectTransparency.types false in
/-- THE RUN. From any memory with zero counters every weakly fair execution of the program terminates, nothing faulting,
    and every final state holds each unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the program runs to the end, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run_all m ρ)

end Cert.Kernel.Fr

end
-- ==== Proof.KiR0.lean ====
/-
  One projection, x times w, as a pipeline over eight blocks of 1024 rows of x.

  At grid point t the body is handed rows 1024 t to 1024 t + 1023 of x (window 0), the whole matrix w (window 1,
  fetched once and kept), and a buffer for the same rows of the product (window 2). It loads both, forms the
  1024 by 64 block of the product into a zero accumulator, and stores it over the whole output buffer, so after the
  body the output buffer holds the product of the x block with w and the two inputs are as they were.
  Stated for any entry contents V of the core's buffers; the invariant is the pipeline's own (the scoped rest and the
  random-number register, untouched).
-/
import proofs.«154009_j33311766348286_1_alg».proof.Proof.Gen.KernelIdeal.Launch
import proofs.«154009_j33311766348286_1_alg».proof.Proof.Gen.KernelIdeal.Skeleton
import proofs.«154009_j33311766348286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of x in the current staging buffer are the block of the array at the point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for w: fetched at the first point, its block index never moves, so every point finds it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S1024x1024 := Rect.unit (s := S1024x1024) ![0, 0] S1024x1024.size inb_S1024x1024_S1024x1024_0_0
abbrev r0_w : Rect S1024x64 := Rect.unit (s := S1024x64) ![0, 0] S1024x64.size inb_S1024x64_S1024x64_0_0

/-- The output buffer after the body: its one store, of the product of the two loaded blocks. -/
def out0_2 (x0 : Vec F S1024x1024 .f32) (x1 : Vec F S1024x64 .f32) : Vec F S1024x64 .f32 :=
  View.canon [⟨r0_w, k0_pay1 (View.ld x0 r0_x) (View.ld x1 r0_w)⟩]

/-- The one store covers the buffer. -/
theorem cover0_2 (p0 : Vec F S1024x64 .f32) (y : S1024x64.Idx) :
    ∃ pc ∈ ([⟨r0_w, p0⟩] : List (View.Piece (Elt F) S1024x64 .f32)), y ∈ pc.1.set :=
  View.cover_of_tiled [⟨r0_w, p0⟩] S1024x64.size (by rfl) y

set_option maxHeartbeats 1000000 in
/-- The body on whole staging buffers: the inputs at x0 and x1, the output at anything, runs to the continuation with
    the inputs as they were and the output at the product block. -/
theorem sound_kernel0 (c : Dev nD) (E : Set ℕ) (i : grid0.Coords) (arg1 : Memref sig .tc .vmem S1024x1024 .f32) (harg1 : arg1.IsWhole)
    (arg2 : Memref sig .tc .vmem S1024x64 .f32) (harg2 : arg2.IsWhole) (arg3 : Memref sig .tc .vmem S1024x64 .f32) (harg3 : arg3.IsWhole)
    (x0 : Vec F S1024x1024 .f32) (x1 : Vec F S1024x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data: the arrays as the region finds them; after the body at point t the inputs' buffers at their
    blocks and the output's at the product of the two; the pipeline's own invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KiR1.lean ====
/-
  One projection, x times w, as a pipeline over eight blocks of 1024 rows of x.

  At grid point t the body is handed rows 1024 t to 1024 t + 1023 of x (window 0), the whole matrix w (window 1,
  fetched once and kept), and a buffer for the same rows of the product (window 2). It loads both, forms the
  1024 by 64 block of the product into a zero accumulator, and stores it over the whole output buffer, so after the
  body the output buffer holds the product of the x block with w and the two inputs are as they were.
  Stated for any entry contents V of the core's buffers; the invariant is the pipeline's own (the scoped rest and the
  random-number register, untouched).
-/
import proofs.«154009_j33311766348286_1_alg».proof.Proof.Gen.KernelIdeal.Launch
import proofs.«154009_j33311766348286_1_alg».proof.Proof.Gen.KernelIdeal.Skeleton
import proofs.«154009_j33311766348286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of x in the current staging buffer are the block of the array at the point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for w: fetched at the first point, its block index never moves, so every point finds it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S1024x1024 := Rect.unit (s := S1024x1024) ![0, 0] S1024x1024.size inb_S1024x1024_S1024x1024_0_0
abbrev r1_w : Rect S1024x64 := Rect.unit (s := S1024x64) ![0, 0] S1024x64.size inb_S1024x64_S1024x64_0_0

/-- The output buffer after the body: its one store, of the product of the two loaded blocks. -/
def out1_2 (x0 : Vec F S1024x1024 .f32) (x1 : Vec F S1024x64 .f32) : Vec F S1024x64 .f32 :=
  View.canon [⟨r1_w, k1_pay1 (View.ld x0 r1_x) (View.ld x1 r1_w)⟩]

/-- The one store covers the buffer. -/
theorem cover1_2 (p0 : Vec F S1024x64 .f32) (y : S1024x64.Idx) :
    ∃ pc ∈ ([⟨r1_w, p0⟩] : List (View.Piece (Elt F) S1024x64 .f32)), y ∈ pc.1.set :=
  View.cover_of_tiled [⟨r1_w, p0⟩] S1024x64.size (by rfl) y

set_option maxHeartbeats 1000000 in
/-- The body on whole staging buffers: the inputs at x0 and x1, the output at anything, runs to the continuation with
    the inputs as they were and the output at the product block. -/
theorem sound_kernel1 (c : Dev nD) (E : Set ℕ) (i : grid1.Coords) (arg1 : Memref sig .tc .vmem S1024x1024 .f32) (harg1 : arg1.IsWhole)
    (arg2 : Memref sig .tc .vmem S1024x64 .f32) (harg2 : arg2.IsWhole) (arg3 : Memref sig .tc .vmem S1024x64 .f32) (harg3 : arg3.IsWhole)
    (x0 : Vec F S1024x1024 .f32) (x1 : Vec F S1024x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data: the arrays as the region finds them; after the body at point t the inputs' buffers at their
    blocks and the output's at the product of the two; the pipeline's own invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KiR2.lean ====
/-
  One projection, x times w, as a pipeline over eight blocks of 1024 rows of x.

  At grid point t the body is handed rows 1024 t to 1024 t + 1023 of x (window 0), the whole matrix w (window 1,
  fetched once and kept), and a buffer for the same rows of the product (window 2). It loads both, forms the
  1024 by 64 block of the product into a zero accumulator, and stores it over the whole output buffer, so after the
  body the output buffer holds the product of the x block with w and the two inputs are as they were.
  Stated for any entry contents V of the core's buffers; the invariant is the pipeline's own (the scoped rest and the
  random-number register, untouched).
-/
import proofs.«154009_j33311766348286_1_alg».proof.Proof.Gen.KernelIdeal.Launch
import proofs.«154009_j33311766348286_1_alg».proof.Proof.Gen.KernelIdeal.Skeleton
import proofs.«154009_j33311766348286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows of x in the current staging buffer are the block of the array at the point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for w: fetched at the first point, its block index never moves, so every point finds it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_x : Rect S1024x1024 := Rect.unit (s := S1024x1024) ![0, 0] S1024x1024.size inb_S1024x1024_S1024x1024_0_0
abbrev r2_w : Rect S1024x64 := Rect.unit (s := S1024x64) ![0, 0] S1024x64.size inb_S1024x64_S1024x64_0_0

/-- The output buffer after the body: its one store, of the product of the two loaded blocks. -/
def out2_2 (x0 : Vec F S1024x1024 .f32) (x1 : Vec F S1024x64 .f32) : Vec F S1024x64 .f32 :=
  View.canon [⟨r2_w, k2_pay1 (View.ld x0 r2_x) (View.ld x1 r2_w)⟩]

/-- The one store covers the buffer. -/
theorem cover2_2 (p0 : Vec F S1024x64 .f32) (y : S1024x64.Idx) :
    ∃ pc ∈ ([⟨r2_w, p0⟩] : List (View.Piece (Elt F) S1024x64 .f32)), y ∈ pc.1.set :=
  View.cover_of_tiled [⟨r2_w, p0⟩] S1024x64.size (by rfl) y

set_option maxHeartbeats 1000000 in
/-- The body on whole staging buffers: the inputs at x0 and x1, the output at anything, runs to the continuation with
    the inputs as they were and the output at the product block. -/
theorem sound_kernel2 (c : Dev nD) (E : Set ℕ) (i : grid2.Coords) (arg1 : Memref sig .tc .vmem S1024x1024 .f32) (harg1 : arg1.IsWhole)
    (arg2 : Memref sig .tc .vmem S1024x64 .f32) (harg2 : arg2.IsWhole) (arg3 : Memref sig .tc .vmem S1024x64 .f32) (harg3 : arg3.IsWhole)
    (x0 : Vec F S1024x1024 .f32) (x1 : Vec F S1024x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__proj_kernel i arg1 harg1 arg2 harg2 arg3 harg3) K := by
  simp only [cc2__proj_kernel_eq_skeleton]; unfold cc2__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data: the arrays as the region finds them; after the body at point t the inputs' buffers at their
    blocks and the output's at the product of the two; the pipeline's own invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KiR3.lean ====
/-
  The column statistic: for each block of 256 key rows, the log-sum-exp over ALL query rows.

  At grid point t the body is handed the whole projected query matrix q (window 0, fetched once and kept), rows
  256 t to 256 t + 255 of the projected keys k (window 1), and a one-row buffer of 256 entries (window 2). It forms the
  8192 by 256 scores q k^T scaled by one eighth, takes each column's maximum M over the 8192 query rows, sums
  exp (s - M) down each column, and stores M + log of that sum over the whole output buffer. After the body the
  output buffer holds that row and the inputs are as they were. Stated for any entry contents V of the core's
  buffers; the invariant is the pipeline's own.
-/
import proofs.«154009_j33311766348286_1_alg».proof.Proof.Gen.KernelIdeal.Launch
import proofs.«154009_j33311766348286_1_alg».proof.Proof.Gen.KernelIdeal.Skeleton
import proofs.«154009_j33311766348286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The rows of x in the current staging buffer are the block of the array at the point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for w: fetched at the first point, its block index never moves, so every point finds it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_x : Rect S8192x64 := Rect.unit (s := S8192x64) ![0, 0] S8192x64.size inb_S8192x64_S8192x64_0_0
abbrev r3_w : Rect S256x64 := Rect.unit (s := S256x64) ![0, 0] S256x64.size inb_S256x64_S256x64_0_0
abbrev r3_o : Rect S1x256 := Rect.unit (s := S1x256) ![0, 0] S1x256.size inb_S1x256_S1x256_0_0

/-- The output buffer after the body: its one store, of the product of the two loaded blocks. -/
def out3_2 (x0 : Vec F S8192x64 .f32) (x1 : Vec F S256x64 .f32) : Vec F S1x256 .f32 :=
  View.canon [⟨r3_o, k3_pay1 (View.ld x0 r3_x) (View.ld x1 r3_w)⟩]

/-- The one store covers the buffer. -/
theorem cover3_2 (p0 : Vec F S1x256 .f32) (y : S1x256.Idx) :
    ∃ pc ∈ ([⟨r3_o, p0⟩] : List (View.Piece (Elt F) S1x256 .f32)), y ∈ pc.1.set :=
  View.cover_of_tiled [⟨r3_o, p0⟩] S1x256.size (by rfl) y

set_option maxHeartbeats 1000000 in
/-- The body on whole staging buffers: the inputs at x0 and x1, the output at anything, runs to the continuation with
    the inputs as they were and the output at the product block. -/
theorem sound_kernel3 (c : Dev nD) (E : Set ℕ) (i : grid3.Coords) (arg1 : Memref sig .tc .vmem S8192x64 .f32) (harg1 : arg1.IsWhole)
    (arg2 : Memref sig .tc .vmem S256x64 .f32) (harg2 : arg2.IsWhole) (arg3 : Memref sig .tc .vmem S1x256 .f32) (harg3 : arg3.IsWhole)
    (x0 : Vec F S8192x64 .f32) (x1 : Vec F S256x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__lse_kernel i arg1 harg1 arg2 harg2 arg3 harg3) K := by
  simp only [cc3__lse_kernel_eq_skeleton]; unfold cc3__lse_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data: the arrays as the region finds them; after the body at point t the inputs' buffers at their
    blocks and the output's at the product of the two; the pipeline's own invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KiR4.lean ====
/-
  The output kernel: for each block of 1024 query rows, the weighted sum over all key rows, accumulated over eight
  blocks of 1024 key rows in a scratch buffer that lives across grid points.

  The grid is 8 by 8, point t = 8 a + b for query block a and key block b. At a point the body is handed the query
  block (window 0, fetched when b = 0 and kept), the key block, the value block and the matching 1024 entries of the
  log-sum-exp row (windows 1, 2, 3), and the output block for the query rows (window 4, written back only when b = 7).
  If b = 0 it first clears the scratch. Then it forms the 1024 by 1024 scores scaled by one eighth, subtracts the
  log-sum-exp of each column, exponentiates, multiplies by the value block and ADDS the product to the scratch. If
  b = 7 it copies the scratch to the output block. So after point 8 a + b the scratch holds the sum of the products of
  key blocks 0 to b for query block a, and after point 8 a + 7 the output block holds that full sum.
-/
import proofs.«154009_j33311766348286_1_alg».proof.Proof.Gen.KernelIdeal.Launch
import proofs.«154009_j33311766348286_1_alg».proof.Proof.Gen.KernelIdeal.Skeleton
import proofs.«154009_j33311766348286_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

abbrev r4 : Rect S1024x64 := Rect.unit (s := S1024x64) ![0, 0] S1024x64.size inb_S1024x64_S1024x64_0_0
abbrev r4l : Rect S1x1024 := Rect.unit (s := S1x1024) ![0, 0] S1x1024.size inb_S1x1024_S1x1024_0_0

/-- The scratch operand: a whole scoped buffer of the kernel's own, passed beside the windows. -/
abbrev scM4 : Memref sig .tc .vmem S1024x64 .f32 := Memref.whole cc4_scratch0

/-- Whether the point is the first key block of its query block (the scratch is cleared). -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 8 = 0 :=
  (by decide +kernel : ∀ t : Fin grid4.N, cond4_0 (grid4.coords t) ↔ t.val % 8 = 0)
/-- Whether it is the last (the scratch is copied out). -/
abbrev cond4_1 (i : grid4.Coords) : Prop := k4_cond2 i = 1#1
theorem hcond4_1 : ∀ t : Fin cfg4.N, cond4_1 (grid4.coords t) ↔ t.val % 8 = 7 :=
  (by decide +kernel : ∀ t : Fin grid4.N, cond4_1 (grid4.coords t) ↔ t.val % 8 = 7)

/-- One store over the whole 1024 by 64 buffer covers it. -/
theorem cover4 (p0 : Vec F S1024x64 .f32) (y : S1024x64.Idx) :
    ∃ pc ∈ ([⟨r4, p0⟩] : List (View.Piece (Elt F) S1024x64 .f32)), y ∈ pc.1.set :=
  View.cover_of_tiled [⟨r4, p0⟩] S1024x64.size (by rfl) y

/-- The scratch after the accumulating store, from the four input blocks and what the scratch held. -/
def sacc4 (x0 x1 x2 : Vec F S1024x64 .f32) (x3 : Vec F S1x1024 .f32) (xs : Vec F S1024x64 .f32) : Vec F S1024x64 .f32 :=
  View.canon [⟨r4, k4_pay2 (View.ld x0 r4) (View.ld x1 r4) (View.ld x2 r4) (View.ld x3 r4l) (View.ld xs r4)⟩]

set_option maxHeartbeats 1000000 in
/-- A middle key block: nothing cleared, nothing copied out; the scratch goes from xs to the accumulated sum. -/
theorem sound_kernel4_B (c : Dev nD) (E : Set ℕ) (i : grid4.Coords)
    (arg2 : Memref sig .tc .vmem S1024x64 .f32) (harg2 : arg2.IsWhole) (arg3 : Memref sig .tc .vmem S1024x64 .f32) (harg3 : arg3.IsWhole)
    (arg4 : Memref sig .tc .vmem S1024x64 .f32) (harg4 : arg4.IsWhole) (arg5 : Memref sig .tc .vmem S1x1024 .f32) (harg5 : arg5.IsWhole)
    (arg6 : Memref sig .tc .vmem S1024x64 .f32) (harg6 : arg6.IsWhole) (arg7 : Memref sig .tc .vmem S1024x64 .f32) (harg7 : arg7.IsWhole)
    (hc0 : ¬cond4_0 i) (hc1 : ¬cond4_1 i)
    (x0 x1 x2 : Vec F S1024x64 .f32) (x3 : Vec F S1x1024 .f32) (xs : Vec F S1024x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg7 fullShare (sacc4 x0 x1 x2 x3 xs)) -∗ K ⟨⟩))
      ⊢ wp frame (wpE (defs₀ (F := F)) Variants.none c none) E (cc4__out_kernel i arg2 harg2 arg3 harg3 arg4 harg4 arg5 harg5 arg6 harg6 arg7 harg7) K := by
  simp only [cc4__out_kernel_eq_skeleton]; unfold cc4__out_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  exact View.read_writes_eq_canon _ _ _ (cover4 _)

/-- The offset of a whole-buffer rectangle is zero on every axis. -/
theorem hz4 : (![0, 0] : Fin S1024x64.rank → Nat) = fun _ => 0 := by
  funext a; fin_cases a <;> rfl

set_option maxHeartbeats 1000000 in
/-- The last key block: the scratch goes from xs to the accumulated sum, and that sum is copied over the output block. -/
theorem sound_kernel4_C (c : Dev nD) (E : Set ℕ) (i : grid4.Coords)
    (arg2 : Memref sig .tc .vmem S1024x64 .f32) (harg2 : arg2.IsWhole) (arg3 : Memref sig .tc .vmem S1024x64 .f32) (harg3 : arg3.IsWhole)
    (arg4 : Memref sig .tc .vmem S1024x64 .f32) (harg4 : arg4.IsWhole) (arg5 : Memref sig .tc .vmem S1x1024 .f32) (harg5 : arg5.IsWhole)
    (arg6 : Memref sig .tc .vmem S1024x64 .f32) (harg6 : arg6.IsWhole) (arg7 : Memref sig .tc .vmem S1024x64 .f32) (harg7 : arg7.IsWhole)
    (hc0 : ¬cond4_0 i) (hc1 : cond4_1 i)
    (x0 x1 x2 : Vec F S1024x64 .f32) (x3 : Vec F S1x1024 .f32) (xs : Vec F S1024x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (sacc4 x0 x1 x2 x3 xs) ∗ owns (c : Thread nD τ) arg7 fullShare (sacc4 x0 x1 x2 x3 xs)) -∗ K ⟨⟩))
      ⊢ wp frame (wpE (defs₀ (F := F)) Variants.none c none) E (cc4__out_kernel i arg2 harg2 arg3 harg3 arg4 harg4 arg5 harg5 arg6 harg6 arg7 harg7) K := by
  simp only [cc4__out_kernel_eq_skeleton]; unfold cc4__out_kernel_skel
  unfold owns
  iintro ⟨⟨%f0, %hf0, H0⟩, ⟨%f1, %hf1, H1⟩, ⟨%f2, %hf2, H2⟩, ⟨%f3, %hf3, H3⟩, ⟨%d6, %f6, -, H6⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    refine (View.read_writes_eq_canon _ _ _ (cover4 _)).trans ?_
    sl_unfold_run_names
    rw [View.readCov_unit_zero _ hz4]
    rfl
  iexists _; isplitr
  swap; · iexact HS
  ipureintro
  exact View.read_writes_eq_canon _ _ _ (cover4 _)

/-- The scratch right after it is cleared. -/
def zero4 : Vec F S1024x64 .f32 := View.canon [⟨r4, k4_pay1 (F := F)⟩]

set_option maxHeartbeats 1000000 in
/-- The first key block: the scratch, whatever it held, is cleared and then receives the first product. -/
theorem sound_kernel4_A (c : Dev nD) (E : Set ℕ) (i : grid4.Coords)
    (arg2 : Memref sig .tc .vmem S1024x64 .f32) (harg2 : arg2.IsWhole) (arg3 : Memref sig .tc .vmem S1024x64 .f32) (harg3 : arg3.IsWhole)
    (arg4 : Memref sig .tc .vmem S1024x64 .f32) (harg4 : arg4.IsWhole) (arg5 : Memref sig .tc .vmem S1x1024 .f32) (harg5 : arg5.IsWhole)
    (arg6 : Memref sig .tc .vmem S1024x64 .f32) (harg6 : arg6.IsWhole) (arg7 : Memref sig .tc .vmem S1024x64 .f32) (harg7 : arg7.IsWhole)
    (hc0 : cond4_0 i) (hc1 : ¬cond4_1 i)
    (x0 x1 x2 : Vec F S1024x64 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare (sacc4 x0 x1 x2 x3 (zero4 (F := F)))) -∗ K ⟨⟩))
      ⊢ wp frame (wpE (defs₀ (F := F)) Variants.none c none) E (cc4__out_kernel i arg2 harg2 arg3 harg3 arg4 harg4 arg5 harg5 arg6 harg6 arg7 harg7) K := by
  simp only [cc4__out_kernel_eq_skeleton]; unfold cc4__out_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  refine (View.read_writes_eq_canon _ _ _ (fun y => ⟨_, List.mem_cons_self, by
    obtain ⟨pc, hpc, hy⟩ := cover4 (k4_pay1 (F := F)) y
    rw [List.mem_singleton] at hpc; subst hpc; exact hy⟩)).trans ?_
  sl_unfold_run_names
  rw [View.canon_cons_unit_zero hz4, View.readCov_unit_zero _ hz4]
  unfold sacc4 zero4
  rw [View.canon_unit_zero hz4, View.canon_unit_zero hz4]
  have e : View.ld (Val := Elt F) (e' := EltTy.f32) (k4_pay1 (F := F)) r4 = k4_pay1 := View.ld_unit_zero (S := S1024x64) hz4 _ _
  rw [e]
  rfl

/-- The core's other scoped buffers (the staging buffers of the four earlier pipelines), each whole at anything: they
    ride through this region untouched. -/
def others4 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc3_stg0_0), ((c : Thread nD τ).loc cc3_stg0_0) ↦{fullShare} f)
    ∗ (∃ f : Buf (Elt F) ((c : Thread nD τ).loc cc3_stg1_0), ((c : Thread nD τ).loc cc3_stg1_0) ↦{fullShare} f)
    ∗ (∃ f : Buf (Elt F) ((c : Thread nD τ).loc cc3_stg1_1), ((c : Thread nD τ).loc cc3_stg1_1) ↦{fullShare} f)
    ∗ (∃ f : Buf (Elt F) ((c : Thread nD τ).loc cc3_stg2_0), ((c : Thread nD τ).loc cc3_stg2_0) ↦{fullShare} f)
    ∗ (∃ f : Buf (Elt F) ((c : Thread nD τ).loc cc3_stg2_1), ((c : Thread nD τ).loc cc3_stg2_1) ↦{fullShare} f))

/-- The pipeline's own invariant with the scratch taken out in front: the scratch at some contents, the other scoped
    buffers, the random-number register. -/
theorem PhiA4_eq (c : Dev nD) :
    (Pipeline.ΦA spec4 c : sProp 𝕄)
      = iprop(iprop((∃ d, owns (c : Thread nD τ) scM4 fullShare d) ∗ others4 c) ∗ (∃ r, prngReg c r)) := by
  unfold Pipeline.ΦA others4
  rw [Pipeline.scopedRest_eq_of_list spec4 c [cc4_scratch0, cc0_stg0_0, cc0_stg0_1, cc0_stg1_0, cc0_stg2_0, cc0_stg2_1, cc1_stg0_0, cc1_stg0_1, cc1_stg1_0, cc1_stg2_0, cc1_stg2_1, cc2_stg0_0, cc2_stg0_1, cc2_stg1_0, cc2_stg2_0, cc2_stg2_1, cc3_stg0_0, cc3_stg1_0, cc3_stg1_1, cc3_stg2_0, cc3_stg2_1] (by decide) (by decide)]
  simp only [scM4, owns_whole]; try rfl

/-! ## The accumulator, point by point -/

/-- What the scratch holds after point n: at the first key block of a query block the first product over the cleared
    scratch, otherwise the point's product added to what the point before left. -/
def acc4 (c : Dev nD) : (n : ℕ) → n < cfg4.N → Vec F S1024x64 .f32
  | 0, hn => sacc4 (iblk4 V c 0 ⟨0, hn⟩) (iblk4 V c 1 ⟨0, hn⟩) (iblk4 V c 2 ⟨0, hn⟩) (iblk4 V c 3 ⟨0, hn⟩) (zero4 (F := F))
  | n + 1, hn =>
    if (n + 1) % 8 = 0 then sacc4 (iblk4 V c 0 ⟨n + 1, hn⟩) (iblk4 V c 1 ⟨n + 1, hn⟩) (iblk4 V c 2 ⟨n + 1, hn⟩) (iblk4 V c 3 ⟨n + 1, hn⟩) (zero4 (F := F))
    else sacc4 (iblk4 V c 0 ⟨n + 1, hn⟩) (iblk4 V c 1 ⟨n + 1, hn⟩) (iblk4 V c 2 ⟨n + 1, hn⟩) (iblk4 V c 3 ⟨n + 1, hn⟩) (acc4 c n (Nat.lt_of_succ_lt hn))

theorem acc4_first (c : Dev nD) (t : Fin cfg4.N) (h0 : t.val % 8 = 0) :
    acc4 V c t.val t.isLt = sacc4 (iblk4 V c 0 t) (iblk4 V c 1 t) (iblk4 V c 2 t) (iblk4 V c 3 t) (zero4 (F := F)) := by
  obtain ⟨n, hn⟩ := t
  cases n with
  | zero => rfl
  | succ n => exact if_pos h0

theorem acc4_next (c : Dev nD) (t : Fin cfg4.N) (h0 : ¬t.val % 8 = 0) :
    acc4 V c t.val t.isLt = sacc4 (iblk4 V c 0 t) (iblk4 V c 1 t) (iblk4 V c 2 t) (iblk4 V c 3 t) (acc4 V c (t.val - 1) (Nat.lt_of_le_of_lt (Nat.sub_le _ _) t.isLt)) := by
  obtain ⟨n, hn⟩ := t
  cases n with
  | zero => exact absurd (Nat.zero_mod _) h0
  | succ n => exact if_neg h0

/-- The region's invariant before position n: before the first point the pipeline's own; afterwards the scratch at what
    the point before left, the other scoped buffers at anything, the random-number register at some state. -/
def PhiS4 (c : Dev nD) : (n : ℕ) → n ≤ cfg4.N → sProp 𝕄
  | 0, _ => Pipeline.ΦA spec4 c
  | n + 1, hn => iprop(iprop(owns (c : Thread nD τ) scM4 fullShare (acc4 V c n hn) ∗ others4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare (acc4 V c n hn) ∗ others4 c) ∗ (∃ r, prngReg c r)) := rfl

theorem PhiS4_pos (c : Dev nD) (n : ℕ) (h : n ≤ cfg4.N) (hz : n ≠ 0) :
    PhiS4 V c n h = iprop(iprop(owns (c : Thread nD τ) scM4 fullShare (acc4 V c (n - 1) (by omega)) ∗ others4 c) ∗ (∃ r, prngReg c r)) := by
  cases n with
  | zero => exact absurd rfl hz
  | succ n => rfl

/-- The proof data: the arrays as the region finds them; after the body at point t each input's buffer at its block
    and the output's at the accumulator (which is what the last key block copies there; at the other points the window
    is idle and this component is consulted by nothing); the invariant carrying the scratch; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = acc4 V c t.val t.isLt := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- Away from the last key block the output window is idle and is not written back. -/
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
/-- At the last key block it is live. -/
theorem liveAt4_4 : ∀ t : Fin cfg4.N, cond4_1 (grid4.coords t) → cfg4.idle 4 (grid4.coords t) = false := by decide +kernel

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
/-- The body at any point. The inputs' buffers hold their blocks. By the key block: at the first the invariant hands over
    the scratch at anything (before the very first point) or at what the previous query block left, and the body clears
    it; at a later one the scratch holds what the point before left. The invariant takes the scratch back at this point's
    accumulator. Away from the last key block the output buffer is handed back untouched; at the last it holds the
    accumulator. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 64 := lt_of_lt_of_eq t.isLt (show cfg4.N = 64 from N_4)
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  rw [show (dat4 V c).leavesExact 3 t = owns (c : Thread nD τ) (st4_3 t) fullShare ((dat4 V c).after 3 t) from by
    unfold Dat.leavesExact; rw [liveAt4_3 t], after4_3]
  by_cases h0 : t.val % 8 = 0
  · have h1 : ¬t.val % 8 = 7 := by omega
    have hc0 : cond4_0 (grid4.coords t) := (hcond4_0 t).mpr h0
    have hc1 : ¬cond4_1 (grid4.coords t) := fun h => h1 ((hcond4_1 t).mp h)
    rw [Dat.leavesExact_idle (dat4 V c) 4 t (idleAt4_4 t hc1) (noFlush4_4 t hc1)]
    rw [acc4_first V c t h0]
    by_cases hz : t.val = 0
    · rw [PhiS4_castSucc V c t, PhiS4_zero V c _ _ hz, PhiA4_eq]
      iintro ⟨⟨⟨HS, Hoth⟩, Hg⟩, Ho, ⟨%d0, H0⟩, ⟨%d1, H1⟩, ⟨%d2, H2⟩, ⟨%d3, H3⟩, ⟨%d4, H4⟩⟩
      iapply (sound_kernel4_A c Set.univ (grid4.coords t) _ _ _ _ _ _ _ _ _ _ _ _ hc0 hc1 (iblk4 V c 0 t) (iblk4 V c 1 t) (iblk4 V c 2 t) (iblk4 V c 3 t) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexists _; iexact H4
    · rw [PhiS4_castSucc V c t, PhiS4_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply (sound_kernel4_A c Set.univ (grid4.coords t) _ _ _ _ _ _ _ _ _ _ _ _ hc0 hc1 (iblk4 V c 0 t) (iblk4 V c 1 t) (iblk4 V c 2 t) (iblk4 V c 3 t) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬cond4_0 (grid4.coords t) := fun h => h0 ((hcond4_0 t).mp h)
    rw [acc4_next V c t h0]
    rw [PhiS4_castSucc V c t, PhiS4_pos V c _ _ hz]
    by_cases h1 : t.val % 8 = 7
    · have hc1 : cond4_1 (grid4.coords t) := (hcond4_1 t).mpr h1
      rw [show (dat4 V c).leavesExact 4 t = owns (c : Thread nD τ) (st4_4 t) fullShare ((dat4 V c).after 4 t) from by
        unfold Dat.leavesExact; rw [liveAt4_4 t hc1], after4_4, acc4_next V c t h0]
      iintro ⟨⟨⟨HS, Hoth⟩, Hg⟩, Ho, ⟨%d0, H0⟩, ⟨%d1, H1⟩, ⟨%d2, H2⟩, ⟨%d3, H3⟩, ⟨%d4, H4⟩⟩
      iapply (sound_kernel4_C c Set.univ (grid4.coords t) _ _ _ _ _ _ _ _ _ _ _ _ hc0 hc1 (iblk4 V c 0 t) (iblk4 V c 1 t) (iblk4 V c 2 t) (iblk4 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexact H4
    · have hc1 : ¬cond4_1 (grid4.coords t) := fun h => h1 ((hcond4_1 t).mp h)
      rw [Dat.leavesExact_idle (dat4 V c) 4 t (idleAt4_4 t hc1) (noFlush4_4 t hc1)]
      iintro ⟨⟨⟨HS, Hoth⟩, Hg⟩, Ho, ⟨%d0, H0⟩, ⟨%d1, H1⟩, ⟨%d2, H2⟩, ⟨%d3, H3⟩, ⟨%d4, H4⟩⟩
      iapply (sound_kernel4_B c Set.univ (grid4.coords t) _ _ _ _ _ _ _ _ _ _ _ _ hc0 hc1 (iblk4 V c 0 t) (iblk4 V c 1 t) (iblk4 V c 2 t) (iblk4 V c 3 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexists _; iexact H4

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the pipeline's own back: what the scratch holds is forgotten. -/
theorem hout4 (c : Dev nD) : (dat4 V c).Φ (Fin.last cfg4.N) ⊢ Pipeline.ΦA spec4 c := by
  have hN : (Fin.last cfg4.N).val ≠ 0 := by rw [Fin.val_last]; have : cfg4.N = 64 := N_4; omega
  rw [show (dat4 V c).Φ (Fin.last cfg4.N) = PhiS4 V c (Fin.last cfg4.N).val (Nat.le_of_lt_succ (Fin.last cfg4.N).isLt) from rfl,
    PhiS4_pos V c _ _ hN, PhiA4_eq]
  iintro ⟨⟨HS, Hoth⟩, Hg⟩
  isplitl [HS Hoth]
  · isplitl [HS]; · iexists _; iexact HS
    iexact Hoth
  iexact Hg

end Cert.KernelIdeal.Fr

end
-- ==== Proof.KiRun.lean ====
/-
  The five pipelines one after the other: what every buffer of the core holds between them, and the run.

  Between two pipelines the core's unscoped buffers are named: at launch the launch memory; after pipeline K the arrays
  of its windows at what its write-backs leave (the inputs as entered, the output with every block the pipeline wrote
  back) and every other buffer as before. Each pipeline is entered with all unscoped buffers held at the boundary's
  contents beside the random-number register and the core owing nothing, and left the same way at the next boundary;
  the launch theorem for several pipelines then gives a run of the whole program whose every final state holds each
  unscoped buffer at the last boundary's contents. The arguments are no pipeline's output, so they end as launched.
-/
import proofs.«154009_j33311766348286_1_alg».proof.Proof.KiR0
import proofs.«154009_j33311766348286_1_alg».proof.Proof.KiR1
import proofs.«154009_j33311766348286_1_alg».proof.Proof.KiR2
import proofs.«154009_j33311766348286_1_alg».proof.Proof.KiR3
import proofs.«154009_j33311766348286_1_alg».proof.Proof.KiR4
import Idealize.ShloMosaic.Lib.Pipeline.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After pipeline 0: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After pipeline 1: its arrays at what the pipeline leaves, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After pipeline 2: its arrays at what the pipeline leaves, every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- After pipeline 3: its arrays at what the pipeline leaves, every other buffer as entered. -/
def W4 (c : Dev nD) : Valuation τ sig (Elt F) :=
  Pipeline.withArrays spec3 c (W3 m ρ c) fun w => (dat3 (V3 m ρ) c).arrAt w cfg3.N
theorem W4_arr (c : Dev nD) (w : Fin cfg3.W) :
    W4 m ρ c (Proc.devRef .tc (Pipeline.arrRef spec3 w)) = (dat3 (V3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
abbrev V4 : (c : Dev nD) → (b : Ref sig .tc) → Buf (Elt F) ((c : Thread nD τ).loc b) := fun c b => W4 m ρ c b
theorem hF3 (c : Dev nD) (w : Fin cfg3.W) : (dat3 (V3 m ρ) c).arrAt w cfg3.N = V4 m ρ c (Pipeline.arrRef spec3 w) :=
  (W4_arr m ρ c w).symm
theorem hrest3 (c : Dev nD) : ∀ b, b ∉ Finset.univ.image (Pipeline.arrRef spec3) → V4 m ρ c b = V3 m ρ c b :=
  fun b hb => W4_of_ne m ρ c b fun w e => hb (Finset.mem_image.mpr ⟨w, Finset.mem_univ _, e⟩)

/-- After pipeline 4: its arrays at what the pipeline leaves, every other buffer as entered. -/
def W5 (c : Dev nD) : Valuation τ sig (Elt F) :=
  Pipeline.withArrays spec4 c (W4 m ρ c) fun w => (dat4 (V4 m ρ) c).arrAt w cfg4.N
theorem W5_arr (c : Dev nD) (w : Fin cfg4.W) :
    W5 m ρ c (Proc.devRef .tc (Pipeline.arrRef spec4 w)) = (dat4 (V4 m ρ) c).arrAt w cfg4.N := by
  unfold W5; exact Pipeline.withArrays_arr spec4 launch4.win.arr_inj c _ _ w
theorem W5_of_ne (c : Dev nD) (b : Ref sig .tc) (hb : ∀ w, Pipeline.arrRef spec4 w ≠ b) :
    W5 m ρ c (Proc.devRef .tc b) = W4 m ρ c (Proc.devRef .tc b) := by
  unfold W5; exact Pipeline.withArrays_of_ne spec4 c _ _ b hb
abbrev V5 : (c : Dev nD) → (b : Ref sig .tc) → Buf (Elt F) ((c : Thread nD τ).loc b) := fun c b => W5 m ρ c b
theorem hF4 (c : Dev nD) (w : Fin cfg4.W) : (dat4 (V4 m ρ) c).arrAt w cfg4.N = V5 m ρ c (Pipeline.arrRef spec4 w) :=
  (W5_arr m ρ c w).symm
theorem hrest4 (c : Dev nD) : ∀ b, b ∉ Finset.univ.image (Pipeline.arrRef spec4) → V5 m ρ c b = V4 m ρ c b :=
  fun b hb => W5_of_ne m ρ c b fun w e => hb (Finset.mem_image.mpr ⟨w, Finset.mem_univ _, e⟩)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := (W3_arr m ρ c 0).trans (((dat2 (V2 m ρ) c).arrAt_in 0 rfl _).trans (A_eq2 (V2 m ρ) c 0))
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := (W1_arr m ρ c 1).trans (((dat0 (V0 m ρ) c).arrAt_in 1 rfl _).trans (A_eq0 (V0 m ρ) c 1))
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := (W2_arr m ρ c 1).trans (((dat1 (V1 m ρ) c).arrAt_in 1 rfl _).trans (A_eq1 (V1 m ρ) c 1))
    _ = W0 m ρ c (Proc.devRef .tc main_arg4) := W1_of_ne m ρ c main_arg4 (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := (W3_arr m ρ c 1).trans (((dat2 (V2 m ρ) c).arrAt_in 1 rfl _).trans (A_eq2 (V2 m ρ) c 1))
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
  | ⟨4, _⟩ => fun c => dat4 (V4 m ρ) c
abbrev 𝒱₀ : Variants := Variants.none
abbrev L : GSem nD τ sig → Finset Unit := fun _ => ∅
abbrev lv : GSem nD τ sig → Unit → ℕ := fun _ _ => 0
/-- What rides beside the buffers through every segment: the random-number register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The pipelines as segments -/

set_option backward.isDefEq.respectTransparency.types false in
/-- Pipeline 0 over the thread state: entered from every unscoped buffer at the boundary before it, left at the one after. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 over the thread state: entered from every unscoped buffer at the boundary before it, left at the one after. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 over the thread state: entered from every unscoped buffer at the boundary before it, left at the one after. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 3 over the thread state: entered from every unscoped buffer at the boundary before it, left at the one after. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V3 m ρ c) (V4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 4 over the thread state: entered from every unscoped buffer at the boundary before it, left at the one after. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V4 m ρ) c).loose
  hwaits := Pipeline.hwaits_of_owed_zero _ _ _ _ L lv 4 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (hout4 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V4 m ρ c) (V5 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ), .region (reg2 m ρ), .region (reg3 m ρ), .region (reg4 m ρ) ]
theorem main_run (c : Dev nD) : main (F := F) c = Pipeline.Seg.run (segs m ρ) :=
  main_segs adm (pdats m ρ) () 𝒱₀ L lv (reg0 m ρ) (reg1 m ρ) (reg2 m ρ) (reg3 m ρ) (reg4 m ρ) c

set_option backward.isDefEq.respectTransparency.types false in
/-- THE RUN. From any memory with zero counters every weakly fair execution of the program terminates, nothing faulting,
    and every final state holds each unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the program runs to the end, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run_all m ρ)

end Cert.KernelIdeal.Fr

end
-- ==== Proof.KiCarry.lean ====
/-
  Each intermediate array from the pipeline that writes it to the pipelines that read it.

  The projected queries are written by pipeline 0 and read by pipelines 3 and 4; the projected keys by pipeline 1 and
  read by 3 and 4; the projected values by pipeline 2 and read by 4; the log-sum-exp row by pipeline 3 and read by 4.
  Between writer and reader an array is either among a pipeline's input windows, which returns it as entered, or not
  among its arrays at all. So what a reader finds is what the writer's write-backs left; and every pipeline finds the
  arguments as launched.
-/
import proofs.«154009_j33311766348286_1_alg».proof.Proof.KiRun

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The arguments, as each pipeline finds them -/

theorem V0_arg0 (c : Dev nD) : V0 m ρ c main_arg0 = m ((c : Thread nD τ).loc main_arg0) := rfl
theorem V0_arg3 (c : Dev nD) : V0 m ρ c main_arg3 = m ((c : Thread nD τ).loc main_arg3) := rfl
theorem V1_arg1 (c : Dev nD) : V1 m ρ c main_arg1 = m ((c : Thread nD τ).loc main_arg1) :=
  (W1_of_ne m ρ c main_arg1 (by decide)).trans rfl
theorem V1_arg4 (c : Dev nD) : V1 m ρ c main_arg4 = m ((c : Thread nD τ).loc main_arg4) :=
  (W1_of_ne m ρ c main_arg4 (by decide)).trans rfl
theorem V2_arg2 (c : Dev nD) : V2 m ρ c main_arg2 = m ((c : Thread nD τ).loc main_arg2) :=
  (W2_of_ne m ρ c main_arg2 (by decide)).trans ((W1_of_ne m ρ c main_arg2 (by decide)).trans rfl)
theorem V2_arg5 (c : Dev nD) : V2 m ρ c main_arg5 = m ((c : Thread nD τ).loc main_arg5) :=
  (W2_of_ne m ρ c main_arg5 (by decide)).trans ((W1_of_ne m ρ c main_arg5 (by decide)).trans rfl)

/-! ## The projected queries -/

theorem V3_v0 (c : Dev nD) : V3 m ρ c main_v0 = (dat0 (V0 m ρ) c).arrAt 2 cfg0.N :=
  (W3_of_ne m ρ c main_v0 (by decide)).trans ((W2_of_ne m ρ c main_v0 (by decide)).trans (W1_arr m ρ c 2))
theorem V4_v0 (c : Dev nD) : V4 m ρ c main_v0 = (dat0 (V0 m ρ) c).arrAt 2 cfg0.N :=
  ((W4_arr m ρ c 0).trans (((dat3 (V3 m ρ) c).arrAt_in 0 rfl _).trans (A_eq3 (V3 m ρ) c 0))).trans (V3_v0 m ρ c)

/-! ## The projected keys -/

theorem V3_v1 (c : Dev nD) : V3 m ρ c main_v1 = (dat1 (V1 m ρ) c).arrAt 2 cfg1.N :=
  (W3_of_ne m ρ c main_v1 (by decide)).trans (W2_arr m ρ c 2)
theorem V4_v1 (c : Dev nD) : V4 m ρ c main_v1 = (dat1 (V1 m ρ) c).arrAt 2 cfg1.N :=
  ((W4_arr m ρ c 1).trans (((dat3 (V3 m ρ) c).arrAt_in 1 rfl _).trans (A_eq3 (V3 m ρ) c 1))).trans (V3_v1 m ρ c)

/-! ## The projected values and the log-sum-exp row -/

theorem V4_v2 (c : Dev nD) : V4 m ρ c main_v2 = (dat2 (V2 m ρ) c).arrAt 2 cfg2.N :=
  (W4_of_ne m ρ c main_v2 (by decide)).trans (W3_arr m ρ c 2)
theorem V4_v3 (c : Dev nD) : V4 m ρ c main_v3 = (dat3 (V3 m ρ) c).arrAt 2 cfg3.N :=
  W4_arr m ρ c 2

/-! ## The result -/

theorem W5_v4 (c : Dev nD) : W5 m ρ c (Proc.devRef .tc main_v4) = (dat4 (V4 m ρ) c).arrAt 4 cfg4.N :=
  W5_arr m ρ c 4

end Cert.KernelIdeal.Fr

end
-- ==== Proof.Spec.lean ====
/-
  The function both programs compute, written once over plain coordinates.

  Six real arrays go in: three sequences x_q, x_k, x_v of 8192 rows of 1024 features and three weight matrices of
  1024 by 64. Each sequence is projected to 64 features, q = x_q w_q, k = x_k w_k, v = x_v w_v. The score of query row
  i against key row j is the inner product of q i and k j scaled by one eighth. The softmax normalises each COLUMN of
  the score matrix (over the query rows i, for a fixed key row j), and the result is the normalised weights times v.

  The normaliser is carried as a logarithm: with M j the largest score of column j,
  lse j = M j + log (sum over i of exp (s i j - M j)), and the weight of (i, j) is exp (s i j - lse j).
  Everything is stated on the extended reals with the ideal operations, so the same term can stand in the posts of both
  runs; nothing here assumes the entries finite.
-/
import Idealize.ShloMosaic.PureOps.Ideal

noncomputable section

namespace Cert.Attn

open Idealize.ShloMosaic

/-- One eighth, spelt as the binary32 word the scale is given by. -/
def eighth : EReal := Ideal.ofBits .f32 0x3E000000#32

/-- A sequence of 8192 rows of 1024 features times a 1024 by 64 matrix. -/
def proj (x : Fin 8192 → Fin 1024 → EReal) (w : Fin 1024 → Fin 64 → EReal) (i : Fin 8192) (d : Fin 64) : EReal :=
  ∑ k : Fin 1024, x i k * w k d

/-- The scaled score of query row i against key row j. -/
def score (q k : Fin 8192 → Fin 64 → EReal) (i j : Fin 8192) : EReal :=
  (∑ d : Fin 64, q i d * k j d) * eighth

/-- The largest entry of column j. -/
def colMax (s : Fin 8192 → Fin 8192 → EReal) (j : Fin 8192) : EReal :=
  Finset.univ.sup fun i : Fin 8192 => s i j

/-- The logarithm of the column's sum of exponentials, shifted by the column's maximum. -/
def lse (s : Fin 8192 → Fin 8192 → EReal) (j : Fin 8192) : EReal :=
  colMax s j + Ideal.log (∑ i : Fin 8192, Ideal.exp (s i j - colMax s j))

/-- The weights, normalised over the query rows, applied to v. -/
def out (q k v : Fin 8192 → Fin 64 → EReal) (i : Fin 8192) (d : Fin 64) : EReal :=
  ∑ j : Fin 8192, Ideal.exp (score q k i j - lse (score q k) j) * v j d

/-- Every entry of a family of extended reals is a real number. -/
def IsReal {ι : Type} (x : ι → EReal) : Prop := ∀ i, ∃ r : ℝ, x i = (r : EReal)

/-- The whole computation from the six arrays. -/
def attn (xq xk xv : Fin 8192 → Fin 1024 → EReal) (wq wk wv : Fin 1024 → Fin 64 → EReal) :
    Fin 8192 → Fin 64 → EReal :=
  out (proj xq wq) (proj xk wk) (proj xv wv)

end Cert.Attn

end
-- ==== Proof.KiVal4a.lean ====
/-
  The arithmetic of one step of the output kernel, entry by entry, on the extended reals.

  One step takes a block of 1024 query rows q, a block of 1024 key rows k, the same rows of v, the matching 1024 entries
  of a row l, and a running block s. It leaves, at row p and feature d,

      s (p, d) + sum over the block's 1024 key rows j of exp ((q_p . k_j) / 8 - l_j) * v (j, d),

  where q_p . k_j is the inner product over the 64 features. Both matrix products start from a zero accumulator, so
  each is a plain finite sum; the conversions to the half-width format are the identity here. The clearing store
  leaves zero everywhere.
-/
import proofs.«154009_j33311766348286_1_alg».proof.Proof.Gen.KernelIdeal.Skeleton
import proofs.«154009_j33311766348286_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val4

open Cert.KernelIdeal Cert.KernelIdeal.Gen
open Idealize.ShloMosaic Idealize.ShloMosaic.ValueIdx

/-- Scores: the product of a 1024 by 64 block with the TRANSPOSE of another contracts the feature axis of both. -/
theorem scores_apply {φ₁ φ₂ : FTy} (a : FVec Ideal S1024x64 φ₁) (b : FVec Ideal S1024x64 φ₂) (p j : Fin 1024) :
    matmul (F := Ideal) dot_S1024x64_S1024x64_S1024x1024_1_1_0_0_n_n none a b (constant S1024x1024 .f32 0x00000000#32) (ix2 p j)
      = ∑ e : Fin 64, a (ix2 p e) * b (ix2 j e) := by
  refine (Ideal.matmul_constant_zero_apply dot_S1024x64_S1024x64_S1024x1024_1_1_0_0_n_n none a b (ix2 p j)).trans ?_
  rw [← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 p j) ((contrEquiv1 dot_S1024x64_S1024x64_S1024x1024_1_1_0_0_n_n 64 rfl rfl).symm k) = ix2 p k := funext fun ax => Fin.ext (by
    match ax with
    | ⟨0, _⟩ =>
      show (dot_S1024x64_S1024x64_S1024x1024_1_1_0_0_n_n.lhsIdx (ix2 p j) _ 0).val = p.val
      unfold DotDims.lhsIdx
      rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
      rfl
    | ⟨1, _⟩ => exact (dot_S1024x64_S1024x64_S1024x1024_1_1_0_0_n_n.lhsIdx_val_of_single rfl _ _).trans hk)
  have er : dot_S1024x64_S1024x64_S1024x1024_1_1_0_0_n_n.rhsIdx (ix2 p j) ((contrEquiv1 dot_S1024x64_S1024x64_S1024x1024_1_1_0_0_n_n 64 rfl rfl).symm k) = ix2 j k := funext fun ax => Fin.ext (by
    match ax with
    | ⟨0, _⟩ =>
      show (dot_S1024x64_S1024x64_S1024x1024_1_1_0_0_n_n.rhsIdx (ix2 p j) _ 0).val = j.val
      unfold DotDims.rhsIdx
      rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
      rfl
    | ⟨1, _⟩ => exact (dot_S1024x64_S1024x64_S1024x1024_1_1_0_0_n_n.rhsIdx_val_of_single rfl _ _).trans hk)
  rw [el, er]

/-- Weights times values: an ordinary product of a 1024 by 1024 block with a 1024 by 64 block. -/
theorem weighted_apply {φ₁ φ₂ : FTy} (w : FVec Ideal S1024x1024 φ₁) (v : FVec Ideal S1024x64 φ₂) (p : Fin 1024) (d : Fin 64) :
    matmul (F := Ideal) dot_S1024x1024_S1024x64_S1024x64_1_0_0_1_n_n none w v (constant S1024x64 .f32 0x00000000#32) (ix2 p d)
      = ∑ j : Fin 1024, w (ix2 p j) * v (ix2 j d) := by
  refine (Ideal.matmul_constant_zero_apply dot_S1024x1024_S1024x64_S1024x64_1_0_0_1_n_n none w v (ix2 p d)).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 p d) ((contrEquiv1 dot_S1024x1024_S1024x64_S1024x64_1_0_0_1_n_n 1024 rfl rfl).symm k) = ix2 p k := funext fun ax => Fin.ext (by
    match ax with
    | ⟨0, _⟩ =>
      show (dot_S1024x1024_S1024x64_S1024x64_1_0_0_1_n_n.lhsIdx (ix2 p d) _ 0).val = p.val
      unfold DotDims.lhsIdx
      rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
      rfl
    | ⟨1, _⟩ => exact (dot_S1024x1024_S1024x64_S1024x64_1_0_0_1_n_n.lhsIdx_val_of_single rfl _ _).trans hk)
  have er : dot_S1024x1024_S1024x64_S1024x64_1_0_0_1_n_n.rhsIdx (ix2 p d) ((contrEquiv1 dot_S1024x1024_S1024x64_S1024x64_1_0_0_1_n_n 1024 rfl rfl).symm k) = ix2 k d := funext fun ax => Fin.ext (by
    match ax with
    | ⟨0, _⟩ => exact (dot_S1024x1024_S1024x64_S1024x64_1_0_0_1_n_n.rhsIdx_val_of_single rfl _ _).trans hk
    | ⟨1, _⟩ =>
      show (dot_S1024x1024_S1024x64_S1024x64_1_0_0_1_n_n.rhsIdx (ix2 p d) _ 1).val = d.val
      unfold DotDims.rhsIdx
      rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
      rfl)
  rw [el, er]

/-- One step at an entry. -/
theorem step_apply (q k v : Vec Ideal S1024x64 .f32) (l : Vec Ideal S1x1024 .f32) (s : Vec Ideal S1024x64 .f32)
    (p : Fin 1024) (d : Fin 64) :
    k4_pay2 (F := Ideal) q k v l s (ix2 p d)
      = s (ix2 p d) + ∑ j : Fin 1024,
          Ideal.exp ((∑ e : Fin 64, q (ix2 p e) * k (ix2 j e)) * Cert.Attn.eighth - l (ix2 (0 : Fin 1) j)) * v (ix2 j d) := by
  unfold k4_pay2
  simp only [shapeCast_self]
  rw [addf_apply, weighted_apply]
  refine congrArg (s (ix2 p d) + ·) (Finset.sum_congr rfl fun j _ => ?_)
  refine congrArg (· * v (ix2 j d)) ?_
  show Ideal.exp (matmul (F := Ideal) dot_S1024x64_S1024x64_S1024x1024_1_1_0_0_n_n none _ _ (constant S1024x1024 .f32 0x00000000#32) (ix2 p j) * _ - broadcastTo S1024x1024 l _ (ix2 p j)) = _
  rw [scores_apply, broadcastTo_1b_ab_apply]
  rfl

/-- The clearing store leaves zero at every entry. -/
theorem clear_apply (i : S1024x64.Idx) : k4_pay1 (F := Ideal) i = 0 := by
  unfold k4_pay1
  simp only [shapeCast_self]
  show Ideal.ofBits .f32 0x00000000#32 = 0
  exact Ideal.ofBits_zero_f32

end Cert.KernelIdeal.Val4

end
-- ==== Proof.KiVal4b.lean ====
/-
  The blocks the output kernel is handed, read off the arrays at explicit coordinates.

  Point t of the 8 by 8 grid is query block t / 8 and key block t % 8. Its windows read: rows 1024 (t / 8) + p of the
  projected queries; rows 1024 (t % 8) + j of the projected keys and of the projected values; entries
  1024 (t % 8) + j of the log-sum-exp row. A row number is taken modulo 8192 so that it is written without a side
  proof; for the block numbers that occur it is the number itself.
-/
import proofs.«154009_j33311766348286_1_alg».proof.Proof.KiR4
import proofs.«154009_j33311766348286_1_alg».proof.Proof.KiVal4a

set_option maxRecDepth 16384

noncomputable section

namespace Cert.KernelIdeal.Val4

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Row 1024 a + p of an array of 8192 rows. -/
def row (a : ℕ) (p : Fin 1024) : Fin 8192 := ⟨(1024 * a + p.val) % 8192, Nat.mod_lt _ (by norm_num)⟩

theorem row_val (a : ℕ) (ha : a < 8) (p : Fin 1024) : (row a p).val = 1024 * a + p.val := by
  have := p.isLt
  show (1024 * a + p.val) % 8192 = _
  exact Nat.mod_eq_of_lt (by omega)

/-- The block index of each window at a point, decided once over the grid. -/
theorem idx4_0 : ∀ t : Fin cfg4.N, win4_0.index t 0 = t.val / 8 ∧ win4_0.index t 1 = 0 :=
  (by decide +kernel : ∀ t : Fin grid4.N, win4_0.index t 0 = t.val / 8 ∧ win4_0.index t 1 = 0)
theorem idx4_1 : ∀ t : Fin cfg4.N, win4_1.index t 0 = t.val % 8 ∧ win4_1.index t 1 = 0 :=
  (by decide +kernel : ∀ t : Fin grid4.N, win4_1.index t 0 = t.val % 8 ∧ win4_1.index t 1 = 0)
theorem idx4_2 : ∀ t : Fin cfg4.N, win4_2.index t 0 = t.val % 8 ∧ win4_2.index t 1 = 0 :=
  (by decide +kernel : ∀ t : Fin grid4.N, win4_2.index t 0 = t.val % 8 ∧ win4_2.index t 1 = 0)
theorem idx4_3 : ∀ t : Fin cfg4.N, win4_3.index t 0 = 0 ∧ win4_3.index t 1 = t.val % 8 :=
  (by decide +kernel : ∀ t : Fin grid4.N, win4_3.index t 0 = 0 ∧ win4_3.index t 1 = t.val % 8)
theorem idx4_4 : ∀ t : Fin cfg4.N, win4_4.index t 0 = t.val / 8 ∧ win4_4.index t 1 = 0 :=
  (by decide +kernel : ∀ t : Fin grid4.N, win4_4.index t 0 = t.val / 8 ∧ win4_4.index t 1 = 0)

theorem lt64 (t : Fin cfg4.N) : t.val < 64 := lt_of_lt_of_eq t.isLt (show cfg4.N = 64 from N_4)

/-- The query block: rows 1024 (t / 8) + p. -/
theorem blk0_apply (c : Dev nD) (t : Fin cfg4.N) (p : Fin 1024) (e : Fin 64) :
    (iblk4 V c 0 t : Vec Ideal S1024x64 .f32) (ix2 p e) = V c main_v0 (ix2 (row (t.val / 8) p) e) := by
  have ht := lt64 t
  unfold iblk4
  rw [View.read_apply]
  show V c main_v0 _ = V c main_v0 _
  refine congrArg (V c main_v0) (funext fun ax => Fin.ext ?_)
  match ax with
  | ⟨0, _⟩ =>
    show win4_0.index t 0 * 1024 + 1 * p.val = (row (t.val / 8) p).val
    rw [(idx4_0 t).1, row_val _ (by omega)]; omega
  | ⟨1, _⟩ =>
    show win4_0.index t 1 * 64 + 1 * e.val = e.val
    rw [(idx4_0 t).2]; omega

/-- The key block: rows 1024 (t % 8) + j. -/
theorem blk1_apply (c : Dev nD) (t : Fin cfg4.N) (j : Fin 1024) (e : Fin 64) :
    (iblk4 V c 1 t : Vec Ideal S1024x64 .f32) (ix2 j e) = V c main_v1 (ix2 (row (t.val % 8) j) e) := by
  have ht := lt64 t
  unfold iblk4
  rw [View.read_apply]
  show V c main_v1 _ = V c main_v1 _
  refine congrArg (V c main_v1) (funext fun ax => Fin.ext ?_)
  match ax with
  | ⟨0, _⟩ =>
    show win4_1.index t 0 * 1024 + 1 * j.val = (row (t.val % 8) j).val
    rw [(idx4_1 t).1, row_val _ (by omega)]; omega
  | ⟨1, _⟩ =>
    show win4_1.index t 1 * 64 + 1 * e.val = e.val
    rw [(idx4_1 t).2]; omega

/-- The value block: the same rows of v. -/
theorem blk2_apply (c : Dev nD) (t : Fin cfg4.N) (j : Fin 1024) (d : Fin 64) :
    (iblk4 V c 2 t : Vec Ideal S1024x64 .f32) (ix2 j d) = V c main_v2 (ix2 (row (t.val % 8) j) d) := by
  have ht := lt64 t
  unfold iblk4
  rw [View.read_apply]
  show V c main_v2 _ = V c main_v2 _
  refine congrArg (V c main_v2) (funext fun ax => Fin.ext ?_)
  match ax with
  | ⟨0, _⟩ =>
    show win4_2.index t 0 * 1024 + 1 * j.val = (row (t.val % 8) j).val
    rw [(idx4_2 t).1, row_val _ (by omega)]; omega
  | ⟨1, _⟩ =>
    show win4_2.index t 1 * 64 + 1 * d.val = d.val
    rw [(idx4_2 t).2]; omega

/-- The log-sum-exp entries of the same key rows. -/
theorem blk3_apply (c : Dev nD) (t : Fin cfg4.N) (j : Fin 1024) :
    (iblk4 V c 3 t : Vec Ideal S1x1024 .f32) (ix2 (0 : Fin 1) j) = V c main_v3 (ix2 (0 : Fin 1) (row (t.val % 8) j)) := by
  have ht := lt64 t
  unfold iblk4
  rw [View.read_apply]
  show V c main_v3 _ = V c main_v3 _
  refine congrArg (V c main_v3) (funext fun ax => Fin.ext ?_)
  match ax with
  | ⟨0, _⟩ =>
    show win4_3.index t 0 * 1 + 1 * 0 = 0
    rw [(idx4_3 t).1]
  | ⟨1, _⟩ =>
    show win4_3.index t 1 * 1024 + 1 * j.val = (row (t.val % 8) j).val
    rw [(idx4_3 t).2, row_val _ (by omega)]; omega

/-- The accumulating store's result is the step's payload of the buffers themselves. -/
theorem sacc4_eq (x0 x1 x2 : Vec Ideal S1024x64 .f32) (x3 : Vec Ideal S1x1024 .f32) (xs : Vec Ideal S1024x64 .f32) :
    sacc4 (F := Ideal) x0 x1 x2 x3 xs = k4_pay2 x0 x1 x2 x3 xs := by
  unfold sacc4
  rw [View.canon_unit_zero hz4]
  simp only [View.ld_unit_zero (S := S1024x64) hz4, View.ld_unit_zero (S := S1x1024) hz4]

/-- The cleared scratch is zero at every entry. -/
theorem zero4_apply (i : S1024x64.Idx) : zero4 (F := Ideal) i = 0 := by
  unfold zero4
  rw [View.canon_unit_zero hz4]
  exact clear_apply i

end Cert.KernelIdeal.Val4

end
-- ==== Proof.KiVal4c.lean ====
/-
  What the output kernel leaves in its result array.

  Write q, k, v for the three projected arrays and l for the row the previous pipeline left. The contribution of key
  row j to query row i at feature d is exp (score i j - l j) * v (j, d), the score being the inner product of q i and
  k j divided by eight. By induction on the grid point, after point 8 a + b the scratch holds, at row p, the sum of the
  contributions of key blocks 0 to b (rows 1024 b' + j) to query row 1024 a + p: the first key block starts from the
  cleared scratch, each later one adds its 1024 rows to what the point before left. The one write-back of query block
  a, at point 8 a + 7, therefore carries the contributions of all eight key blocks, and eight consecutive blocks of
  1024 rows are the 8192 rows: every entry of the result array is the sum over ALL key rows of the contributions.
  Only associativity and commutativity of addition are used: nothing here needs the entries finite.
-/
import proofs.«154009_j33311766348286_1_alg».proof.Proof.KiVal4b

set_option maxRecDepth 16384

noncomputable section

namespace Cert.KernelIdeal.Val4

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The arrays the kernel reads, as functions of coordinates. -/
def qv (c : Dev nD) : Fin 8192 → Fin 64 → EReal := fun i e => V c main_v0 (ix2 i e)
def kv (c : Dev nD) : Fin 8192 → Fin 64 → EReal := fun j e => V c main_v1 (ix2 j e)
def vv (c : Dev nD) : Fin 8192 → Fin 64 → EReal := fun j d => V c main_v2 (ix2 j d)
def lv (c : Dev nD) : Fin 8192 → EReal := fun j => V c main_v3 (ix2 (0 : Fin 1) j)

/-- Key row j's contribution to query row i at feature d. -/
def term (c : Dev nD) (i j : Fin 8192) (d : Fin 64) : EReal :=
  Ideal.exp (Cert.Attn.score (qv V c) (kv V c) i j - lv V c j) * vv V c j d

/-- The contributions of key blocks 0 to b to row p of query block a. -/
def part (c : Dev nD) (a b : ℕ) (p : Fin 1024) (d : Fin 64) : EReal :=
  ∑ b' ∈ Finset.range (b + 1), ∑ j : Fin 1024, term V c (row a p) (row b' j) d

/-- One step on the point's blocks adds the point's key block's contributions. -/
theorem step_blocks (c : Dev nD) (t : Fin cfg4.N) (s : Vec Ideal S1024x64 .f32) (p : Fin 1024) (d : Fin 64) :
    sacc4 (F := Ideal) (iblk4 V c 0 t) (iblk4 V c 1 t) (iblk4 V c 2 t) (iblk4 V c 3 t) s (ix2 p d)
      = s (ix2 p d) + ∑ j : Fin 1024, term V c (row (t.val / 8) p) (row (t.val % 8) j) d := by
  refine (congrFun (sacc4_eq (iblk4 V c 0 t) (iblk4 V c 1 t) (iblk4 V c 2 t) (iblk4 V c 3 t) s) (ix2 p d)).trans ?_
  refine (step_apply (iblk4 V c 0 t) (iblk4 V c 1 t) (iblk4 V c 2 t) (iblk4 V c 3 t) s p d).trans ?_
  refine congrArg (s (ix2 p d) + ·) (Finset.sum_congr rfl fun j _ => ?_)
  unfold term Cert.Attn.score qv kv vv lv
  simp only [blk0_apply V c t, blk1_apply V c t, blk2_apply V c t, blk3_apply V c t]

/-- After point n the scratch holds the contributions of key blocks 0 to n % 8 to query block n / 8. -/
theorem acc_eq (c : Dev nD) (p : Fin 1024) (d : Fin 64) :
    ∀ (n : ℕ) (h : n < cfg4.N), acc4 V c n h (ix2 p d) = part V c (n / 8) (n % 8) p d
  | 0, h => by
    refine (congrFun (acc4_first V c ⟨0, h⟩ rfl) (ix2 p d)).trans ?_
    refine (step_blocks V c ⟨0, h⟩ _ p d).trans ?_
    rw [zero4_apply, zero_add]
    show ∑ j : Fin 1024, term V c (row (0 / 8) p) (row (0 % 8) j) d = part V c (0 / 8) (0 % 8) p d
    rw [Nat.zero_div, Nat.zero_mod]
    unfold part
    rw [Finset.sum_range_one]
  | n + 1, h => by
    by_cases h0 : (n + 1) % 8 = 0
    · refine (congrFun (acc4_first V c ⟨n + 1, h⟩ h0) (ix2 p d)).trans ?_
      refine (step_blocks V c ⟨n + 1, h⟩ _ p d).trans ?_
      rw [zero4_apply, zero_add]
      show ∑ j : Fin 1024, term V c (row ((n + 1) / 8) p) (row ((n + 1) % 8) j) d = part V c ((n + 1) / 8) ((n + 1) % 8) p d
      rw [h0]
      unfold part
      rw [Finset.sum_range_one]
    · refine (congrFun (acc4_next V c ⟨n + 1, h⟩ h0) (ix2 p d)).trans ?_
      refine (step_blocks V c ⟨n + 1, h⟩ _ p d).trans ?_
      show acc4 V c n _ (ix2 p d) + ∑ j : Fin 1024, term V c (row ((n + 1) / 8) p) (row ((n + 1) % 8) j) d = part V c ((n + 1) / 8) ((n + 1) % 8) p d
      rw [acc_eq c p d n (Nat.lt_of_succ_lt h)]
      have e1 : (n + 1) / 8 = n / 8 := by omega
      have e2 : (n + 1) % 8 = n % 8 + 1 := by omega
      rw [e1, e2]
      unfold part
      rw [Finset.sum_range_succ (n := n % 8 + 1)]

/-- Eight consecutive blocks of 1024 rows are the 8192 rows. -/
theorem sum_blocks (f : Fin 8192 → EReal) :
    ∑ b' ∈ Finset.range 8, ∑ j : Fin 1024, f (row b' j) = ∑ j : Fin 8192, f j := by
  rw [Finset.sum_range (fun b' => ∑ j : Fin 1024, f (row b' j))]
  rw [← Equiv.sum_comp (finProdFinEquiv : Fin 8 × Fin 1024 ≃ Fin 8192) f, Fintype.sum_prod_type]
  refine Finset.sum_congr rfl fun a _ => Finset.sum_congr rfl fun j _ => congrArg f (Fin.ext ?_)
  rw [row_val _ a.isLt]
  show 1024 * a.val + j.val = j.val + 1024 * a.val
  omega

/-- The result array: every entry the sum over all key rows. -/
def G4 (c : Dev nD) : S8192x64.Idx → EReal :=
  fun idx => ∑ j : Fin 8192, term V c (idx 0) j (idx 1)

theorem G4_apply (c : Dev nD) (i : Fin 8192) (d : Fin 64) : G4 V c (ix2 i d) = ∑ j : Fin 8192, term V c i j d := rfl

/-- The write-back of a query block, at its last key block, carries the block of that array. -/
theorem flushed4_eq (c : Dev nD) (t : Fin cfg4.N) (hf : (cfg4.win 4).flush t = true) :
    (dat4 V c).flushed 4 t = ((cfg4.win 4).blk t).view.read (Elt Ideal) (G4 V c) := by
  have ht := lt64 t
  have h7 : t.val % 8 = 7 := (flush4_4 t).mp hf
  show (cfg4.win 4).cut (grid4.coords t) ((dat4 V c).after 4 t) = _
  rw [after4_4]
  funext y
  rw [View.read_apply]
  obtain ⟨p, d, rfl⟩ : ∃ (p : Fin 1024) (d : Fin 64), y = ix2 p d := ⟨y 0, y 1, eq_ix2 y⟩
  show acc4 V c t.val t.isLt (ix2 p d) = G4 V c _
  rw [acc_eq V c p d t.val t.isLt, h7]
  have hi : ((cfg4.win 4).blk t).view.emb (ix2 p d) = ix2 (row (t.val / 8) p) d := funext fun ax => Fin.ext (by
    match ax with
    | ⟨0, _⟩ =>
      show win4_4.index t 0 * 1024 + 1 * p.val = (row (t.val / 8) p).val
      rw [(idx4_4 t).1, row_val _ (by omega)]; omega
    | ⟨1, _⟩ =>
      show win4_4.index t 1 * 64 + 1 * d.val = d.val
      rw [(idx4_4 t).2]; omega)
  rw [hi, G4_apply]
  unfold part
  exact sum_blocks (fun j => term V c (row (t.val / 8) p) j d)

/-- So the result array ends holding it: query block a's write-back is point 8 a + 7. -/
theorem final4 (c : Dev nD) : (dat4 V c).arrAt 4 cfg4.N = G4 V c :=
  (dat4 V c).arrAt_eq_of_cover 4 (G4 V c) (flushed4_eq V c) fun i => by
    have h0 : (i 0 : Nat) < 8192 := (i 0).isLt
    have h1 : (i 1 : Nat) < 64 := (i 1).isLt
    have hN : cfg4.N = 64 := N_4
    let t : Fin cfg4.N := ⟨8 * ((i 0 : Nat) / 1024) + 7, by rw [hN]; omega⟩
    have htv : t.val = 8 * ((i 0 : Nat) / 1024) + 7 := rfl
    refine ⟨t, (flush4_4 t).mpr (by rw [htv]; omega), ?_⟩
    show i ∈ ((View.whole main_v4).slice (win4_4.rect t)).set
    rw [View.set_slice_whole, Rect.mem_set_unit]
    intro ax
    match ax with
    | ⟨0, _⟩ =>
      show win4_4.index t 0 * 1024 ≤ (i 0 : Nat) ∧ (i 0 : Nat) < win4_4.index t 0 * 1024 + 1024
      rw [(idx4_4 t).1, htv]
      omega
    | ⟨1, _⟩ =>
      show win4_4.index t 1 * 64 ≤ (i 1 : Nat) ∧ (i 1 : Nat) < win4_4.index t 1 * 64 + 64
      rw [(idx4_4 t).2]
      omega

end Cert.KernelIdeal.Val4

end
-- ==== Proof.KiValP0.lean ====
/-
  The first projection's output array after all eight points: the matrix product, entry by entry.

  Point t of the pipeline is handed rows 1024 t to 1024 t + 1023 of x and all of w, and its body stores the product of
  the two (formed into a zero accumulator; narrowing a real to a shorter format changes nothing here) over its output
  buffer, which is written back to the same rows of the output array. Entry (p, d) of that block is the sum over the
  1024 features k of x (1024 t + p, k) * w (k, d). The eight blocks tile the 8192 rows; row i lies in block i / 1024.
  So the array ends holding, at (i, d), the sum over k of x (i, k) * w (k, d).
-/
import proofs.«154009_j33311766348286_1_alg».proof.Proof.KiR0
import proofs.«154009_j33311766348286_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)
open Idealize.ShloMosaic.ValueIdx

/-- The product of an 8192 by 1024 array with a 1024 by 64 one, at an index of the 8192 by 64 result. -/
def G0 (X : S8192x1024.Idx → EReal) (W : S1024x64.Idx → EReal) : S8192x64.Idx → EReal := fun i =>
  ∑ k : Fin 1024, X (ix2 (⟨(i 0).val, idx2_lt0 i⟩ : Fin 8192) k) * W (ix2 k (⟨(i 1).val, idx2_lt1 i⟩ : Fin 64))

theorem hz0 : (![0, 0] : Fin 2 → Nat) = fun _ => 0 := funext fun a => by fin_cases a <;> rfl

/-- Where the product's operand indices sit: the left operand's row is the result's, the right operand's column is the
    result's, and the other coordinate of each is the summation index. -/
theorem lhs0_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs0_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs0_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs0_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The body's arithmetic at an entry of its block: the row of the first operand against the column of the second. -/
theorem pay0_apply (x : Vec Ideal S1024x1024 .f32) (w : Vec Ideal S1024x64 .f32) (j : S1024x64.Idx) :
    k0_pay1 x w j = ∑ k : Fin 1024, x (ix2 (⟨(j 0).val, idx2_lt0 j⟩ : Fin 1024) k) * w (ix2 k (⟨(j 1).val, idx2_lt1 j⟩ : Fin 64)) := by
  unfold k0_pay1
  simp only [matmul]
  rw [Ideal.matmul_constant_zero_apply, ← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  rw [truncf_apply, truncf_apply]
  have el : dot_S1024x1024_S1024x64_S1024x64_1_0_0_1_n_n.lhsIdx j ((contrEquiv1 dot_S1024x1024_S1024x64_S1024x64_1_0_0_1_n_n 1024 rfl rfl).symm k)
      = ix2 (⟨(j 0).val, idx2_lt0 j⟩ : Fin 1024) k := funext fun a => Fin.ext (by
    match a with
    | ⟨0, _⟩ => exact lhs0_0 _ _
    | ⟨1, _⟩ => exact (lhs0_1 _ _).trans hk)
  have er : dot_S1024x1024_S1024x64_S1024x64_1_0_0_1_n_n.rhsIdx j ((contrEquiv1 dot_S1024x1024_S1024x64_S1024x64_1_0_0_1_n_n 1024 rfl rfl).symm k)
      = ix2 k (⟨(j 1).val, idx2_lt1 j⟩ : Fin 64) := funext fun a => Fin.ext (by
    match a with
    | ⟨0, _⟩ => exact (rhs0_0 _ _).trans hk
    | ⟨1, _⟩ => exact rhs0_1 _ _)
  rw [el, er]

variable (V : (c : Dev nD) → (b : Ref sig .tc) → Buf (Elt Ideal) ((c : Thread nD τ).loc b))

/-- The block indices of the three windows at point t: the rows of x and of the result move with the point, w stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of x at point t is rows 1024 t to 1024 t + 1023 of the array. -/
theorem iblk0_0_apply (c : Dev nD) (t : Fin cfg0.N) (y : S1024x1024.Idx) (i : S8192x1024.Idx)
    (h0 : (i 0).val = 1024 * t.val + (y 0).val) (h1 : (i 1).val = (y 1).val) :
    (iblk0 V c 0 t : Vec Ideal S1024x1024 .f32) y = (V c main_arg0 : S8192x1024.Idx → EReal) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 1024 + 1 * (y 0).val = (i 0).val; rw [e0, h0]; omega
  | ⟨1, _⟩ => show win0_0.index t (1 : Fin 2) * 1024 + 1 * (y 1).val = (i 1).val; rw [e1, h1]; omega

/-- The block of w at every point is the whole array. -/
theorem iblk0_1_apply (c : Dev nD) (t : Fin cfg0.N) (y : S1024x64.Idx) (i : S1024x64.Idx)
    (h0 : (i 0).val = (y 0).val) (h1 : (i 1).val = (y 1).val) :
    (iblk0 V c 1 t : Vec Ideal S1024x64 .f32) y = (V c main_arg3 : S1024x64.Idx → EReal) i := by
  obtain ⟨-, -, e0, e1, -⟩ := idx_facts0 t
  unfold iblk0
  rw [View.read_apply]
  show V c main_arg3 _ = V c main_arg3 _
  congr 1
  funext a
  apply Fin.ext
  match a with
  | ⟨0, _⟩ => show win0_1.index t (0 : Fin 2) * 1024 + 1 * (y 0).val = (i 0).val; rw [e0, h0]; omega
  | ⟨1, _⟩ => show win0_1.index t (1 : Fin 2) * 64 + 1 * (y 1).val = (i 1).val; rw [e1, h1]; omega

/-- What point t writes back is block t of the product of the two argument arrays. -/
theorem flushed0_eq (c : Dev nD) (t : Fin cfg0.N) :
    (dat0 V c).flushed 2 t = ((cfg0.win 2).blk t).view.read (Elt Ideal) (G0 (V c main_arg0) (V c main_arg3)) := by
  show (cfg0.win 2).cut (grid0.coords t) ((dat0 V c).after 2 t) = _
  rw [after0_2]
  unfold out0_2
  rw [View.canon_unit_zero hz0]
  simp only [View.ld_unit_zero (S := S1024x1024) hz0, View.ld_unit_zero (S := S1024x64) hz0]
  obtain ⟨-, -, -, -, e0, e1⟩ := idx_facts0 t
  funext j
  show k0_pay1 (iblk0 V c 0 t) (iblk0 V c 1 t) j = G0 (V c main_arg0) (V c main_arg3) (((cfg0.win 2).blk t).view.emb j)
  refine (pay0_apply (iblk0 V c 0 t) (iblk0 V c 1 t) j).trans ?_
  unfold G0
  have hj0 : (j 0).val < 1024 := (j 0).isLt
  have hj1 : (j 1).val < 64 := (j 1).isLt
  have hr : ((((cfg0.win 2).blk t).view.emb j) 0).val = 1024 * t.val + (j 0).val := by
    show win0_2.index t (0 : Fin 2) * 1024 + 1 * (j 0).val = _; rw [e0]; omega
  have hc : ((((cfg0.win 2).blk t).view.emb j) 1).val = (j 1).val := by
    show win0_2.index t (1 : Fin 2) * 64 + 1 * (j 1).val = _; rw [e1]; omega
  refine Finset.sum_congr rfl fun k _ => ?_
  congr 1
  · exact iblk0_0_apply V c t _ _ hr rfl
  · exact iblk0_1_apply V c t _ _ rfl hc

/-- An index of the result array is in point t's block iff each coordinate is in the block's range on its axis. -/
theorem mem_blk0 (t : Fin cfg0.N) (i : S8192x64.Idx) :
    i ∈ ((cfg0.win 2).blk t).view.set ↔ ∀ a : Fin 2, win0_2.index t a * S1024x64.size a ≤ (i a).val ∧ (i a).val < win0_2.index t a * S1024x64.size a + S1024x64.size a := by
  show i ∈ ((View.whole main_v0).slice (win0_2.rect t)).set ↔ _
  rw [View.set_slice_whole, Rect.mem_set_unit]
  exact Iff.rfl

/-- Every index of the result array is in the block of the point its row falls in. -/
theorem cover0 (i : S8192x64.Idx) : ∃ t : Fin cfg0.N, (cfg0.win 2).flush t = true ∧ i ∈ ((cfg0.win 2).blk t).view.set := by
  have hN : grid0.N = 8 := N_0
  have hi0 : (i 0).val < 8192 := (i 0).isLt
  have hi1 : (i 1).val < 64 := (i 1).isLt
  let t : Fin cfg0.N := ⟨(i 0).val / 1024, by show (i 0).val / 1024 < grid0.N; rw [hN]; omega⟩
  obtain ⟨-, -, -, -, e0, e1⟩ := idx_facts0 t
  have ht : t.val = (i 0).val / 1024 := rfl
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; rw [e0, ht]; omega
  | ⟨1, _⟩ => show win0_2.index t (1 : Fin 2) * 64 ≤ (i 1).val ∧ (i 1).val < win0_2.index t (1 : Fin 2) * 64 + 64; rw [e1]; omega

/-- So after the eight points the result array holds the product. -/
theorem final0 (c : Dev nD) : (dat0 V c).arrAt 2 cfg0.N = G0 (V c main_arg0) (V c main_arg3) :=
  (dat0 V c).arrAt_eq_of_cover 2 (G0 (V c main_arg0) (V c main_arg3)) (fun t _ => flushed0_eq V c t) cover0

/-- The first projection's array after its pipeline, entry by entry. -/
theorem proj0_value (c : Dev nD) (i : Fin 8192) (d : Fin 64) :
    (dat0 (F := Ideal) V c).arrAt 2 cfg0.N (ix2 i d)
      = Cert.Attn.proj (fun i k => V c main_arg0 (ix2 i k)) (fun k d => V c main_arg3 (ix2 k d)) i d := by
  rw [final0]
  rfl

end Cert.KernelIdeal.Val

end
-- ==== Proof.KiValP1.lean ====
/-
  The second projection's output array after all eight points: the matrix product, entry by entry.

  Point t of the pipeline is handed rows 1024 t to 1024 t + 1023 of x and all of w, and its body stores the product of
  the two (formed into a zero accumulator; narrowing a real to a shorter format changes nothing here) over its output
  buffer, which is written back to the same rows of the output array. Entry (p, d) of that block is the sum over the
  1024 features k of x (1024 t + p, k) * w (k, d). The eight blocks tile the 8192 rows; row i lies in block i / 1024.
  So the array ends holding, at (i, d), the sum over k of x (i, k) * w (k, d).
-/
import proofs.«154009_j33311766348286_1_alg».proof.Proof.KiR1
import proofs.«154009_j33311766348286_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)
open Idealize.ShloMosaic.ValueIdx

/-- The product of an 8192 by 1024 array with a 1024 by 64 one, at an index of the 8192 by 64 result. -/
def G1 (X : S8192x1024.Idx → EReal) (W : S1024x64.Idx → EReal) : S8192x64.Idx → EReal := fun i =>
  ∑ k : Fin 1024, X (ix2 (⟨(i 0).val, idx2_lt0 i⟩ : Fin 8192) k) * W (ix2 k (⟨(i 1).val, idx2_lt1 i⟩ : Fin 64))

theorem hz1 : (![0, 0] : Fin 2 → Nat) = fun _ => 0 := funext fun a => by fin_cases a <;> rfl

/-- Where the product's operand indices sit: the left operand's row is the result's, the right operand's column is the
    result's, and the other coordinate of each is the summation index. -/
theorem lhs1_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs1_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs1_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs1_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The body's arithmetic at an entry of its block: the row of the first operand against the column of the second. -/
theorem pay1_apply (x : Vec Ideal S1024x1024 .f32) (w : Vec Ideal S1024x64 .f32) (j : S1024x64.Idx) :
    k1_pay1 x w j = ∑ k : Fin 1024, x (ix2 (⟨(j 0).val, idx2_lt0 j⟩ : Fin 1024) k) * w (ix2 k (⟨(j 1).val, idx2_lt1 j⟩ : Fin 64)) := by
  unfold k1_pay1
  simp only [matmul]
  rw [Ideal.matmul_constant_zero_apply, ← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  rw [truncf_apply, truncf_apply]
  have el : dot_S1024x1024_S1024x64_S1024x64_1_0_0_1_n_n.lhsIdx j ((contrEquiv1 dot_S1024x1024_S1024x64_S1024x64_1_0_0_1_n_n 1024 rfl rfl).symm k)
      = ix2 (⟨(j 0).val, idx2_lt0 j⟩ : Fin 1024) k := funext fun a => Fin.ext (by
    match a with
    | ⟨0, _⟩ => exact lhs1_0 _ _
    | ⟨1, _⟩ => exact (lhs1_1 _ _).trans hk)
  have er : dot_S1024x1024_S1024x64_S1024x64_1_0_0_1_n_n.rhsIdx j ((contrEquiv1 dot_S1024x1024_S1024x64_S1024x64_1_0_0_1_n_n 1024 rfl rfl).symm k)
      = ix2 k (⟨(j 1).val, idx2_lt1 j⟩ : Fin 64) := funext fun a => Fin.ext (by
    match a with
    | ⟨0, _⟩ => exact (rhs1_0 _ _).trans hk
    | ⟨1, _⟩ => exact rhs1_1 _ _)
  rw [el, er]

variable (V : (c : Dev nD) → (b : Ref sig .tc) → Buf (Elt Ideal) ((c : Thread nD τ).loc b))

/-- The block indices of the three windows at point t: the rows of x and of the result move with the point, w stays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The block of x at point t is rows 1024 t to 1024 t + 1023 of the array. -/
theorem iblk1_0_apply (c : Dev nD) (t : Fin cfg1.N) (y : S1024x1024.Idx) (i : S8192x1024.Idx)
    (h0 : (i 0).val = 1024 * t.val + (y 0).val) (h1 : (i 1).val = (y 1).val) :
    (iblk1 V c 0 t : Vec Ideal S1024x1024 .f32) y = (V c main_arg1 : S8192x1024.Idx → EReal) i := by
  obtain ⟨e0, e1, -⟩ := idx_facts1 t
  unfold iblk1
  rw [View.read_apply]
  show V c main_arg1 _ = V c main_arg1 _
  congr 1
  funext a
  apply Fin.ext
  match a with
  | ⟨0, _⟩ => show win1_0.index t (0 : Fin 2) * 1024 + 1 * (y 0).val = (i 0).val; rw [e0, h0]; omega
  | ⟨1, _⟩ => show win1_0.index t (1 : Fin 2) * 1024 + 1 * (y 1).val = (i 1).val; rw [e1, h1]; omega

/-- The block of w at every point is the whole array. -/
theorem iblk1_1_apply (c : Dev nD) (t : Fin cfg1.N) (y : S1024x64.Idx) (i : S1024x64.Idx)
    (h0 : (i 0).val = (y 0).val) (h1 : (i 1).val = (y 1).val) :
    (iblk1 V c 1 t : Vec Ideal S1024x64 .f32) y = (V c main_arg4 : S1024x64.Idx → EReal) i := by
  obtain ⟨-, -, e0, e1, -⟩ := idx_facts1 t
  unfold iblk1
  rw [View.read_apply]
  show V c main_arg4 _ = V c main_arg4 _
  congr 1
  funext a
  apply Fin.ext
  match a with
  | ⟨0, _⟩ => show win1_1.index t (0 : Fin 2) * 1024 + 1 * (y 0).val = (i 0).val; rw [e0, h0]; omega
  | ⟨1, _⟩ => show win1_1.index t (1 : Fin 2) * 64 + 1 * (y 1).val = (i 1).val; rw [e1, h1]; omega

/-- What point t writes back is block t of the product of the two argument arrays. -/
theorem flushed1_eq (c : Dev nD) (t : Fin cfg1.N) :
    (dat1 V c).flushed 2 t = ((cfg1.win 2).blk t).view.read (Elt Ideal) (G1 (V c main_arg1) (V c main_arg4)) := by
  show (cfg1.win 2).cut (grid1.coords t) ((dat1 V c).after 2 t) = _
  rw [after1_2]
  unfold out1_2
  rw [View.canon_unit_zero hz1]
  simp only [View.ld_unit_zero (S := S1024x1024) hz1, View.ld_unit_zero (S := S1024x64) hz1]
  obtain ⟨-, -, -, -, e0, e1⟩ := idx_facts1 t
  funext j
  show k1_pay1 (iblk1 V c 0 t) (iblk1 V c 1 t) j = G1 (V c main_arg1) (V c main_arg4) (((cfg1.win 2).blk t).view.emb j)
  refine (pay1_apply (iblk1 V c 0 t) (iblk1 V c 1 t) j).trans ?_
  unfold G1
  have hj0 : (j 0).val < 1024 := (j 0).isLt
  have hj1 : (j 1).val < 64 := (j 1).isLt
  have hr : ((((cfg1.win 2).blk t).view.emb j) 0).val = 1024 * t.val + (j 0).val := by
    show win1_2.index t (0 : Fin 2) * 1024 + 1 * (j 0).val = _; rw [e0]; omega
  have hc : ((((cfg1.win 2).blk t).view.emb j) 1).val = (j 1).val := by
    show win1_2.index t (1 : Fin 2) * 64 + 1 * (j 1).val = _; rw [e1]; omega
  refine Finset.sum_congr rfl fun k _ => ?_
  congr 1
  · exact iblk1_0_apply V c t _ _ hr rfl
  · exact iblk1_1_apply V c t _ _ rfl hc

/-- An index of the result array is in point t's block iff each coordinate is in the block's range on its axis. -/
theorem mem_blk1 (t : Fin cfg1.N) (i : S8192x64.Idx) :
    i ∈ ((cfg1.win 2).blk t).view.set ↔ ∀ a : Fin 2, win1_2.index t a * S1024x64.size a ≤ (i a).val ∧ (i a).val < win1_2.index t a * S1024x64.size a + S1024x64.size a := by
  show i ∈ ((View.whole main_v1).slice (win1_2.rect t)).set ↔ _
  rw [View.set_slice_whole, Rect.mem_set_unit]
  exact Iff.rfl

/-- Every index of the result array is in the block of the point its row falls in. -/
theorem cover1 (i : S8192x64.Idx) : ∃ t : Fin cfg1.N, (cfg1.win 2).flush t = true ∧ i ∈ ((cfg1.win 2).blk t).view.set := by
  have hN : grid1.N = 8 := N_1
  have hi0 : (i 0).val < 8192 := (i 0).isLt
  have hi1 : (i 1).val < 64 := (i 1).isLt
  let t : Fin cfg1.N := ⟨(i 0).val / 1024, by show (i 0).val / 1024 < grid1.N; rw [hN]; omega⟩
  obtain ⟨-, -, -, -, e0, e1⟩ := idx_facts1 t
  have ht : t.val = (i 0).val / 1024 := rfl
  refine ⟨t, flush1_2 t, ?_⟩
  rw [mem_blk1]
  intro a
  match a with
  | ⟨0, _⟩ => show win1_2.index t (0 : Fin 2) * 1024 ≤ (i 0).val ∧ (i 0).val < win1_2.index t (0 : Fin 2) * 1024 + 1024; rw [e0, ht]; omega
  | ⟨1, _⟩ => show win1_2.index t (1 : Fin 2) * 64 ≤ (i 1).val ∧ (i 1).val < win1_2.index t (1 : Fin 2) * 64 + 64; rw [e1]; omega

/-- So after the eight points the result array holds the product. -/
theorem final1 (c : Dev nD) : (dat1 V c).arrAt 2 cfg1.N = G1 (V c main_arg1) (V c main_arg4) :=
  (dat1 V c).arrAt_eq_of_cover 2 (G1 (V c main_arg1) (V c main_arg4)) (fun t _ => flushed1_eq V c t) cover1

/-- The second projection's array after its pipeline, entry by entry. -/
theorem proj1_value (c : Dev nD) (i : Fin 8192) (d : Fin 64) :
    (dat1 (F := Ideal) V c).arrAt 2 cfg1.N (ix2 i d)
      = Cert.Attn.proj (fun i k => V c main_arg1 (ix2 i k)) (fun k d => V c main_arg4 (ix2 k d)) i d := by
  rw [final1]
  rfl

end Cert.KernelIdeal.Val

end
-- ==== Proof.KiValP2.lean ====
/-
  The third projection's output array after all eight points: the matrix product, entry by entry.

  Point t of the pipeline is handed rows 1024 t to 1024 t + 1023 of x and all of w, and its body stores the product of
  the two (formed into a zero accumulator; narrowing a real to a shorter format changes nothing here) over its output
  buffer, which is written back to the same rows of the output array. Entry (p, d) of that block is the sum over the
  1024 features k of x (1024 t + p, k) * w (k, d). The eight blocks tile the 8192 rows; row i lies in block i / 1024.
  So the array ends holding, at (i, d), the sum over k of x (i, k) * w (k, d).
-/
import proofs.«154009_j33311766348286_1_alg».proof.Proof.KiR2
import proofs.«154009_j33311766348286_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)
open Idealize.ShloMosaic.ValueIdx

/-- The product of an 8192 by 1024 array with a 1024 by 64 one, at an index of the 8192 by 64 result. -/
def G2 (X : S8192x1024.Idx → EReal) (W : S1024x64.Idx → EReal) : S8192x64.Idx → EReal := fun i =>
  ∑ k : Fin 1024, X (ix2 (⟨(i 0).val, idx2_lt0 i⟩ : Fin 8192) k) * W (ix2 k (⟨(i 1).val, idx2_lt1 i⟩ : Fin 64))

theorem hz2 : (![0, 0] : Fin 2 → Nat) = fun _ => 0 := funext fun a => by fin_cases a <;> rfl

/-- Where the product's operand indices sit: the left operand's row is the result's, the right operand's column is the
    result's, and the other coordinate of each is the summation index. -/
theorem lhs2_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs2_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs2_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs2_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The body's arithmetic at an entry of its block: the row of the first operand against the column of the second. -/
theorem pay2_apply (x : Vec Ideal S1024x1024 .f32) (w : Vec Ideal S1024x64 .f32) (j : S1024x64.Idx) :
    k2_pay1 x w j = ∑ k : Fin 1024, x (ix2 (⟨(j 0).val, idx2_lt0 j⟩ : Fin 1024) k) * w (ix2 k (⟨(j 1).val, idx2_lt1 j⟩ : Fin 64)) := by
  unfold k2_pay1
  simp only [matmul]
  rw [Ideal.matmul_constant_zero_apply, ← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  rw [truncf_apply, truncf_apply]
  have el : dot_S1024x1024_S1024x64_S1024x64_1_0_0_1_n_n.lhsIdx j ((contrEquiv1 dot_S1024x1024_S1024x64_S1024x64_1_0_0_1_n_n 1024 rfl rfl).symm k)
      = ix2 (⟨(j 0).val, idx2_lt0 j⟩ : Fin 1024) k := funext fun a => Fin.ext (by
    match a with
    | ⟨0, _⟩ => exact lhs2_0 _ _
    | ⟨1, _⟩ => exact (lhs2_1 _ _).trans hk)
  have er : dot_S1024x1024_S1024x64_S1024x64_1_0_0_1_n_n.rhsIdx j ((contrEquiv1 dot_S1024x1024_S1024x64_S1024x64_1_0_0_1_n_n 1024 rfl rfl).symm k)
      = ix2 k (⟨(j 1).val, idx2_lt1 j⟩ : Fin 64) := funext fun a => Fin.ext (by
    match a with
    | ⟨0, _⟩ => exact (rhs2_0 _ _).trans hk
    | ⟨1, _⟩ => exact rhs2_1 _ _)
  rw [el, er]

variable (V : (c : Dev nD) → (b : Ref sig .tc) → Buf (Elt Ideal) ((c : Thread nD τ).loc b))

/-- The block indices of the three windows at point t: the rows of x and of the result move with the point, w stays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The block of x at point t is rows 1024 t to 1024 t + 1023 of the array. -/
theorem iblk2_0_apply (c : Dev nD) (t : Fin cfg2.N) (y : S1024x1024.Idx) (i : S8192x1024.Idx)
    (h0 : (i 0).val = 1024 * t.val + (y 0).val) (h1 : (i 1).val = (y 1).val) :
    (iblk2 V c 0 t : Vec Ideal S1024x1024 .f32) y = (V c main_arg2 : S8192x1024.Idx → EReal) i := by
  obtain ⟨e0, e1, -⟩ := idx_facts2 t
  unfold iblk2
  rw [View.read_apply]
  show V c main_arg2 _ = V c main_arg2 _
  congr 1
  funext a
  apply Fin.ext
  match a with
  | ⟨0, _⟩ => show win2_0.index t (0 : Fin 2) * 1024 + 1 * (y 0).val = (i 0).val; rw [e0, h0]; omega
  | ⟨1, _⟩ => show win2_0.index t (1 : Fin 2) * 1024 + 1 * (y 1).val = (i 1).val; rw [e1, h1]; omega

/-- The block of w at every point is the whole array. -/
theorem iblk2_1_apply (c : Dev nD) (t : Fin cfg2.N) (y : S1024x64.Idx) (i : S1024x64.Idx)
    (h0 : (i 0).val = (y 0).val) (h1 : (i 1).val = (y 1).val) :
    (iblk2 V c 1 t : Vec Ideal S1024x64 .f32) y = (V c main_arg5 : S1024x64.Idx → EReal) i := by
  obtain ⟨-, -, e0, e1, -⟩ := idx_facts2 t
  unfold iblk2
  rw [View.read_apply]
  show V c main_arg5 _ = V c main_arg5 _
  congr 1
  funext a
  apply Fin.ext
  match a with
  | ⟨0, _⟩ => show win2_1.index t (0 : Fin 2) * 1024 + 1 * (y 0).val = (i 0).val; rw [e0, h0]; omega
  | ⟨1, _⟩ => show win2_1.index t (1 : Fin 2) * 64 + 1 * (y 1).val = (i 1).val; rw [e1, h1]; omega

/-- What point t writes back is block t of the product of the two argument arrays. -/
theorem flushed2_eq (c : Dev nD) (t : Fin cfg2.N) :
    (dat2 V c).flushed 2 t = ((cfg2.win 2).blk t).view.read (Elt Ideal) (G2 (V c main_arg2) (V c main_arg5)) := by
  show (cfg2.win 2).cut (grid2.coords t) ((dat2 V c).after 2 t) = _
  rw [after2_2]
  unfold out2_2
  rw [View.canon_unit_zero hz2]
  simp only [View.ld_unit_zero (S := S1024x1024) hz2, View.ld_unit_zero (S := S1024x64) hz2]
  obtain ⟨-, -, -, -, e0, e1⟩ := idx_facts2 t
  funext j
  show k2_pay1 (iblk2 V c 0 t) (iblk2 V c 1 t) j = G2 (V c main_arg2) (V c main_arg5) (((cfg2.win 2).blk t).view.emb j)
  refine (pay2_apply (iblk2 V c 0 t) (iblk2 V c 1 t) j).trans ?_
  unfold G2
  have hj0 : (j 0).val < 1024 := (j 0).isLt
  have hj1 : (j 1).val < 64 := (j 1).isLt
  have hr : ((((cfg2.win 2).blk t).view.emb j) 0).val = 1024 * t.val + (j 0).val := by
    show win2_2.index t (0 : Fin 2) * 1024 + 1 * (j 0).val = _; rw [e0]; omega
  have hc : ((((cfg2.win 2).blk t).view.emb j) 1).val = (j 1).val := by
    show win2_2.index t (1 : Fin 2) * 64 + 1 * (j 1).val = _; rw [e1]; omega
  refine Finset.sum_congr rfl fun k _ => ?_
  congr 1
  · exact iblk2_0_apply V c t _ _ hr rfl
  · exact iblk2_1_apply V c t _ _ rfl hc

/-- An index of the result array is in point t's block iff each coordinate is in the block's range on its axis. -/
theorem mem_blk2 (t : Fin cfg2.N) (i : S8192x64.Idx) :
    i ∈ ((cfg2.win 2).blk t).view.set ↔ ∀ a : Fin 2, win2_2.index t a * S1024x64.size a ≤ (i a).val ∧ (i a).val < win2_2.index t a * S1024x64.size a + S1024x64.size a := by
  show i ∈ ((View.whole main_v2).slice (win2_2.rect t)).set ↔ _
  rw [View.set_slice_whole, Rect.mem_set_unit]
  exact Iff.rfl

/-- Every index of the result array is in the block of the point its row falls in. -/
theorem cover2 (i : S8192x64.Idx) : ∃ t : Fin cfg2.N, (cfg2.win 2).flush t = true ∧ i ∈ ((cfg2.win 2).blk t).view.set := by
  have hN : grid2.N = 8 := N_2
  have hi0 : (i 0).val < 8192 := (i 0).isLt
  have hi1 : (i 1).val < 64 := (i 1).isLt
  let t : Fin cfg2.N := ⟨(i 0).val / 1024, by show (i 0).val / 1024 < grid2.N; rw [hN]; omega⟩
  obtain ⟨-, -, -, -, e0, e1⟩ := idx_facts2 t
  have ht : t.val = (i 0).val / 1024 := rfl
  refine ⟨t, flush2_2 t, ?_⟩
  rw [mem_blk2]
  intro a
  match a with
  | ⟨0, _⟩ => show win2_2.index t (0 : Fin 2) * 1024 ≤ (i 0).val ∧ (i 0).val < win2_2.index t (0 : Fin 2) * 1024 + 1024; rw [e0, ht]; omega
  | ⟨1, _⟩ => show win2_2.index t (1 : Fin 2) * 64 ≤ (i 1).val ∧ (i 1).val < win2_2.index t (1 : Fin 2) * 64 + 64; rw [e1]; omega

/-- So after the eight points the result array holds the product. -/
theorem final2 (c : Dev nD) : (dat2 V c).arrAt 2 cfg2.N = G2 (V c main_arg2) (V c main_arg5) :=
  (dat2 V c).arrAt_eq_of_cover 2 (G2 (V c main_arg2) (V c main_arg5)) (fun t _ => flushed2_eq V c t) cover2

/-- The third projection's array after its pipeline, entry by entry. -/
theorem proj2_value (c : Dev nD) (i : Fin 8192) (d : Fin 64) :
    (dat2 (F := Ideal) V c).arrAt 2 cfg2.N (ix2 i d)
      = Cert.Attn.proj (fun i k => V c main_arg2 (ix2 i k)) (fun k d => V c main_arg5 (ix2 k d)) i d := by
  rw [final2]
  rfl

end Cert.KernelIdeal.Val

end
-- ==== Proof.RefLaw.lean ====
/-
  The real-number facts behind the column softmax, over abstract finite index types.

  A column of finitely many real scores s i has a real maximum, its exponentials exp (s i - M) sum to a positive
  real S, the logarithm of S is the real logarithm, and then
      exp (s i - M) / S = exp (s i - (M + log S)):
  the quotient form of the softmax weight and the form that carries the normaliser as a logarithm are one real number.
  Nothing here depends on M being the maximum; any real shift gives the same identity.

  Also here: the two float words the score scale is spelt with. 64.0 has the square root 8, one eighth is the word
  0x3E000000, and dividing any extended real by the real 8 is multiplying it by one eighth.
-/
import proofs.«154009_j33311766348286_1_alg».proof.Proof.Spec

noncomputable section

namespace Cert.RefBridge

open Idealize.ShloMosaic Cert.Attn
open scoped BigOperators

/-- The coercion of the reals into the extended reals commutes with a finite sum. -/
theorem coe_sum {ι : Type} (s : Finset ι) (f : ι → ℝ) :
    ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

/-- A finite sum of products of real entries is a real number. -/
theorem isReal_sum_mul {ι : Type} [Fintype ι] (f g : ι → EReal) (hf : IsReal f) (hg : IsReal g) :
    ∃ r : ℝ, ∑ k, f k * g k = (r : EReal) := by
  have hf' : ∀ k, ∃ r : ℝ, f k = (r : EReal) := hf
  have hg' : ∀ k, ∃ r : ℝ, g k = (r : EReal) := hg
  choose a ha using hf'
  choose b hb using hg'
  refine ⟨∑ k, a k * b k, ?_⟩
  rw [coe_sum]
  exact Finset.sum_congr rfl fun k _ => by rw [ha, hb, EReal.coe_mul]

/-- A real number times a real number is a real number. -/
theorem isReal_mul_coe {x : EReal} (hx : ∃ r : ℝ, x = (r : EReal)) (c : ℝ) : ∃ r : ℝ, x * (c : EReal) = (r : EReal) := by
  obtain ⟨r, rfl⟩ := hx
  exact ⟨r * c, (EReal.coe_mul r c).symm⟩

/-- The largest of finitely many real numbers, over an inhabited index type, is a real number. -/
theorem isReal_sup {ι : Type} [Fintype ι] [Nonempty ι] (s : ι → EReal) (hs : IsReal s) :
    ∃ m : ℝ, Finset.univ.sup s = (m : EReal) := by
  obtain ⟨i, _, hi⟩ := Finset.exists_mem_eq_sup Finset.univ Finset.univ_nonempty s
  obtain ⟨r, hr⟩ := hs i
  exact ⟨r, hi.trans hr⟩

/-- The softmax weight of entry i of a real column, as a quotient by the sum of the shifted exponentials, is the
    exponential of the entry minus the shift plus the logarithm of that sum. -/
theorem weight_eq {ι : Type} [Fintype ι] [Nonempty ι] (s : ι → EReal) (hs : IsReal s) (M : EReal)
    (hM : ∃ m : ℝ, M = (m : EReal)) (i : ι) :
    Ideal.div (Ideal.exp (s i - M)) (∑ i', Ideal.exp (s i' - M))
      = Ideal.exp (s i - (M + Ideal.log (∑ i', Ideal.exp (s i' - M)))) := by
  obtain ⟨m, rfl⟩ := hM
  have hs' : ∀ k, ∃ r : ℝ, s k = (r : EReal) := hs
  choose r hr using hs'
  have hsum : ∑ i', Ideal.exp (s i' - (m : EReal)) = ((∑ i', Real.exp (r i' - m) : ℝ) : EReal) := by
    rw [coe_sum]
    exact Finset.sum_congr rfl fun i' _ => by rw [hr, ← EReal.coe_sub, Ideal.exp_coe]
  have hpos : 0 < ∑ i', Real.exp (r i' - m) :=
    Finset.sum_pos (fun i' _ => Real.exp_pos _) Finset.univ_nonempty
  rw [hsum, hr i, ← EReal.coe_sub, Ideal.exp_coe, Ideal.div_coe hpos.ne', Ideal.log_coe, if_neg (not_le.mpr hpos),
    ← EReal.coe_add, ← EReal.coe_sub, Ideal.exp_coe, ← EReal.coe_mul]
  refine congrArg _ ?_
  rw [← sub_sub, Real.exp_sub (r i - m), Real.exp_log hpos]
  exact mul_one_div _ _

/-- The word 0x3E000000 is one eighth. -/
theorem eighth_eq : eighth = ((1 / 8 : ℝ) : EReal) := by
  unfold eighth
  simp [Ideal.ofBits, Ideal.ieee, -EReal.coe_mul]; norm_num

/-- The word 0x42800000 is sixty-four. -/
theorem ofBits_64 : Ideal.ofBits .f32 0x42800000#32 = ((64 : ℝ) : EReal) := by
  simp [Ideal.ofBits, Ideal.ieee, -EReal.coe_mul]; norm_num

/-- The word 0xFF800000 is minus infinity. -/
theorem ofBits_neg_inf : Ideal.ofBits .f32 0xFF800000#32 = ⊥ := by
  simp [Ideal.ofBits, Ideal.ieee]

/-- The square root of sixty-four is eight. -/
theorem sqrt_64 : Ideal.sqrt (Ideal.ofBits .f32 0x42800000#32) = ((8 : ℝ) : EReal) := by
  rw [ofBits_64, Ideal.sqrt_coe, if_neg (by norm_num)]
  refine congrArg _ ?_
  rw [show (64 : ℝ) = 8 ^ 2 by norm_num, Real.sqrt_sq (by norm_num)]

/-- Dividing by the square root of sixty-four is multiplying by one eighth, at every extended real. -/
theorem div_sqrt_64 (x : EReal) : Ideal.div x (Ideal.sqrt (Ideal.ofBits .f32 0x42800000#32)) = x * eighth := by
  rw [sqrt_64, Ideal.div_coe (by norm_num), eighth_eq]

end Cert.RefBridge

end
-- ==== Proof.KiValL1.lean ====
/-
  The arithmetic of the column statistic's body, entry by entry, on the extended reals.

  The body is handed all 8192 rows of q and 256 rows of k, each row 64 features. It forms the 8192 by 256 matrix of
  inner products q_i . k_p (the product of q with the transpose of k into a zero accumulator: a plain finite sum;
  the conversions to the half-width format are the identity here), scales every entry by one eighth, and then works
  column by column: the largest of the 8192 entries of column p (the fold of the maximum from minus infinity is the
  supremum), the sum down the column of exp (entry minus that maximum), and the maximum plus the logarithm of the sum.
  Entry (0, p) of the one-row result is therefore the column statistic of the 8192 scaled inner products with row p.
-/
import proofs.«154009_j33311766348286_1_alg».proof.Proof.Gen.KernelIdeal.Skeleton
import proofs.«154009_j33311766348286_1_alg».proof.Proof.RefLaw
import proofs.«154009_j33311766348286_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.ValueIdx

/-- Scores: the product of the 8192 by 64 block with the TRANSPOSE of the 256 by 64 block contracts the feature axis
    of both, so entry (i, p) pairs row i of the first with row p of the second. -/
theorem scores3_apply {φ₁ φ₂ : FTy} (a : FVec Ideal S8192x64 φ₁) (b : FVec Ideal S256x64 φ₂) (i : Fin 8192) (p : Fin 256) :
    matmul (F := Ideal) dot_S8192x64_S256x64_S8192x256_1_1_0_0_n_n none a b (constant S8192x256 .f32 0x00000000#32) (ix2 i p)
      = ∑ e : Fin 64, a (ix2 i e) * b (ix2 p e) := by
  refine (Ideal.matmul_constant_zero_apply dot_S8192x64_S256x64_S8192x256_1_1_0_0_n_n none a b (ix2 i p)).trans ?_
  rw [← Equiv.sum_comp (contrEquiv1 dot_S8192x64_S256x64_S8192x256_1_1_0_0_n_n 64 rfl rfl).symm]
  refine Finset.sum_congr rfl fun k _ => ?_
  have hk := contrEquiv1_symm_val dot_S8192x64_S256x64_S8192x256_1_1_0_0_n_n 64 rfl rfl k
  have el : dot_S8192x64_S256x64_S8192x256_1_1_0_0_n_n.lhsIdx (ix2 i p) ((contrEquiv1 dot_S8192x64_S256x64_S8192x256_1_1_0_0_n_n 64 rfl rfl).symm k) = ix2 i k := funext fun ax => Fin.ext (by
    match ax with
    | ⟨0, _⟩ =>
      show (dot_S8192x64_S256x64_S8192x256_1_1_0_0_n_n.lhsIdx (ix2 i p) _ 0).val = i.val
      unfold DotDims.lhsIdx
      rw [dif_neg (show ¬(0 : Fin S8192x64.rank) ∈ dot_S8192x64_S256x64_S8192x256_1_1_0_0_n_n.lhsBatch by decide), dif_pos (show (0 : Fin S8192x64.rank) ∈ dot_S8192x64_S256x64_S8192x256_1_1_0_0_n_n.lhsNonContracting by decide)]
      rfl
    | ⟨1, _⟩ => exact (dot_S8192x64_S256x64_S8192x256_1_1_0_0_n_n.lhsIdx_val_of_single rfl _ _).trans hk)
  have er : dot_S8192x64_S256x64_S8192x256_1_1_0_0_n_n.rhsIdx (ix2 i p) ((contrEquiv1 dot_S8192x64_S256x64_S8192x256_1_1_0_0_n_n 64 rfl rfl).symm k) = ix2 p k := funext fun ax => Fin.ext (by
    match ax with
    | ⟨0, _⟩ =>
      show (dot_S8192x64_S256x64_S8192x256_1_1_0_0_n_n.rhsIdx (ix2 i p) _ 0).val = p.val
      unfold DotDims.rhsIdx
      rw [dif_neg (show ¬(0 : Fin S256x64.rank) ∈ dot_S8192x64_S256x64_S8192x256_1_1_0_0_n_n.rhsBatch by decide), dif_pos (show (0 : Fin S256x64.rank) ∈ dot_S8192x64_S256x64_S8192x256_1_1_0_0_n_n.rhsNonContracting by decide)]
      rfl
    | ⟨1, _⟩ => exact (dot_S8192x64_S256x64_S8192x256_1_1_0_0_n_n.rhsIdx_val_of_single rfl _ _).trans hk)
  rw [el, er]

/-- Column p of the reduced shape with row k put back on the reduced axis is the index (k, p). -/
theorem lift_col3 (h : S8192x256.Reduces [0] S256) (p : Fin 256) (k : Fin (S8192x256.size 0)) :
    h.lift (ix1 p) k = ix2 (⟨k.val, k.isLt⟩ : Fin 8192) p := by
  funext c; apply Fin.ext
  fin_cases c <;> rfl

/-- The maximum over the 8192 rows from minus infinity, at column p, is the largest entry of the column. -/
theorem colmax3_apply (y : FVec Ideal S8192x256 .f32) (h : S8192x256.Reduces [0] S256) (hφ : FKind.Formats .f32)
    (hacc : (0xFF800000#32 : BitVec 32) = 0xFF800000#32) (p : Fin 256) :
    multiReduction .maximumf [0] S256 y 0xFF800000#32 h hφ hacc (ix1 p) = Finset.univ.sup fun i : Fin 8192 => y (ix2 i p) := by
  refine (Ideal.multiReduction_maximumf_single y 0xFF800000#32 h hφ hacc (ix1 p)).trans ?_
  have hf : (y ∘ h.lift (ix1 p)) = fun k : Fin 8192 => y (ix2 k p) := funext fun k => congrArg y (lift_col3 h p k)
  show Finset.fold (fun a b : EReal => max a b) (Ideal.ofBits .f32 0xFF800000#32) (y ∘ h.lift (ix1 p))
      (Finset.univ : Finset (Fin 8192)) = _
  rw [hf, Cert.RefBridge.ofBits_neg_inf]
  rfl

/-- The sum over the 8192 rows from zero, at column p, is the sum of the column's entries. -/
theorem colsum3_apply (y : FVec Ideal S8192x256 .f32) (h : S8192x256.Reduces [0] S256) (hφ : FKind.Formats .f32)
    (hacc : (0x00000000#32 : BitVec 32) = 0x00000000#32) (p : Fin 256) :
    multiReduction .add [0] S256 y 0x00000000#32 h hφ hacc (ix1 p) = ∑ i : Fin 8192, y (ix2 i p) := by
  refine (Ideal.multiReduction_add_single y 0x00000000#32 h hφ hacc (ix1 p)).trans ?_
  show ∑ k : Fin 8192, y (h.lift (ix1 p) k) = _
  exact Finset.sum_congr rfl fun k _ => congrArg y (lift_col3 h p k)

/-- The scaled scores at an entry: the inner product of row i of the first block and row p of the second, times the
    broadcast scale. -/
theorem scaled3_apply {φ₁ φ₂ : FTy} (a : FVec Ideal S8192x64 φ₁) (b : FVec Ideal S256x64 φ₂) (c : Ideal .f32)
    (i : Fin 8192) (p : Fin 256) :
    mulf (matmul (F := Ideal) dot_S8192x64_S256x64_S8192x256_1_1_0_0_n_n none a b (constant S8192x256 .f32 0x00000000#32)) (broadcast S8192x256 c) (ix2 i p)
      = (∑ e : Fin 64, a (ix2 i e) * b (ix2 p e)) * c := by
  rw [mulf_apply, scores3_apply]
  rfl

/-- An exponential and a logarithm taken entry by entry, read at an entry. -/
theorem exp3_apply {s : Shape} (a : FVec Ideal s .f32) (i : s.Idx) : exp a i = Ideal.exp (a i) := rfl
theorem log3_apply {s : Shape} (a : FVec Ideal s .f32) (i : s.Idx) : log a i = Ideal.log (a i) := rfl

/-- The logarithm of a column's sum of exponentials, shifted by the column's maximum: the column statistic of 8192
    extended reals. -/
def lseOf (s : Fin 8192 → EReal) : EReal :=
  Finset.univ.sup s + Ideal.log (∑ i : Fin 8192, Ideal.exp (s i - Finset.univ.sup s))

/-- The specification's column statistic is that of the column. -/
theorem lse_eq_lseOf (s : Fin 8192 → Fin 8192 → EReal) (j : Fin 8192) : Cert.Attn.lse s j = lseOf fun i => s i j := rfl

/-- The body's arithmetic at entry (0, p) of its one-row block: the column statistic of the 8192 scaled inner products
    of the first block's rows with row p of the second. -/
theorem pay3_apply (q : Vec Ideal S8192x64 .f32) (k : Vec Ideal S256x64 .f32) (u : Fin 1) (p : Fin 256) :
    k3_pay1 (F := Ideal) q k (ix2 u p)
      = lseOf fun i : Fin 8192 => (∑ e : Fin 64, q (ix2 i e) * k (ix2 p e)) * Cert.Attn.eighth := by
  unfold k3_pay1
  simp only [shapeCast_self]
  rw [addf_apply, log3_apply, shapeCast_a_1a_apply, shapeCast_a_1a_apply, colmax3_apply, colsum3_apply]
  simp only [exp3_apply, subf_apply, broadcastTo_1b_ab_apply, shapeCast_a_1a_apply, scaled3_apply, truncf_apply]
  rw [colmax3_apply]
  simp only [scaled3_apply, truncf_apply]
  rfl

/-- The same at any index of the one-row block: only the column coordinate matters. -/
theorem pay3_apply_idx (q : Vec Ideal S8192x64 .f32) (k : Vec Ideal S256x64 .f32) (j : S1x256.Idx) :
    k3_pay1 (F := Ideal) q k j
      = lseOf fun i : Fin 8192 =>
          (∑ e : Fin 64, q (ix2 i e) * k (ix2 (⟨(j 1).val, idx2_lt1 j⟩ : Fin 256) e)) * Cert.Attn.eighth := by
  obtain ⟨u, p, rfl⟩ : ∃ (u : Fin 1) (p : Fin 256), j = ix2 u p := ⟨j 0, j 1, eq_ix2 j⟩
  exact pay3_apply q k u p

end Cert.KernelIdeal.Val

end
-- ==== Proof.KiValL2.lean ====
/-
  The column statistic's output array after all thirty-two points: the specification's log-sum-exp, entry by entry.

  Point t of the pipeline is handed the whole of q (its block index never moves), rows 256 t to 256 t + 255 of k, and
  writes its one row of 256 results back to columns 256 t to 256 t + 255 of the one-row output array. Entry p of that
  row is the column statistic of the 8192 scaled inner products of q's rows with row 256 t + p of k. The thirty-two
  blocks tile the 8192 columns; column j lies in block j / 256. So the array ends holding, at (0, j), the maximum over
  i of the score of (i, j) plus the logarithm of the sum over i of exp (score minus that maximum).
-/
import proofs.«154009_j33311766348286_1_alg».proof.Proof.KiR3
import proofs.«154009_j33311766348286_1_alg».proof.Proof.KiValL1
import proofs.«154009_j33311766348286_1_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- What the one-row array ends holding: at column j the specification's log-sum-exp of the scores of q against k. -/
def G3 (Q K : S8192x64.Idx → EReal) : S1x8192.Idx → EReal := fun i =>
  Cert.Attn.lse (Cert.Attn.score (fun i d => Q (ix2 i d)) (fun j d => K (ix2 j d))) (⟨(i 1).val, idx2_lt1 i⟩ : Fin 8192)

theorem hz3 : (![0, 0] : Fin 2 → Nat) = fun _ => 0 := funext fun a => by fin_cases a <;> rfl

/-- The printed index maps, decided over the grid: q's block index is always (0, 0), k's is (t, 0), the output's (0, t). -/
theorem idx_facts3 : ∀ t : Fin cfg3.N, win3_0.index t (0 : Fin 2) = 0 ∧ win3_0.index t (1 : Fin 2) = 0
    ∧ win3_1.index t (0 : Fin 2) = t.val ∧ win3_1.index t (1 : Fin 2) = 0
    ∧ win3_2.index t (0 : Fin 2) = 0 ∧ win3_2.index t (1 : Fin 2) = t.val :=
  (by decide +kernel : ∀ t : Fin grid3.N, _)

/-- The first window's block at any point is the whole of q. -/
theorem read3_0 (c : Dev nD) (t : Fin cfg3.N) (r : Fin 8192) (e : Fin 64) :
    iblk3 V c 0 t (ix2 r e) = V c main_v0 (ix2 r e) := by
  obtain ⟨e0, e1, -⟩ := idx_facts3 t
  unfold iblk3
  show V c main_v0 (((cfg3.win 0).blk t).view.emb (ix2 r e)) = V c main_v0 (ix2 r e)
  refine congrArg (V c main_v0) (funext fun a => Fin.ext ?_)
  match a with
  | ⟨0, _⟩ => show win3_0.index t (0 : Fin 2) * 8192 + 1 * r.val = r.val; omega
  | ⟨1, _⟩ => show win3_0.index t (1 : Fin 2) * 64 + 1 * e.val = e.val; omega

/-- The second window's block at point t is rows 256 t to 256 t + 255 of k. -/
theorem read3_1 (c : Dev nD) (t : Fin cfg3.N) (p : Fin 256) (e : Fin 64) (j : Fin 8192) (hj : j.val = 256 * t.val + p.val) :
    iblk3 V c 1 t (ix2 p e) = V c main_v1 (ix2 j e) := by
  obtain ⟨-, -, e2, e3, -⟩ := idx_facts3 t
  unfold iblk3
  show V c main_v1 (((cfg3.win 1).blk t).view.emb (ix2 p e)) = V c main_v1 (ix2 j e)
  refine congrArg (V c main_v1) (funext fun a => Fin.ext ?_)
  match a with
  | ⟨0, _⟩ => show win3_1.index t (0 : Fin 2) * 256 + 1 * p.val = j.val; omega
  | ⟨1, _⟩ => show win3_1.index t (1 : Fin 2) * 64 + 1 * e.val = e.val; omega

/-- WHAT POINT t WRITES BACK is block t of the log-sum-exp row of the arrays as the region finds them. -/
theorem flushed3_eq (c : Dev nD) (t : Fin cfg3.N) :
    (dat3 V c).flushed 2 t = ((cfg3.win 2).blk t).view.read (Elt Ideal) (G3 (V c main_v0) (V c main_v1)) := by
  show (cfg3.win 2).cut (grid3.coords t) ((dat3 V c).after 2 t) = _
  rw [after3_2]
  unfold out3_2
  rw [View.canon_unit_zero hz3]
  simp only [View.ld_unit_zero (S := S8192x64) hz3, View.ld_unit_zero (S := S256x64) hz3]
  obtain ⟨-, -, -, -, e4, e5⟩ := idx_facts3 t
  funext y
  refine (pay3_apply_idx (iblk3 V c 0 t) (iblk3 V c 1 t) ((cfg3.win 2).xinj (grid3.coords t) y)).trans ?_
  show _ = G3 (V c main_v0) (V c main_v1) (((cfg3.win 2).blk t).view.emb y)
  unfold G3
  rw [lse_eq_lseOf]
  refine congrArg lseOf (funext fun i => ?_)
  unfold Cert.Attn.score
  refine congrArg (· * Cert.Attn.eighth) (Finset.sum_congr rfl fun e _ => ?_)
  refine congrArg₂ (· * ·) (read3_0 V c t i e) (read3_1 V c t _ e _ ?_)
  show win3_2.index t (1 : Fin 2) * 256 + 1 * (y 1).val = 256 * t.val + (y 1).val
  omega

/-- An index of the array is in point t's block iff each coordinate is in the block's range on its axis. -/
theorem mem_blk3 (t : Fin cfg3.N) (i : S1x8192.Idx) :
    i ∈ ((cfg3.win 2).blk t).view.set ↔ ∀ a : Fin 2, win3_2.index t a * S1x256.size a ≤ (i a).val ∧ (i a).val < win3_2.index t a * S1x256.size a + S1x256.size a := by
  show i ∈ ((View.whole main_v3).slice (win3_2.rect t)).set ↔ _
  rw [View.set_slice_whole, Rect.mem_set_unit]
  exact Iff.rfl

/-- Every column lies in some point's block: column j in block j / 256. -/
theorem cover3 (i : S1x8192.Idx) : ∃ t : Fin cfg3.N, (cfg3.win 2).flush t = true ∧ i ∈ ((cfg3.win 2).blk t).view.set := by
  have hi0 : (i 0).val < 1 := (i 0).isLt
  have hi1 : (i 1).val < 8192 := (i 1).isLt
  have hN : cfg3.N = 32 := N_3
  obtain ⟨t, ht⟩ : ∃ t : Fin cfg3.N, t.val = (i 1).val / 256 := ⟨⟨(i 1).val / 256, by rw [hN]; omega⟩, rfl⟩
  obtain ⟨-, -, -, -, e4, e5⟩ := idx_facts3 t
  refine ⟨t, flush3_2 t, ?_⟩
  rw [mem_blk3]
  intro a
  match a with
  | ⟨0, _⟩ =>
    show win3_2.index t (0 : Fin 2) * 1 ≤ (i 0).val ∧ (i 0).val < win3_2.index t (0 : Fin 2) * 1 + 1
    omega
  | ⟨1, _⟩ =>
    show win3_2.index t (1 : Fin 2) * 256 ≤ (i 1).val ∧ (i 1).val < win3_2.index t (1 : Fin 2) * 256 + 256
    omega

/-- THE ARRAY after the thirty-two points is the log-sum-exp row. -/
theorem final3 (c : Dev nD) : (dat3 V c).arrAt 2 cfg3.N = G3 (V c main_v0) (V c main_v1) :=
  (dat3 V c).arrAt_eq_of_cover 2 (G3 (V c main_v0) (V c main_v1)) (fun t _ => flushed3_eq V c t) cover3

/-- Entry (0, j) of the array after the run: the specification's log-sum-exp of column j of the scores. -/
theorem lse_value (c : Dev nD) (j : Fin 8192) :
    (dat3 (F := Ideal) V c).arrAt 2 cfg3.N (ix2 (0 : Fin 1) j)
      = Cert.Attn.lse (Cert.Attn.score (fun i d => V c main_v0 (ix2 i d)) (fun j d => V c main_v1 (ix2 j d))) j := by
  rw [final3]
  rfl

end Cert.KernelIdeal.Val

end
-- ==== Proof.KiValAll.lean ====
/-
  What the kernel computes, from the arguments.

  Putting the five pipelines together: the arrays the output kernel reads are the three projections of the arguments
  and the log-sum-exp row of the scores of the first two; its result is, entry by entry, the sum over all key rows of
  exp (score - log-sum-exp) times the projected value. That is the specification's function of the six arguments.
-/
import proofs.«154009_j33311766348286_1_alg».proof.Proof.KiCarry
import proofs.«154009_j33311766348286_1_alg».proof.Proof.KiVal4c
import proofs.«154009_j33311766348286_1_alg».proof.Proof.KiValP0
import proofs.«154009_j33311766348286_1_alg».proof.Proof.KiValP1
import proofs.«154009_j33311766348286_1_alg».proof.Proof.KiValP2
import proofs.«154009_j33311766348286_1_alg».proof.Proof.KiValL2

set_option maxRecDepth 16384

noncomputable section

namespace Cert.KernelIdeal.Val

open Cert.KernelIdeal Cert.KernelIdeal.Gen Cert.KernelIdeal.Fr Cert.KernelIdeal.Val4
open Idealize.ShloMosaic Idealize.ShloMosaic.TcCoe Idealize.ShloMosaic.ValueIdx Idealize.SL.Sem

variable (m : (ℓ : Loc nD τ sig) → Buf (Elt Ideal) ℓ) (ρ : Dev nD → PrngReg)

/-- The six arguments as functions of coordinates. -/
def xq (c : Dev nD) : Fin 8192 → Fin 1024 → EReal := fun i k => m ((c : Thread nD τ).loc main_arg0) (ix2 i k)
def xk (c : Dev nD) : Fin 8192 → Fin 1024 → EReal := fun i k => m ((c : Thread nD τ).loc main_arg1) (ix2 i k)
def xv (c : Dev nD) : Fin 8192 → Fin 1024 → EReal := fun i k => m ((c : Thread nD τ).loc main_arg2) (ix2 i k)
def wq (c : Dev nD) : Fin 1024 → Fin 64 → EReal := fun k d => m ((c : Thread nD τ).loc main_arg3) (ix2 k d)
def wk (c : Dev nD) : Fin 1024 → Fin 64 → EReal := fun k d => m ((c : Thread nD τ).loc main_arg4) (ix2 k d)
def wv (c : Dev nD) : Fin 1024 → Fin 64 → EReal := fun k d => m ((c : Thread nD τ).loc main_arg5) (ix2 k d)

/-- What pipeline 0 leaves is the projection of the first argument by the fourth. -/
theorem q_arr (c : Dev nD) (i : Fin 8192) (e : Fin 64) :
    (dat0 (V0 m ρ) c).arrAt 2 cfg0.N (ix2 i e) = Cert.Attn.proj (xq m c) (wq m c) i e :=
  proj0_value (V0 m ρ) c i e

theorem k_arr (c : Dev nD) (j : Fin 8192) (e : Fin 64) :
    (dat1 (V1 m ρ) c).arrAt 2 cfg1.N (ix2 j e) = Cert.Attn.proj (xk m c) (wk m c) j e := by
  refine (proj1_value (V1 m ρ) c j e).trans ?_
  unfold xk wk
  simp only [V1_arg1 m ρ c, V1_arg4 m ρ c]

theorem v_arr (c : Dev nD) (j : Fin 8192) (d : Fin 64) :
    (dat2 (V2 m ρ) c).arrAt 2 cfg2.N (ix2 j d) = Cert.Attn.proj (xv m c) (wv m c) j d := by
  refine (proj2_value (V2 m ρ) c j d).trans ?_
  unfold xv wv
  simp only [V2_arg2 m ρ c, V2_arg5 m ρ c]

/-- The arrays the last two pipelines read. -/
theorem q_eq (c : Dev nD) : qv (V4 m ρ) c = Cert.Attn.proj (xq m c) (wq m c) := funext fun i => funext fun e => by
  unfold qv; rw [V4_v0 m ρ c]; exact q_arr m ρ c i e
theorem k_eq (c : Dev nD) : kv (V4 m ρ) c = Cert.Attn.proj (xk m c) (wk m c) := funext fun j => funext fun e => by
  unfold kv; rw [V4_v1 m ρ c]; exact k_arr m ρ c j e
theorem v_eq (c : Dev nD) : vv (V4 m ρ) c = Cert.Attn.proj (xv m c) (wv m c) := funext fun j => funext fun d => by
  unfold vv; rw [V4_v2 m ρ c]; exact v_arr m ρ c j d

theorem l_eq (c : Dev nD) (j : Fin 8192) :
    Val4.lv (V4 m ρ) c j = Cert.Attn.lse (Cert.Attn.score (Cert.Attn.proj (xq m c) (wq m c)) (Cert.Attn.proj (xk m c) (wk m c))) j := by
  unfold Val4.lv
  rw [V4_v3 m ρ c]
  refine (lse_value (V3 m ρ) c j).trans ?_
  have hq3 : (fun (i : Fin 8192) (d : Fin 64) => V3 m ρ c main_v0 (ix2 i d)) = Cert.Attn.proj (xq m c) (wq m c) :=
    funext fun i => funext fun e => by rw [V3_v0 m ρ c]; exact q_arr m ρ c i e
  have hk3 : (fun (j : Fin 8192) (d : Fin 64) => V3 m ρ c main_v1 (ix2 j d)) = Cert.Attn.proj (xk m c) (wk m c) :=
    funext fun j => funext fun e => by rw [V3_v1 m ρ c]; exact k_arr m ρ c j e
  rw [hq3, hk3]

/-- THE KERNEL'S VALUE: the result array, entry by entry, is the specification's function of the arguments. -/
theorem kernel_value (c : Dev nD) (i : Fin 8192) (d : Fin 64) :
    W5 m ρ c (Proc.devRef .tc main_v4) (ix2 i d)
      = Cert.Attn.attn (xq m c) (xk m c) (xv m c) (wq m c) (wk m c) (wv m c) i d := by
  refine (congrFun ((W5_v4 m ρ c).trans (final4 (V4 m ρ) c)) (ix2 i d)).trans ?_
  show (∑ j : Fin 8192, term (V4 m ρ) c i j d : EReal) = _
  unfold Cert.Attn.attn Cert.Attn.out
  refine Finset.sum_congr rfl fun j _ => ?_
  unfold term
  rw [q_eq m ρ c, k_eq m ρ c, v_eq m ρ c, l_eq m ρ c j]

end Cert.KernelIdeal.Val

end
-- ==== Proof.RefProj.lean ====
/-
  The three projections of the reference.

  Each of q, k, v is one matrix product of a sequence of 8192 rows of 1024 features with a 1024 by 64 weight
  matrix; read at row i and feature d it is the sum over the 1024 features of the row's entry times the weight's.
-/
import proofs.«154009_j33311766348286_1_alg».proof.Proof.Gen.ReferenceIdeal.Read
import proofs.«154009_j33311766348286_1_alg».proof.Proof.RefLaw

noncomputable section

namespace Cert.RefBridge

open Idealize.ShloMosaic Idealize.ShloMosaic.ValueIdx Cert.ReferenceIdeal Cert.ReferenceIdeal.Read Cert.Attn

/-- The query projection at (i, d). -/
theorem q_read (x : (⟨S8192x1024, .f32⟩ : BufTy).Contents (Elt Ideal)) (w : (⟨S1024x64, .f32⟩ : BufTy).Contents (Elt Ideal))
    (i : Fin 8192) (d : Fin 64) :
    val_main_v0 (F := Ideal) x w (ix2 i d) = proj (fun i k => x (ix2 i k)) (fun k d => w (ix2 k d)) i d := by
  rw [val_main_v0_apply]
  refine Finset.sum_congr rfl fun k _ => ?_
  have el : lidx_main_v0 (ix2 i d) k = ix2 i k :=
    funext fun a => Fin.ext (by match a with | ⟨0, _⟩ => rfl | ⟨1, _⟩ => rfl)
  have er : ridx_main_v0 (ix2 i d) k = ix2 k d :=
    funext fun a => Fin.ext (by match a with | ⟨0, _⟩ => rfl | ⟨1, _⟩ => rfl)
  rw [el, er]

/-- The key projection at (j, d). -/
theorem k_read (x : (⟨S8192x1024, .f32⟩ : BufTy).Contents (Elt Ideal)) (w : (⟨S1024x64, .f32⟩ : BufTy).Contents (Elt Ideal))
    (j : Fin 8192) (d : Fin 64) :
    val_main_v1 (F := Ideal) x w (ix2 j d) = proj (fun i k => x (ix2 i k)) (fun k d => w (ix2 k d)) j d := by
  rw [val_main_v1_apply]
  refine Finset.sum_congr rfl fun k _ => ?_
  have el : lidx_main_v1 (ix2 j d) k = ix2 j k :=
    funext fun a => Fin.ext (by match a with | ⟨0, _⟩ => rfl | ⟨1, _⟩ => rfl)
  have er : ridx_main_v1 (ix2 j d) k = ix2 k d :=
    funext fun a => Fin.ext (by match a with | ⟨0, _⟩ => rfl | ⟨1, _⟩ => rfl)
  rw [el, er]

/-- The value projection at (j, d). -/
theorem v_read (x : (⟨S8192x1024, .f32⟩ : BufTy).Contents (Elt Ideal)) (w : (⟨S1024x64, .f32⟩ : BufTy).Contents (Elt Ideal))
    (j : Fin 8192) (d : Fin 64) :
    val_main_v2 (F := Ideal) x w (ix2 j d) = proj (fun i k => x (ix2 i k)) (fun k d => w (ix2 k d)) j d := by
  rw [val_main_v2_apply]
  refine Finset.sum_congr rfl fun k _ => ?_
  have el : lidx_main_v2 (ix2 j d) k = ix2 j k :=
    funext fun a => Fin.ext (by match a with | ⟨0, _⟩ => rfl | ⟨1, _⟩ => rfl)
  have er : ridx_main_v2 (ix2 j d) k = ix2 k d :=
    funext fun a => Fin.ext (by match a with | ⟨0, _⟩ => rfl | ⟨1, _⟩ => rfl)
  rw [el, er]

/-- A projection of a real sequence by a real weight matrix is real at every entry. -/
theorem proj_isReal (x : Fin 8192 → Fin 1024 → EReal) (w : Fin 1024 → Fin 64 → EReal)
    (hx : ∀ i, IsReal (x i)) (hw : ∀ d, IsReal fun k => w k d) (i : Fin 8192) (d : Fin 64) :
    ∃ r : ℝ, proj x w i d = (r : EReal) :=
  isReal_sum_mul (x i) (fun k => w k d) (hx i) (hw d)

end Cert.RefBridge

end
-- ==== Proof.RefScore.lean ====
/-
  The scaled scores of the reference.

  The reference multiplies q by the transpose of k, so entry (i, j) is the inner product of row i of q and row j of
  k over the 64 features, and divides it by the square root of 64.0. The square root is 8 and a quotient by the real
  8 is the product with one eighth, whatever the numerator: the entry is the specification's score.
  With real inputs every score is a real number: a finite sum of products of reals, times a real.
-/
import proofs.«154009_j33311766348286_1_alg».proof.Proof.RefProj

noncomputable section

namespace Cert.RefBridge

open Idealize.ShloMosaic Idealize.ShloMosaic.ValueIdx Cert.ReferenceIdeal Cert.ReferenceIdeal.Read Cert.Attn

/-- The reference's scaled score matrix at (i, j). -/
theorem score_read (x0 x1 : (⟨S8192x1024, .f32⟩ : BufTy).Contents (Elt Ideal)) (x3 x4 : (⟨S1024x64, .f32⟩ : BufTy).Contents (Elt Ideal)) (i j : Fin 8192) :
    val_main_v7 (F := Ideal) x0 x1 x3 x4 (ix2 i j) = score (proj (fun i k => x0 (ix2 i k)) (fun k d => x3 (ix2 k d))) (proj (fun i k => x1 (ix2 i k)) (fun k d => x4 (ix2 k d))) i j := by
  rw [val_main_v7_apply, val_main_v4_apply, val_main_v6_apply, val_main_v5_apply, val_main_cst_apply]
  have hsum : ∑ d : Fin 64, val_main_v0 (F := Ideal) x0 x3 (lidx_main_v4 (ix2 i j) d)
        * val_main_v3 (F := Ideal) x1 x4 (ridx_main_v4 (ix2 i j) d)
      = ∑ d : Fin 64, (proj (fun i k => x0 (ix2 i k)) (fun k d => x3 (ix2 k d))) i d * (proj (fun i k => x1 (ix2 i k)) (fun k d => x4 (ix2 k d))) j d := by
    refine Finset.sum_congr rfl fun d _ => ?_
    rw [val_main_v3_apply]
    have el : lidx_main_v4 (ix2 i j) d = ix2 i d :=
      funext fun a => Fin.ext (by match a with | ⟨0, _⟩ => rfl | ⟨1, _⟩ => rfl)
    have er : idx_main_v3 (ridx_main_v4 (ix2 i j) d) = ix2 j d :=
      funext fun a => Fin.ext (by match a with | ⟨0, _⟩ => rfl | ⟨1, _⟩ => rfl)
    rw [el, er, q_read, k_read]
  rw [hsum]
  exact div_sqrt_64 _

/-- With real sequences and weights every score is a real number. -/
theorem score_isReal (x0 x1 : (⟨S8192x1024, .f32⟩ : BufTy).Contents (Elt Ideal)) (x3 x4 : (⟨S1024x64, .f32⟩ : BufTy).Contents (Elt Ideal))
    (h0 : IsReal x0) (h1 : IsReal x1) (h3 : IsReal x3) (h4 : IsReal x4) (i j : Fin 8192) :
    ∃ r : ℝ, score (proj (fun i k => x0 (ix2 i k)) (fun k d => x3 (ix2 k d))) (proj (fun i k => x1 (ix2 i k)) (fun k d => x4 (ix2 k d))) i j = (r : EReal) := by
  have hq : IsReal fun d => (proj (fun i k => x0 (ix2 i k)) (fun k d => x3 (ix2 k d))) i d := fun d =>
    proj_isReal _ _ (fun i k => h0 (ix2 i k)) (fun d k => h3 (ix2 k d)) i d
  have hk : IsReal fun d => (proj (fun i k => x1 (ix2 i k)) (fun k d => x4 (ix2 k d))) j d := fun d =>
    proj_isReal _ _ (fun i k => h1 (ix2 i k)) (fun d k => h4 (ix2 k d)) j d
  have hs := isReal_mul_coe (isReal_sum_mul _ _ hq hk) (1 / 8)
  rw [← eighth_eq] at hs
  exact hs

end Cert.RefBridge

end
-- ==== Proof.RefMax.lean ====
/-
  The column maximum as the reference takes it.

  The reference reduces the 8192 by 8192 score matrix over its first axis, the query rows, with the maximum as the
  body and minus infinity as the initial value. At column j that is the maximum of minus infinity and the 8192
  entries (i, j), and since minus infinity is the least extended real it is the largest entry of the column: the
  supremum over i of the entry at (i, j). A further maximum with minus infinity changes nothing.
-/
import proofs.«154009_j33311766348286_1_alg».proof.ReferenceIdeal
import proofs.«154009_j33311766348286_1_alg».proof.Proof.RefLaw
import Idealize.ShloMosaic.Lib.ValueIdx
import Idealize.ShloMosaic.PureOps.Ideal.Laws

noncomputable section

namespace Cert.RefBridge

open Idealize.ShloMosaic Idealize.ShloMosaic.ValueIdx Cert.ReferenceIdeal

/-- Column index j with the row k put back on the reduced axis is the index (k, j). -/
theorem lift_col (h : S8192x8192.Reduces [0] S8192) (j : Fin 8192) (k : Fin (S8192x8192.size 0)) :
    h.lift (ix1 j) k = ix2 (⟨k.val, k.isLt⟩ : Fin 8192) j := by
  funext c; apply Fin.ext
  fin_cases c <;> rfl

/-- The maximum of minus infinity and an extended real is that extended real. -/
theorem max_neg_inf (x : EReal) : max (Ideal.ofBits .f32 0xFF800000#32) x = x := by
  rw [ofBits_neg_inf]; exact max_eq_right bot_le

/-- The max-reduce over the query rows from minus infinity, at column j, is the largest entry of column j. -/
theorem reduce_max_col (y : FVec Ideal S8192x8192 .f32) (h' : S8192x8192.ReducesTo [0] S8192) (hu : 0 < S_.numel)
    (j : Fin 8192) :
    Host.reduce FloatOps.maximumf y (constant (F := Ideal) S_ .f32 0xFF800000#32) h' hu (ix1 j)
      = Finset.univ.sup fun i : Fin 8192 => y (ix2 i j) := by
  have h : S8192x8192.Reduces [0] S8192 := by decide
  rw [Host.reduce_eq_fold_single FloatOps.maximumf y _ h' h hu]
  have hf : (y ∘ h.lift (ix1 j)) = fun k : Fin 8192 => y (ix2 k j) := funext fun k => congrArg y (lift_col h j k)
  show Finset.fold (fun a b : EReal => max a b) (Ideal.ofBits .f32 0xFF800000#32) (y ∘ h.lift (ix1 j))
      (Finset.univ : Finset (Fin 8192)) = _
  rw [hf, ofBits_neg_inf]
  rfl

end Cert.RefBridge

end
-- ==== Proof.RefCol.lean ====
/-
  The reference's column maxima are the specification's.

  The reference takes the maximum of each column of its score matrix from minus infinity, takes the maximum with
  minus infinity once more, and broadcasts the 8192 results down the rows: at (i, j) the broadcast reads the largest
  score of column j.
-/
import proofs.«154009_j33311766348286_1_alg».proof.Proof.RefScore
import proofs.«154009_j33311766348286_1_alg».proof.Proof.RefMax

noncomputable section

namespace Cert.RefBridge

open Idealize.ShloMosaic Idealize.ShloMosaic.ValueIdx Cert.ReferenceIdeal Cert.ReferenceIdeal.Read Cert.Attn

/-- The reference's vector of column maxima at j. -/
theorem colMax_read (x0 x1 : (⟨S8192x1024, .f32⟩ : BufTy).Contents (Elt Ideal)) (x3 x4 : (⟨S1024x64, .f32⟩ : BufTy).Contents (Elt Ideal)) (j : Fin 8192) :
    val_main_v10 (F := Ideal) x0 x1 x3 x4 (ix1 j) = colMax (score (proj (fun i k => x0 (ix2 i k)) (fun k d => x3 (ix2 k d))) (proj (fun i k => x1 (ix2 i k)) (fun k d => x4 (ix2 k d)))) j := by
  rw [val_main_v10_apply, val_main_v9_apply, val_main_cst_1_apply]
  show max (Ideal.ofBits .f32 0xFF800000#32) (val_main_v8 (F := Ideal) x0 x1 x3 x4 (ix1 j)) = _
  rw [max_neg_inf]
  unfold val_main_v8 val_main_cst_0
  generalize hy : val_main_v7 (F := Ideal) x0 x1 x3 x4 = y
  rw [reduce_max_col]
  unfold colMax
  refine congrArg _ (funext fun i => ?_)
  rw [← hy, score_read]

/-- The column maxima broadcast down the rows, at (i, j). -/
theorem colMax_bcast_read (x0 x1 : (⟨S8192x1024, .f32⟩ : BufTy).Contents (Elt Ideal)) (x3 x4 : (⟨S1024x64, .f32⟩ : BufTy).Contents (Elt Ideal)) (i j : Fin 8192) :
    val_main_v12 (F := Ideal) x0 x1 x3 x4 (ix2 i j) = colMax (score (proj (fun i k => x0 (ix2 i k)) (fun k d => x3 (ix2 k d))) (proj (fun i k => x1 (ix2 i k)) (fun k d => x4 (ix2 k d)))) j := by
  rw [val_main_v12_apply, val_main_v11_apply]
  have e : idx_main_v11 (idx_main_v12 (ix2 i j)) = ix1 j :=
    funext fun a => Fin.ext (by match a with | ⟨0, _⟩ => rfl)
  rw [e, colMax_read]

end Cert.RefBridge

end
-- ==== Proof.RefWeights.lean ====
/-
  The reference's normalised weights are the specification's.

  The reference exponentiates each score minus its column's maximum, sums the exponentials of a column from 0.0 over
  the query rows, broadcasts the sums down the rows and divides. With real inputs the scores are real, and the
  quotient exp (s - M) / S is the exponential of s minus (M plus the logarithm of S).
-/
import proofs.«154009_j33311766348286_1_alg».proof.Proof.RefCol

noncomputable section

namespace Cert.RefBridge

open Idealize.ShloMosaic Idealize.ShloMosaic.ValueIdx Cert.ReferenceIdeal Cert.ReferenceIdeal.Read Cert.Attn

/-- The exponential of the shifted score at (i, j). -/
theorem exp_read (x0 x1 : (⟨S8192x1024, .f32⟩ : BufTy).Contents (Elt Ideal)) (x3 x4 : (⟨S1024x64, .f32⟩ : BufTy).Contents (Elt Ideal)) (i j : Fin 8192) :
    val_main_v14 (F := Ideal) x0 x1 x3 x4 (ix2 i j)
      = Ideal.exp (score (proj (fun i k => x0 (ix2 i k)) (fun k d => x3 (ix2 k d))) (proj (fun i k => x1 (ix2 i k)) (fun k d => x4 (ix2 k d))) i j - colMax (score (proj (fun i k => x0 (ix2 i k)) (fun k d => x3 (ix2 k d))) (proj (fun i k => x1 (ix2 i k)) (fun k d => x4 (ix2 k d)))) j) := by
  rw [val_main_v14_apply, val_main_v13_apply, score_read, colMax_bcast_read]
  rfl

/-- The sum of a column's exponentials, at j. -/
theorem sum_read (x0 x1 : (⟨S8192x1024, .f32⟩ : BufTy).Contents (Elt Ideal)) (x3 x4 : (⟨S1024x64, .f32⟩ : BufTy).Contents (Elt Ideal)) (j : Fin 8192) :
    val_main_v15 (F := Ideal) x0 x1 x3 x4 (ix1 j)
      = ∑ i : Fin 8192, Ideal.exp (score (proj (fun i k => x0 (ix2 i k)) (fun k d => x3 (ix2 k d))) (proj (fun i k => x1 (ix2 i k)) (fun k d => x4 (ix2 k d))) i j - colMax (score (proj (fun i k => x0 (ix2 i k)) (fun k d => x3 (ix2 k d))) (proj (fun i k => x1 (ix2 i k)) (fun k d => x4 (ix2 k d)))) j) := by
  rw [val_main_v15_apply, val_main_cst_2_apply]
  show Ideal.ofBits .f32 0x00000000#32 + _ = _
  rw [Ideal.ofBits_zero_f32, zero_add]
  refine Finset.sum_congr rfl fun i _ => ?_
  have e : idx_main_v15 (ix1 j) i = ix2 i j :=
    funext fun a => Fin.ext (by match a with | ⟨0, _⟩ => rfl | ⟨1, _⟩ => rfl)
  rw [e, exp_read]

/-- The normalised weight at (i, j), for real inputs. -/
theorem weight_read (x0 x1 : (⟨S8192x1024, .f32⟩ : BufTy).Contents (Elt Ideal)) (x3 x4 : (⟨S1024x64, .f32⟩ : BufTy).Contents (Elt Ideal))
    (h0 : IsReal x0) (h1 : IsReal x1) (h3 : IsReal x3) (h4 : IsReal x4) (i j : Fin 8192) :
    val_main_v18 (F := Ideal) x0 x1 x3 x4 (ix2 i j)
      = Ideal.exp (score (proj (fun i k => x0 (ix2 i k)) (fun k d => x3 (ix2 k d))) (proj (fun i k => x1 (ix2 i k)) (fun k d => x4 (ix2 k d))) i j - lse (score (proj (fun i k => x0 (ix2 i k)) (fun k d => x3 (ix2 k d))) (proj (fun i k => x1 (ix2 i k)) (fun k d => x4 (ix2 k d)))) j) := by
  rw [val_main_v18_apply, val_main_v17_apply, val_main_v16_apply]
  have e : idx_main_v16 (idx_main_v17 (ix2 i j)) = ix1 j :=
    funext fun a => Fin.ext (by match a with | ⟨0, _⟩ => rfl)
  rw [e, sum_read, exp_read]
  have hs : IsReal fun i' : Fin 8192 => score (proj (fun i k => x0 (ix2 i k)) (fun k d => x3 (ix2 k d))) (proj (fun i k => x1 (ix2 i k)) (fun k d => x4 (ix2 k d))) i' j :=
    fun i' => score_isReal x0 x1 x3 x4 h0 h1 h3 h4 i' j
  have hM : ∃ m : ℝ, colMax (score (proj (fun i k => x0 (ix2 i k)) (fun k d => x3 (ix2 k d))) (proj (fun i k => x1 (ix2 i k)) (fun k d => x4 (ix2 k d)))) j = (m : EReal) := isReal_sup _ hs
  exact weight_eq (fun i' : Fin 8192 => score (proj (fun i k => x0 (ix2 i k)) (fun k d => x3 (ix2 k d))) (proj (fun i k => x1 (ix2 i k)) (fun k d => x4 (ix2 k d))) i' j) hs _ hM i

end Cert.RefBridge

end
-- ==== Proof.RefEq.lean ====
/-
  The reference computes the specification.

  Its last operation multiplies the normalised weights by v: entry (i, d) is the sum over the key rows j of the
  weight of (i, j) times v at (j, d), which is the specification's output term by term. Only the four arrays the
  scores are made of need real entries; the hypotheses on the value sequence and its weight matrix are not used.
-/
import proofs.«154009_j33311766348286_1_alg».proof.Proof.RefWeights

noncomputable section

namespace Cert.RefBridge

open Idealize.ShloMosaic Idealize.ShloMosaic.ValueIdx Cert.ReferenceIdeal Cert.ReferenceIdeal.Read Cert.Attn

/-- The reference's result at (i, d) is the specification's attention of the six argument arrays. -/
theorem ref_eq
    (x0 x1 x2 : (⟨Cert.ReferenceIdeal.S8192x1024, .f32⟩ : BufTy).Contents (Elt Ideal))
    (x3 x4 x5 : (⟨Cert.ReferenceIdeal.S1024x64, .f32⟩ : BufTy).Contents (Elt Ideal))
    (h0 : Cert.Attn.IsReal x0) (h1 : Cert.Attn.IsReal x1) (h2 : Cert.Attn.IsReal x2)
    (h3 : Cert.Attn.IsReal x3) (h4 : Cert.Attn.IsReal x4) (h5 : Cert.Attn.IsReal x5)
    (i : Fin 8192) (d : Fin 64) :
    Cert.ReferenceIdeal.Read.val_main_v19 (F := Ideal) x0 x1 x2 x3 x4 x5 (ix2 i d)
      = Cert.Attn.attn (fun i k => x0 (ix2 i k)) (fun i k => x1 (ix2 i k)) (fun i k => x2 (ix2 i k))
          (fun k d => x3 (ix2 k d)) (fun k d => x4 (ix2 k d)) (fun k d => x5 (ix2 k d)) i d := by
  rw [val_main_v19_apply]
  unfold attn out
  refine Finset.sum_congr rfl fun j _ => ?_
  have el : lidx_main_v19 (ix2 i d) j = ix2 i j :=
    funext fun a => Fin.ext (by match a with | ⟨0, _⟩ => rfl | ⟨1, _⟩ => rfl)
  have er : ridx_main_v19 (ix2 i d) j = ix2 j d :=
    funext fun a => Fin.ext (by match a with | ⟨0, _⟩ => rfl | ⟨1, _⟩ => rfl)
  rw [el, er, weight_read x0 x1 x3 x4 h0 h1 h3 h4, v_read]

/-- The same as one equation between arrays: the reference's result is the specification read at each index's two
    coordinates. -/
theorem ref_eq_fun
    (x0 x1 x2 : (⟨Cert.ReferenceIdeal.S8192x1024, .f32⟩ : BufTy).Contents (Elt Ideal))
    (x3 x4 x5 : (⟨Cert.ReferenceIdeal.S1024x64, .f32⟩ : BufTy).Contents (Elt Ideal))
    (h0 : Cert.Attn.IsReal x0) (h1 : Cert.Attn.IsReal x1) (h2 : Cert.Attn.IsReal x2)
    (h3 : Cert.Attn.IsReal x3) (h4 : Cert.Attn.IsReal x4) (h5 : Cert.Attn.IsReal x5) :
    Cert.ReferenceIdeal.Read.val_main_v19 (F := Ideal) x0 x1 x2 x3 x4 x5
      = fun idx : Cert.ReferenceIdeal.S8192x64.Idx =>
          Cert.Attn.attn (fun i k => x0 (ix2 i k)) (fun i k => x1 (ix2 i k)) (fun i k => x2 (ix2 i k))
            (fun k d => x3 (ix2 k d)) (fun k d => x4 (ix2 k d)) (fun k d => x5 (ix2 k d)) (idx 0) (idx 1) := by
  funext idx
  obtain ⟨i, d, rfl⟩ : ∃ (i : Fin 8192) (d : Fin 64), idx = ix2 i d := ⟨idx 0, idx 1, eq_ix2 idx⟩
  exact ref_eq x0 x1 x2 x3 x4 x5 h0 h1 h2 h3 h4 h5 i d

end Cert.RefBridge

end
-- ==== Proof.RefPre.lean ====
/-
  Finiteness out of the precondition.

  The precondition says of each of the six argument arrays that every entry's absolute value is below plus infinity,
  as one bit: the conjunction of six reductions by "and" of the comparisons. A conjunction that is 1 has every
  conjunct 1, a reduction by "and" from 1 that is 1 met a 1 at every entry, and an extended real whose absolute
  value max x (-x) is below plus infinity is neither infinity: it is a real number.
-/
import proofs.«154009_j33311766348286_1_alg».proof.Defs
import proofs.«154009_j33311766348286_1_alg».proof.Proof.Spec
import Idealize.ShloMosaic.Lib.ReduceAll
import Idealize.ShloMosaic.Lib.ValueIdx
import Idealize.ShloMosaic.Lib.Pipeline.Value

noncomputable section

namespace Cert.RefBridge

open Idealize.ShloMosaic Idealize.ShloMosaic.ValueIdx Cert.Attn

/-- The word 0x7F800000 is plus infinity. -/
theorem ofBits_pos_inf : Ideal.ofBits .f32 0x7F800000#32 = ⊤ := by
  simp [Ideal.ofBits, Ideal.ieee]

/-- An extended real whose absolute value compares below plus infinity is a real number. -/
theorem real_of_abs_lt_inf (x : EReal)
    (h : Ideal.cmp .olt (max x (-x)) (Ideal.ofBits .f32 0x7F800000#32) = 1#1) : ∃ r : ℝ, x = (r : EReal) := by
  rw [ofBits_pos_inf] at h
  have hlt : max x (-x) < ⊤ := by
    by_contra hn
    simp [Ideal.cmp, hn] at h
  induction x using EReal.rec with
  | bot => simp at hlt
  | coe r => exact ⟨r, rfl⟩
  | top => simp at hlt

/-- The scalar shape has one index. -/
instance : Subsingleton Cert.Pre_finite_inputs.S_.Idx := ⟨fun a b => funext fun d => d.elim0⟩

/-- One array: if the reduction by "and" of "absolute value below plus infinity" over every entry is 1, every entry
    is a real number. -/
theorem isReal_of_all {s : Shape} {axes : List (Fin s.rank)} (x : FVec Ideal s .f32)
    (b : Cert.Pre_finite_inputs.S_.BroadcastsInDim s (![] : Fin 0 → Fin s.rank))
    (h' : s.ReducesTo axes Cert.Pre_finite_inputs.S_) (hu : 0 < Cert.Pre_finite_inputs.S_.numel)
    (e : Host.reduce IntOp.andi
          (cmpf .olt (Host.absf x)
            (broadcastInDim s ![] b (constant (F := Ideal) Cert.Pre_finite_inputs.S_ .f32 0x7F800000#32)))
          (constantI Cert.Pre_finite_inputs.S_ 1 1#1) h' hu ix0 = 1#1) :
    IsReal x := by
  intro i
  have hi := Host.reduce_andi_all _ _ h' hu ix0 e i
  refine real_of_abs_lt_inf (x i) ?_
  have hb : broadcastInDim s ![] b (constant (F := Ideal) Cert.Pre_finite_inputs.S_ .f32 0x7F800000#32) i
      = Ideal.ofBits .f32 0x7F800000#32 :=
    broadcastInDim_apply _ b _ i ix0 (fun a => a.elim0)
  rw [← hb]
  exact hi

/-- The printed predicate, all ones, makes every entry of the six arrays a real number. -/
theorem isReal_of_fn [Cert.Pre_finite_inputs.Facts]
    (a0 a1 a2 : FVec Ideal Cert.Pre_finite_inputs.S8192x1024 .f32) (a3 a4 a5 : FVec Ideal Cert.Pre_finite_inputs.S1024x64 .f32)
    (h : Cert.Pre_finite_inputs.fn (F := Ideal) a0 a1 a2 a3 a4 a5 = fun _ => 1#1) :
    IsReal a0 ∧ IsReal a1 ∧ IsReal a2 ∧ IsReal a3 ∧ IsReal a4 ∧ IsReal a5 := by
  have h0 := congrFun h ix0
  dsimp only [Cert.Pre_finite_inputs.fn, Cert.Pre_finite_inputs.fn_part1, Idealize.ShloMosaic.andi] at h0
  simp only [IntOp.andi_eq_one] at h0
  obtain ⟨⟨⟨⟨⟨e0, e1⟩, e2⟩, e3⟩, e4⟩, e5⟩ := h0
  exact ⟨isReal_of_all a0 _ _ _ e0, isReal_of_all a1 _ _ _ e1, isReal_of_all a2 _ _ _ e2,
    isReal_of_all a3 _ _ _ e3, isReal_of_all a4 _ _ _ e4, isReal_of_all a5 _ _ _ e5⟩

/-- Under the precondition every entry of the kernel's six argument arrays is a real number, on every device. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    IsReal (m ((c.tc : Thread Cert.KernelIdeal.nD Cert.KernelIdeal.τ).loc Cert.KernelIdeal.main_arg0))
    ∧ IsReal (m ((c.tc : Thread Cert.KernelIdeal.nD Cert.KernelIdeal.τ).loc Cert.KernelIdeal.main_arg1))
    ∧ IsReal (m ((c.tc : Thread Cert.KernelIdeal.nD Cert.KernelIdeal.τ).loc Cert.KernelIdeal.main_arg2))
    ∧ IsReal (m ((c.tc : Thread Cert.KernelIdeal.nD Cert.KernelIdeal.τ).loc Cert.KernelIdeal.main_arg3))
    ∧ IsReal (m ((c.tc : Thread Cert.KernelIdeal.nD Cert.KernelIdeal.τ).loc Cert.KernelIdeal.main_arg4))
    ∧ IsReal (m ((c.tc : Thread Cert.KernelIdeal.nD Cert.KernelIdeal.τ).loc Cert.KernelIdeal.main_arg5)) :=
  isReal_of_fn _ _ _ _ _ _ (h c)

end Cert.RefBridge

end
-- ==== Proof.lean ====
/-
  The proof of the certificate's claim for an attention whose softmax runs over the QUERY axis.

  Both programs take three sequences of 8192 rows and three 1024 by 64 weight matrices. They project the sequences to
  q, k, v, form the scores q k^T / 8, normalise each COLUMN of the score matrix over the query rows, and multiply by v.
  The kernel does it in five pipelines: the three projections; a pass that, for each key row j, computes
  lse j = M j + log (sum over i of exp (s i j - M j)) with M j the column's maximum; and a pass that accumulates, block
  of key rows by block of key rows, exp (s i j - lse j) times v. The reference divides exp (s i j - M j) by the column's
  sum of those exponentials. With every input entry finite all of these are real numbers, the column sums are
  positive, and exp (a - (M + log S)) = exp (a - M) / S: the two programs compute one function of the arguments.

  The three frame claims: each kernel program runs to the end without a fault and returns its arguments unchanged (the
  five pipelines chained, the last one carrying its accumulator in the pipeline's invariant); the reference is a
  straight line of host operations. The idealization rewrote nothing, so it preserves the program trivially. For the
  value claim both runs' posts are stated at the same function of the arguments (the specification), the kernel's by
  the values of its five pipelines, the reference's by its operations read one at a time and the identity above.
-/
import proofs.«154009_j33311766348286_1_alg».proof.Defs
import proofs.«154009_j33311766348286_1_alg».proof.Proof.Gen.Kernel
import proofs.«154009_j33311766348286_1_alg».proof.Proof.Gen.KernelIdeal
import proofs.«154009_j33311766348286_1_alg».proof.Proof.Gen.ReferenceIdeal
import proofs.«154009_j33311766348286_1_alg».proof.Proof.Gen.ReferenceIdeal.Run
import proofs.«154009_j33311766348286_1_alg».proof.Proof.Gen.ReferenceIdeal.Read
import proofs.«154009_j33311766348286_1_alg».proof.Proof.Gen.Pre_finite_inputs
import proofs.«154009_j33311766348286_1_alg».proof.Proof.KbRun
import proofs.«154009_j33311766348286_1_alg».proof.Proof.KiValAll
import proofs.«154009_j33311766348286_1_alg».proof.Proof.RefEq
import proofs.«154009_j33311766348286_1_alg».proof.Proof.RefPre
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The word-level kernel runs to the end and returns its arguments. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- With finite inputs the two idealized programs end with equal results: both are the specification's function of the
    arguments, index by index. -/
theorem algebraic : Cert.algebraic_KernelIdeal_ReferenceIdeal := by
  intro m ρ m' ρ' hpre hagree
  refine ⟨fun c => Cert.KernelIdeal.Fr.W5 m ρ c (Proc.devRef .tc Cert.KernelIdeal.main_v4), ?_, ?_⟩
  · refine (θ_run Cert.KernelIdeal.defs _ _).mono (fun _ h c => ?_) (Cert.KernelIdeal.Fr.run_all m ρ)
    exact ⟨h c _ (Cert.KernelIdeal.Fr.mem_uc Cert.KernelIdeal.main_v4 (by decide)),
      (h c _ (Cert.KernelIdeal.Fr.mem_uc Cert.KernelIdeal.main_arg0 (by decide))).trans (Cert.KernelIdeal.Fr.W5_main_arg0 m ρ c),
      (h c _ (Cert.KernelIdeal.Fr.mem_uc Cert.KernelIdeal.main_arg1 (by decide))).trans (Cert.KernelIdeal.Fr.W5_main_arg1 m ρ c),
      (h c _ (Cert.KernelIdeal.Fr.mem_uc Cert.KernelIdeal.main_arg2 (by decide))).trans (Cert.KernelIdeal.Fr.W5_main_arg2 m ρ c),
      (h c _ (Cert.KernelIdeal.Fr.mem_uc Cert.KernelIdeal.main_arg3 (by decide))).trans (Cert.KernelIdeal.Fr.W5_main_arg3 m ρ c),
      (h c _ (Cert.KernelIdeal.Fr.mem_uc Cert.KernelIdeal.main_arg4 (by decide))).trans (Cert.KernelIdeal.Fr.W5_main_arg4 m ρ c),
      (h c _ (Cert.KernelIdeal.Fr.mem_uc Cert.KernelIdeal.main_arg5 (by decide))).trans (Cert.KernelIdeal.Fr.W5_main_arg5 m ρ c)⟩
  · refine (θ_run Cert.ReferenceIdeal.defs _ _).mono (fun _ h c => ⟨(h c).1.trans ?_, (h c).2⟩)
      (Cert.ReferenceIdeal.Value.run (F := Ideal) m' ρ')
    obtain ⟨r0, r1, r2, r3, r4, r5⟩ := Cert.RefBridge.real_of_pre m hpre c
    obtain ⟨a0, a1, a2, a3, a4, a5⟩ := hagree c
    refine (Cert.ReferenceIdeal.Read.val_main_v19_eq _ _ _ _ _ _).trans ?_
    rw [a0, a1, a2, a3, a4, a5]
    funext idx
    obtain ⟨i, d, rfl⟩ : ∃ (i : Fin 8192) (d : Fin 64), idx = ix2 i d := ⟨idx 0, idx 1, eq_ix2 idx⟩
    exact (Cert.RefBridge.ref_eq _ _ _ _ _ _ r0 r1 r2 r3 r4 r5 i d).trans (Cert.KernelIdeal.Val.kernel_value m ρ c i d).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
